-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1600000 : S_.BroadcastsInDim S1600000 (![] : Fin 0 → Fin S1600000.rank)
  reducesTo_S1600000_S_d0 : S1600000.ReducesTo [0] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S1 .f32) (main_arg1 : IVec S2x1600000 32) (main_arg2 : FVec F S1600000 .f32) (main_arg3 : FVec F S100000x128 .f32) (main_arg4 : FVec F S128x128 .f32) (main_arg5 : FVec F S128x128 .f32) (main_arg6 : FVec F S128x128 .f32) (main_arg7 : FVec F S128 .f32) (main_arg8 : FVec F S128 .f32) (main_arg9 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S1 : Shape := ⟨1, ![1]⟩
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x512 : Shape := ⟨2, ![100000, 512]⟩

abbrev nBuf : Space → Nat
  | .hbm => 138
  | .vmem => 30
  | .smem => 0
  | _ => 0

abbrev hbmTy0_0 (i : Nat) : BufTy := match i % 128 with
  | 0 => ⟨S1, .f32⟩
  | 1 => ⟨S2x1600000, .i32⟩
  | 2 => ⟨S1600000, .f32⟩
  | 3 => ⟨S100000x128, .f32⟩
  | 4 => ⟨S128x128, .f32⟩
  | 5 => ⟨S128x128, .f32⟩
  | 6 => ⟨S128x128, .f32⟩
  | 7 => ⟨S128, .f32⟩
  | 8 => ⟨S128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S1600000, .i1⟩
  | 15 => ⟨S_, .i32⟩
  | 16 => ⟨S_, .i32⟩
  | 17 => ⟨S1600000, .i32⟩
  | 18 => ⟨S1600000, .i32⟩
  | 19 => ⟨S_, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S100000, .f32⟩
  | 30 => ⟨S_, .f32⟩
  | 31 => ⟨S1600000, .f32⟩
  | 32 => ⟨S1600000, .f32⟩
  | 33 => ⟨S100000, .i32⟩
  | 34 => ⟨S1700000, .i32⟩
  | 35 => ⟨S1700000, .i32⟩
  | 36 => ⟨S1700000, .f32⟩
  | 37 => ⟨S_, .f32⟩
  | 38 => ⟨S100000, .f32⟩
  | 39 => ⟨S1700000x1, .i32⟩
  | 40 => ⟨S100000, .f32⟩
  | 41 => ⟨S_, .f32⟩
  | 42 => ⟨S100000, .f32⟩
  | 43 => ⟨S100000, .i1⟩
  | 44 => ⟨S_, .f32⟩
  | 45 => ⟨S100000, .f32⟩
  | 46 => ⟨S100000, .f32⟩
  | 47 => ⟨S_, .f32⟩
  | 48 => ⟨S100000, .f32⟩
  | 49 => ⟨S100000, .i1⟩
  | 50 => ⟨S100000, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S1700000, .f32⟩
  | 74 => ⟨S100000x128, .bf16⟩
  | 75 => ⟨S128x128, .bf16⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .bf16⟩
  | 96 => ⟨S128x128, .bf16⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .bf16⟩
  | 117 => ⟨S128x128, .bf16⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S1, .f32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x512, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .bf16⟩
  | .local _ .vmem, ⟨21, _⟩ => ⟨S10000x128, .bf16⟩
  | .local _ .vmem, ⟨22, _⟩ => ⟨S128x128, .bf16⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_call2_v0 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_call3_v0 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_18 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  concatenates_S100000x128_S100000x128_S100000x128_S100000x128_S100000x512_d1 : Shape.Concatenates [S100000x128, S100000x128, S100000x128, S100000x128] S100000x512 1
  scatter_S100000_S1600000x1_S1600000_n_0_0_1_wf : ScatterDims.WF S100000 S1600000x1 S1600000 [] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .bf16 = 32 ∨ (Rect.block (s := S100000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v45) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1 : Shape := ⟨1, ![1]⟩
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x512 : Shape := ⟨2, ![100000, 512]⟩

abbrev nBuf : Space → Nat
  | .hbm => 144
  | .vmem => 0
  | .smem => 0
  | _ => 0

abbrev hbmTy0_0 (i : Nat) : BufTy := match i % 128 with
  | 0 => ⟨S1, .f32⟩
  | 1 => ⟨S2x1600000, .i32⟩
  | 2 => ⟨S1600000, .f32⟩
  | 3 => ⟨S100000x128, .f32⟩
  | 4 => ⟨S128x128, .f32⟩
  | 5 => ⟨S128x128, .f32⟩
  | 6 => ⟨S128x128, .f32⟩
  | 7 => ⟨S128, .f32⟩
  | 8 => ⟨S128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S1600000, .i1⟩
  | 15 => ⟨S_, .i32⟩
  | 16 => ⟨S_, .i32⟩
  | 17 => ⟨S1600000, .i32⟩
  | 18 => ⟨S1600000, .i32⟩
  | 19 => ⟨S_, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S100000, .f32⟩
  | 30 => ⟨S_, .f32⟩
  | 31 => ⟨S1600000, .f32⟩
  | 32 => ⟨S1600000, .f32⟩
  | 33 => ⟨S100000, .i32⟩
  | 34 => ⟨S1700000, .i32⟩
  | 35 => ⟨S1700000, .i32⟩
  | 36 => ⟨S1700000, .f32⟩
  | 37 => ⟨S_, .f32⟩
  | 38 => ⟨S100000, .f32⟩
  | 39 => ⟨S1700000x1, .i32⟩
  | 40 => ⟨S100000, .f32⟩
  | 41 => ⟨S_, .f32⟩
  | 42 => ⟨S100000, .f32⟩
  | 43 => ⟨S100000, .i1⟩
  | 44 => ⟨S_, .f32⟩
  | 45 => ⟨S100000, .f32⟩
  | 46 => ⟨S100000, .f32⟩
  | 47 => ⟨S_, .f32⟩
  | 48 => ⟨S100000, .f32⟩
  | 49 => ⟨S100000, .i1⟩
  | 50 => ⟨S100000, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S1700000, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S1700000x1, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S1, .f32⟩

abbrev hbmTy0_1 (i : Nat) : BufTy := match i % 128 with
  | 0 => ⟨S1700000, .i32⟩
  | 1 => ⟨S1700000x1, .i32⟩
  | 2 => ⟨S1700000x128, .f32⟩
  | 3 => ⟨S1700000x128, .f32⟩
  | 4 => ⟨S1700000x128, .f32⟩
  | 5 => ⟨S_, .f32⟩
  | 6 => ⟨S100000x128, .f32⟩
  | 7 => ⟨S1700000x1, .i32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x512, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_call2_v0 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_call3_v0 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call4_cst : Ref sig .tc := ⟨.hbm, 94, rfl⟩
abbrev main_call4_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_c_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call5_cst : Ref sig .tc := ⟨.hbm, 117, rfl⟩
abbrev main_call5_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_18 : Ref sig .tc := ⟨.hbm, 122, rfl⟩
abbrev main_v83 : Ref sig .tc := ⟨.hbm, 123, rfl⟩
abbrev main_v84 : Ref sig .tc := ⟨.hbm, 124, rfl⟩
abbrev main_c_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call6_cst : Ref sig .tc := ⟨.hbm, 140, rfl⟩
abbrev main_call6_v0 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  scatter_S100000_S1600000x1_S1600000_n_0_0_1_wf : ScatterDims.WF S100000 S1600000x1 S1600000 [] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KReg0.lean ====
/-
  Pallas region 0 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The second operand's staging buffer likewise: its block index never moves, so it is fetched once and stays. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each the whole of its staging buffer. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-- The output's staging buffer after the body, from the two loaded blocks: one store over the whole buffer. -/
def out0_2 (x0 : Vec F S10000x128 .bf16) (x1 : Vec F S128x128 .bf16) : Vec F S10000x128 .f32 :=
  View.canon [⟨r0_2, k0_pay1 (View.ld x0 r0_0) (View.ld x1 r0_1)⟩]

/-- The one store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging buffers, the operands' at contents `x0`, `x1` and the output's at anything, runs to its
    return with the operands' as they were and the output's at `out0_2 x0 x1`. -/
theorem sound_kernel0 (c : Dev nD) (E : Set ℕ) (i : grid0.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point `t`
    each operand's buffer at its block and the output's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KReg1.lean ====
/-
  Pallas region 1 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The second operand's staging buffer likewise: its block index never moves, so it is fetched once and stays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: each the whole of its staging buffer. -/
abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S10000x128 := Rect.unit (s := S10000x128) ![0, 0] S10000x128.size inb_S10000x128_S10000x128_0_0

/-- The output's staging buffer after the body, from the two loaded blocks: one store over the whole buffer. -/
def out1_2 (x0 : Vec F S10000x128 .f32) (x1 : Vec F S1x128 .f32) : Vec F S10000x128 .f32 :=
  View.canon [⟨r1_2, k1_pay1 (View.ld x0 r1_0) (View.ld x1 r1_1)⟩]

/-- The one store covers the buffer. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

set_option maxHeartbeats 1000000 in
/-- The body on whole staging buffers, the operands' at contents `x0`, `x1` and the output's at anything, runs to its
    return with the operands' as they were and the output's at `out1_2 x0 x1`. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region's pipeline on core `c`: the arrays as the region finds them; after the body at point `t`
    each operand's buffer at its block and the output's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KReg2.lean ====
/-
  Pallas region 2 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The second operand's staging buffer likewise: its block index never moves, so it is fetched once and stays. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each the whole of its staging buffer. -/
abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S10000x128 := Rect.unit (s := S10000x128) ![0, 0] S10000x128.size inb_S10000x128_S10000x128_0_0

/-- The output's staging buffer after the body, from the two loaded blocks: one store over the whole buffer. -/
def out2_2 (x0 : Vec F S10000x128 .bf16) (x1 : Vec F S128x128 .bf16) : Vec F S10000x128 .f32 :=
  View.canon [⟨r2_2, k2_pay1 (View.ld x0 r2_0) (View.ld x1 r2_1)⟩]

/-- The one store covers the buffer. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

set_option maxHeartbeats 1000000 in
/-- The body on whole staging buffers, the operands' at contents `x0`, `x1` and the output's at anything, runs to its
    return with the operands' as they were and the output's at `out2_2 x0 x1`. -/
theorem sound_kernel2 (c : Dev nD) (E : Set ℕ) (i : grid2.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at point `t`
    each operand's buffer at its block and the output's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.KReg3.lean ====
/-
  Pallas region 3 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's staging buffer holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The second operand's staging buffer likewise: its block index never moves, so it is fetched once and stays. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's three accesses: each the whole of its staging buffer. -/
abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0
abbrev r3_2 : Rect S10000x128 := Rect.unit (s := S10000x128) ![0, 0] S10000x128.size inb_S10000x128_S10000x128_0_0

/-- The output's staging buffer after the body, from the two loaded blocks: one store over the whole buffer. -/
def out3_2 (x0 : Vec F S10000x128 .f32) (x1 : Vec F S1x128 .f32) : Vec F S10000x128 .f32 :=
  View.canon [⟨r3_2, k3_pay1 (View.ld x0 r3_0) (View.ld x1 r3_1)⟩]

/-- The one store covers the buffer. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

set_option maxHeartbeats 1000000 in
/-- The body on whole staging buffers, the operands' at contents `x0`, `x1` and the output's at anything, runs to its
    return with the operands' as they were and the output's at `out3_2 x0 x1`. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the region's pipeline on core `c`: the arrays as the region finds them; after the body at point `t`
    each operand's buffer at its block and the output's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.KReg4.lean ====
/-
  Pallas region 4 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first operand's staging buffer holds its block at every point, for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The second operand's staging buffer likewise: its block index never moves, so it is fetched once and stays. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's three accesses: each the whole of its staging buffer. -/
abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S10000x128 := Rect.unit (s := S10000x128) ![0, 0] S10000x128.size inb_S10000x128_S10000x128_0_0

/-- The output's staging buffer after the body, from the two loaded blocks: one store over the whole buffer. -/
def out4_2 (x0 : Vec F S10000x128 .bf16) (x1 : Vec F S128x128 .bf16) : Vec F S10000x128 .f32 :=
  View.canon [⟨r4_2, k4_pay1 (View.ld x0 r4_0) (View.ld x1 r4_1)⟩]

/-- The one store covers the buffer. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

set_option maxHeartbeats 1000000 in
/-- The body on whole staging buffers, the operands' at contents `x0`, `x1` and the output's at anything, runs to its
    return with the operands' as they were and the output's at `out4_2 x0 x1`. -/
theorem sound_kernel4 (c : Dev nD) (E : Set ℕ) (i : grid4.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at point `t`
    each operand's buffer at its block and the output's at `out4_2` of the two blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.KReg5.lean ====
/-
  Pallas region 5 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.Kernel.Launch
import proofs.«104296_j21801253994527_1_alg».proof.Proof.Gen.Kernel.Skeleton
import proofs.«104296_j21801253994527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The first operand's staging buffer holds its block at every point, for any proof data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The second operand's staging buffer likewise: its block index never moves, so it is fetched once and stays. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The body's three accesses: each the whole of its staging buffer. -/
abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0
abbrev r5_2 : Rect S10000x128 := Rect.unit (s := S10000x128) ![0, 0] S10000x128.size inb_S10000x128_S10000x128_0_0

/-- The output's staging buffer after the body, from the two loaded blocks: one store over the whole buffer. -/
def out5_2 (x0 : Vec F S10000x128 .f32) (x1 : Vec F S1x128 .f32) : Vec F S10000x128 .f32 :=
  View.canon [⟨r5_2, k5_pay1 (View.ld x0 r5_0) (View.ld x1 r5_1)⟩]

/-- The one store covers the buffer. -/
theorem cover5_2 (p0 : Vec F S10000x128 .f32) (y : S10000x128.Idx) :
    ∃ pc ∈ ([⟨r5_2, p0⟩] : List (View.Piece (Elt F) S10000x128 .f32)), y ∈ pc.1.set :=
  View.cover_of_tiled [⟨r5_2, p0⟩] S10000x128.size (by rfl) y

set_option maxHeartbeats 1000000 in
/-- The body on whole staging buffers, the operands' at contents `x0`, `x1` and the output's at anything, runs to its
    return with the operands' as they were and the output's at `out5_2 x0 x1`. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region's pipeline on core `c`: the arrays as the region finds them; after the body at point `t`
    each operand's buffer at its block and the output's at `out5_2` of the two blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the operands' buffers hold their blocks, so the body's triple applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.KRun.lean ====
/-
  The whole run of @main: nine stretches of host operations, then six pallas regions alternating with host stretches,
  then the final concatenation.  The buffer contents between two items are a chain of valuations: a host stretch
  applies its operations, a region replaces its output array by what its pipeline's write-backs leave (its operands
  are staged and left as they were).  Each region is entered from the thread state "every unscoped buffer at the
  chain's contents, the generator register at some state, nothing owed" and left at the next; the library's run of
  segments then gives: every weakly fair execution of @main terminates, nothing faulting, and every unscoped buffer
  ends at the chain's last valuation.  Generic in the float instance.
-/
import proofs.«104296_j21801253994527_1_alg».proof.Proof.KReg0
import proofs.«104296_j21801253994527_1_alg».proof.Proof.KReg1
import proofs.«104296_j21801253994527_1_alg».proof.Proof.KReg2
import proofs.«104296_j21801253994527_1_alg».proof.Proof.KReg3
import proofs.«104296_j21801253994527_1_alg».proof.Proof.KReg4
import proofs.«104296_j21801253994527_1_alg».proof.Proof.KReg5
import proofs.«104296_j21801253994527_1_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain of buffer contents, with each region's result spelt out -/

/-- The contents when region 0 is entered, read at the TensorCore's references. -/
abbrev E9 : (c : Dev nD) → (b : Ref sig .tc) → Buf (Elt F) ((c : Thread nD τ).loc b) := fun c b => V9 m c b
/-- What region 0 leaves in its output array `main_v47`: its pipeline's write-backs folded over the grid. -/
def o47 (c : Dev nD) : Buf (Elt F) ((c : Thread nD τ).loc main_v47) := (dat0 (E9 m) c).arrAt 2 cfg0.N
/-- The contents after region 0. -/
abbrev X10 (c : Dev nD) : Valuation τ sig (Elt F) := Function.update (V9 m c) main_v47 (o47 m c)
abbrev E10 : (c : Dev nD) → (b : Ref sig .tc) → Buf (Elt F) ((c : Thread nD τ).loc b) := fun c b => X10 m c b
/-- The contents after the host stretch `hostOps1` that follows it (the next region's entry). -/
abbrev X11 (c : Dev nD) : Valuation τ sig (Elt F) := StableHlo.after hostOps1 (X10 m c)
abbrev E11 : (c : Dev nD) → (b : Ref sig .tc) → Buf (Elt F) ((c : Thread nD τ).loc b) := fun c b => X11 m c b
/-- What region 1 leaves in its output array `main_v62`: its pipeline's write-backs folded over the grid. -/
def o62 (c : Dev nD) : Buf (Elt F) ((c : Thread nD τ).loc main_v62) := (dat1 (E11 m) c).arrAt 2 cfg1.N
/-- The contents after region 1. -/
abbrev X12 (c : Dev nD) : Valuation τ sig (Elt F) := Function.update (X11 m c) main_v62 (o62 m c)
abbrev E12 : (c : Dev nD) → (b : Ref sig .tc) → Buf (Elt F) ((c : Thread nD τ).loc b) := fun c b => X12 m c b
/-- The contents after the host stretch `hostOps2` that follows it (the next region's entry). -/
abbrev X13 (c : Dev nD) : Valuation τ sig (Elt F) := StableHlo.after hostOps2 (X12 m c)
abbrev E13 : (c : Dev nD) → (b : Ref sig .tc) → Buf (Elt F) ((c : Thread nD τ).loc b) := fun c b => X13 m c b
/-- What region 2 leaves in its output array `main_v65`: its pipeline's write-backs folded over the grid. -/
def o65 (c : Dev nD) : Buf (Elt F) ((c : Thread nD τ).loc main_v65) := (dat2 (E13 m) c).arrAt 2 cfg2.N
/-- The contents after region 2. -/
abbrev X14 (c : Dev nD) : Valuation τ sig (Elt F) := Function.update (X13 m c) main_v65 (o65 m c)
abbrev E14 : (c : Dev nD) → (b : Ref sig .tc) → Buf (Elt F) ((c : Thread nD τ).loc b) := fun c b => X14 m c b
/-- The contents after the host stretch `hostOps3` that follows it (the next region's entry). -/
abbrev X15 (c : Dev nD) : Valuation τ sig (Elt F) := StableHlo.after hostOps3 (X14 m c)
abbrev E15 : (c : Dev nD) → (b : Ref sig .tc) → Buf (Elt F) ((c : Thread nD τ).loc b) := fun c b => X15 m c b
/-- What region 3 leaves in its output array `main_v80`: its pipeline's write-backs folded over the grid. -/
def o80 (c : Dev nD) : Buf (Elt F) ((c : Thread nD τ).loc main_v80) := (dat3 (E15 m) c).arrAt 2 cfg3.N
/-- The contents after region 3. -/
abbrev X16 (c : Dev nD) : Valuation τ sig (Elt F) := Function.update (X15 m c) main_v80 (o80 m c)
abbrev E16 : (c : Dev nD) → (b : Ref sig .tc) → Buf (Elt F) ((c : Thread nD τ).loc b) := fun c b => X16 m c b
/-- The contents after the host stretch `hostOps4` that follows it (the next region's entry). -/
abbrev X17 (c : Dev nD) : Valuation τ sig (Elt F) := StableHlo.after hostOps4 (X16 m c)
abbrev E17 : (c : Dev nD) → (b : Ref sig .tc) → Buf (Elt F) ((c : Thread nD τ).loc b) := fun c b => X17 m c b
/-- What region 4 leaves in its output array `main_v83`: its pipeline's write-backs folded over the grid. -/
def o83 (c : Dev nD) : Buf (Elt F) ((c : Thread nD τ).loc main_v83) := (dat4 (E17 m) c).arrAt 2 cfg4.N
/-- The contents after region 4. -/
abbrev X18 (c : Dev nD) : Valuation τ sig (Elt F) := Function.update (X17 m c) main_v83 (o83 m c)
abbrev E18 : (c : Dev nD) → (b : Ref sig .tc) → Buf (Elt F) ((c : Thread nD τ).loc b) := fun c b => X18 m c b
/-- The contents after the host stretch `hostOps5` that follows it (the next region's entry). -/
abbrev X19 (c : Dev nD) : Valuation τ sig (Elt F) := StableHlo.after hostOps5 (X18 m c)
abbrev E19 : (c : Dev nD) → (b : Ref sig .tc) → Buf (Elt F) ((c : Thread nD τ).loc b) := fun c b => X19 m c b
/-- What region 5 leaves in its output array `main_v98`: its pipeline's write-backs folded over the grid. -/
def o98 (c : Dev nD) : Buf (Elt F) ((c : Thread nD τ).loc main_v98) := (dat5 (E19 m) c).arrAt 2 cfg5.N
/-- The contents after region 5. -/
abbrev X20 (c : Dev nD) : Valuation τ sig (Elt F) := Function.update (X19 m c) main_v98 (o98 m c)
abbrev E20 : (c : Dev nD) → (b : Ref sig .tc) → Buf (Elt F) ((c : Thread nD τ).loc b) := fun c b => X20 m c b

/-- The regions' results as the family the generated chain of valuations is written over (read only at each region's
    own output array). -/
def outs : Gen.Outs (F := F) := fun _ r c =>
  if h : r = main_v47 then h ▸ o47 m c
  else if h : r = main_v62 then h ▸ o62 m c
  else if h : r = main_v65 then h ▸ o65 m c
  else if h : r = main_v80 then h ▸ o80 m c
  else if h : r = main_v83 then h ▸ o83 m c
  else if h : r = main_v98 then h ▸ o98 m c
  else m ((c : Thread nD τ).loc r)

theorem outs_47 (n : ℕ) (c : Dev nD) : outs m n main_v47 c = o47 m c := by
  unfold outs; rw [dif_pos rfl]
theorem outs_62 (n : ℕ) (c : Dev nD) : outs m n main_v62 c = o62 m c := by
  unfold outs; rw [dif_neg (by decide), dif_pos rfl]
theorem outs_65 (n : ℕ) (c : Dev nD) : outs m n main_v65 c = o65 m c := by
  unfold outs; rw [dif_neg (by decide), dif_neg (by decide), dif_pos rfl]
theorem outs_80 (n : ℕ) (c : Dev nD) : outs m n main_v80 c = o80 m c := by
  unfold outs; rw [dif_neg (by decide), dif_neg (by decide), dif_neg (by decide), dif_pos rfl]
theorem outs_83 (n : ℕ) (c : Dev nD) : outs m n main_v83 c = o83 m c := by
  unfold outs; rw [dif_neg (by decide), dif_neg (by decide), dif_neg (by decide), dif_neg (by decide), dif_pos rfl]
theorem outs_98 (n : ℕ) (c : Dev nD) : outs m n main_v98 c = o98 m c := by
  unfold outs; rw [dif_neg (by decide), dif_neg (by decide), dif_neg (by decide), dif_neg (by decide), dif_neg (by decide), dif_pos rfl]

/-! The generated chain at these results is the chain above. -/
theorem VX10 (c : Dev nD) : V10 m (outs m) c = X10 m c := by
  show Function.update (V9 m c) main_v47 (outs m 10 main_v47 c) = _
  rw [outs_47]
theorem VX11 (c : Dev nD) : V11 m (outs m) c = X11 m c := by
  show StableHlo.after hostOps1 (V10 m (outs m) c) = _
  rw [VX10]
theorem VX12 (c : Dev nD) : V12 m (outs m) c = X12 m c := by
  show Function.update (V11 m (outs m) c) main_v62 (outs m 12 main_v62 c) = _
  rw [outs_62, VX11]
theorem VX13 (c : Dev nD) : V13 m (outs m) c = X13 m c := by
  show StableHlo.after hostOps2 (V12 m (outs m) c) = _
  rw [VX12]
theorem VX14 (c : Dev nD) : V14 m (outs m) c = X14 m c := by
  show Function.update (V13 m (outs m) c) main_v65 (outs m 14 main_v65 c) = _
  rw [outs_65, VX13]
theorem VX15 (c : Dev nD) : V15 m (outs m) c = X15 m c := by
  show StableHlo.after hostOps3 (V14 m (outs m) c) = _
  rw [VX14]
theorem VX16 (c : Dev nD) : V16 m (outs m) c = X16 m c := by
  show Function.update (V15 m (outs m) c) main_v80 (outs m 16 main_v80 c) = _
  rw [outs_80, VX15]
theorem VX17 (c : Dev nD) : V17 m (outs m) c = X17 m c := by
  show StableHlo.after hostOps4 (V16 m (outs m) c) = _
  rw [VX16]
theorem VX18 (c : Dev nD) : V18 m (outs m) c = X18 m c := by
  show Function.update (V17 m (outs m) c) main_v83 (outs m 18 main_v83 c) = _
  rw [outs_83, VX17]
theorem VX19 (c : Dev nD) : V19 m (outs m) c = X19 m c := by
  show StableHlo.after hostOps5 (V18 m (outs m) c) = _
  rw [VX18]
theorem VX20 (c : Dev nD) : V20 m (outs m) c = X20 m c := by
  show Function.update (V19 m (outs m) c) main_v98 (outs m 20 main_v98 c) = _
  rw [outs_98, VX19]

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (E9 m) c
  | ⟨1, _⟩ => fun c => dat1 (E11 m) c
  | ⟨2, _⟩ => fun c => dat2 (E13 m) c
  | ⟨3, _⟩ => fun c => dat3 (E15 m) c
  | ⟨4, _⟩ => fun c => dat4 (E17 m) c
  | ⟨5, _⟩ => fun c => dat5 (E19 m) c

abbrev vnone : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)
abbrev Er : Fin 7 → Dev nD → sProp 𝕄 := fun _ c => Rr c

/-- After region 0 its output array holds the folded write-backs, -/
theorem X10_out (c : Dev nD) : X10 m c main_v47 = o47 m c := by
  simp only [X10, Function.update_self]
/-- and every other buffer what it held at entry. -/
theorem X10_ne (c : Dev nD) (b : Ref sig .tc) (h : b ≠ main_v47) : X10 m c b = V9 m c b := by
  simp only [X10, Function.update_of_ne (StableHlo.devRef_ne_of_ne h : (Proc.devRef .tc b : DevRef τ sig) ≠ Proc.devRef .tc main_v47)]
theorem hF0 (c : Dev nD) (w : Fin cfg0.W) : (pdats m 0 c).arrAt w cfg0.N = E10 m c (Pipeline.arrRef spec0 w) := by
  match w with
  | ⟨0, _⟩ => exact ((pdats m 0 c).arrAt_in 0 rfl _).trans (X10_ne m c main_v45 (by decide)).symm
  | ⟨1, _⟩ => exact ((pdats m 0 c).arrAt_in 1 rfl _).trans (X10_ne m c main_v46 (by decide)).symm
  | ⟨2, _⟩ => exact (X10_out m c).symm
theorem hrest0 (c : Dev nD) : ∀ b, b ∉ Finset.univ.image (Pipeline.arrRef spec0) → E10 m c b = E9 m c b :=
  fun b hb => X10_ne m c b fun h => hb (h ▸ Finset.mem_image.mpr ⟨2, Finset.mem_univ _, rfl⟩)

set_option backward.isDefEq.respectTransparency.types false in
/-- Region 0 over the thread state: entered from every unscoped buffer at the chain's contents before it, left at
    the contents after it.  Its arrays are split out of the unscoped buffers and put back at the exit contents; the
    generator register goes into the pipeline's invariant and comes back; nothing is owed; the kernel has no semaphore of its own. -/
def reg0 : RegionSeg (pcfgs (F := F)) adm (pdats m) () defs₀ vnone Lz lvz 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Lz lvz 0 fun _ _ => rfl
  pre c := iprop(StableHlo.held (c : Thread nD τ) (Pipeline.ucRefs τ sig) (V9 m c) ∗ Rr c)
  post c := iprop(StableHlo.held (c : Thread nD τ) (Pipeline.ucRefs τ sig) (X10 m c) ∗ Rr c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V9 m c) ∗ Er (F := F) 0 c) ⊢ (reg0 m).pre c := by
  exact .rfl
theorem hpost0 (c : Dev nD) : (reg0 m).post c ⊢ iprop(StableHlo.held (c : Thread nD τ) (Pipeline.ucRefs τ sig) (V10 m (outs m) c) ∗ Er (F := F) 1 c) := by
  rw [VX10]; exact .rfl

/-- After region 1 its output array holds the folded write-backs, -/
theorem X12_out (c : Dev nD) : X12 m c main_v62 = o62 m c := by
  simp only [X12, Function.update_self]
/-- and every other buffer what it held at entry. -/
theorem X12_ne (c : Dev nD) (b : Ref sig .tc) (h : b ≠ main_v62) : X12 m c b = X11 m c b := by
  simp only [X12, Function.update_of_ne (StableHlo.devRef_ne_of_ne h : (Proc.devRef .tc b : DevRef τ sig) ≠ Proc.devRef .tc main_v62)]
theorem hF1 (c : Dev nD) (w : Fin cfg1.W) : (pdats m 1 c).arrAt w cfg1.N = E12 m c (Pipeline.arrRef spec1 w) := by
  match w with
  | ⟨0, _⟩ => exact ((pdats m 1 c).arrAt_in 0 rfl _).trans (X12_ne m c main_v60 (by decide)).symm
  | ⟨1, _⟩ => exact ((pdats m 1 c).arrAt_in 1 rfl _).trans (X12_ne m c main_v61 (by decide)).symm
  | ⟨2, _⟩ => exact (X12_out m c).symm
theorem hrest1 (c : Dev nD) : ∀ b, b ∉ Finset.univ.image (Pipeline.arrRef spec1) → E12 m c b = E11 m c b :=
  fun b hb => X12_ne m c b fun h => hb (h ▸ Finset.mem_image.mpr ⟨2, Finset.mem_univ _, rfl⟩)

set_option backward.isDefEq.respectTransparency.types false in
/-- Region 1 over the thread state: entered from every unscoped buffer at the chain's contents before it, left at
    the contents after it.  Its arrays are split out of the unscoped buffers and put back at the exit contents; the
    generator register goes into the pipeline's invariant and comes back; nothing is owed; the kernel has no semaphore of its own. -/
def reg1 : RegionSeg (pcfgs (F := F)) adm (pdats m) () defs₀ vnone Lz lvz 1 where
  win := launch1.win.to₀
  block_pos := launch1.block_pos
  stage_whole := launch1.stage_whole
  K := PEmpty
  osem k := k.elim
  ho := Pipeline.OwnSemFacts.none _
  hbody c := (body_obligation1 (E11 m) c).loose
  hwaits := Pipeline.hwaits_of_owed_zero _ _ _ _ Lz lvz 1 fun _ _ => rfl
  pre c := iprop(StableHlo.held (c : Thread nD τ) (Pipeline.ucRefs τ sig) (X11 m c) ∗ Rr c)
  post c := iprop(StableHlo.held (c : Thread nD τ) (Pipeline.ucRefs τ sig) (X12 m c) ∗ Rr c)
  X c := iprop(∃ r, prngReg c r)
  Y c := iprop(∃ r, prngReg c r)
  Z c := Pipeline.unscopedRest (Ix := Unit) (Name := ℕ) (U := UR sig nD τ) (Lvl := ℕ) spec1 c (E11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E11 m c) (E12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V11 m (outs m) c) ∗ Er (F := F) 1 c) ⊢ (reg1 m).pre c := by
  rw [VX11]; exact .rfl
theorem hpost1 (c : Dev nD) : (reg1 m).post c ⊢ iprop(StableHlo.held (c : Thread nD τ) (Pipeline.ucRefs τ sig) (V12 m (outs m) c) ∗ Er (F := F) 2 c) := by
  rw [VX12]; exact .rfl

/-- After region 2 its output array holds the folded write-backs, -/
theorem X14_out (c : Dev nD) : X14 m c main_v65 = o65 m c := by
  simp only [X14, Function.update_self]
/-- and every other buffer what it held at entry. -/
theorem X14_ne (c : Dev nD) (b : Ref sig .tc) (h : b ≠ main_v65) : X14 m c b = X13 m c b := by
  simp only [X14, Function.update_of_ne (StableHlo.devRef_ne_of_ne h : (Proc.devRef .tc b : DevRef τ sig) ≠ Proc.devRef .tc main_v65)]
theorem hF2 (c : Dev nD) (w : Fin cfg2.W) : (pdats m 2 c).arrAt w cfg2.N = E14 m c (Pipeline.arrRef spec2 w) := by
  match w with
  | ⟨0, _⟩ => exact ((pdats m 2 c).arrAt_in 0 rfl _).trans (X14_ne m c main_v63 (by decide)).symm
  | ⟨1, _⟩ => exact ((pdats m 2 c).arrAt_in 1 rfl _).trans (X14_ne m c main_v64 (by decide)).symm
  | ⟨2, _⟩ => exact (X14_out m c).symm
theorem hrest2 (c : Dev nD) : ∀ b, b ∉ Finset.univ.image (Pipeline.arrRef spec2) → E14 m c b = E13 m c b :=
  fun b hb => X14_ne m c b fun h => hb (h ▸ Finset.mem_image.mpr ⟨2, Finset.mem_univ _, rfl⟩)

set_option backward.isDefEq.respectTransparency.types false in
/-- Region 2 over the thread state: entered from every unscoped buffer at the chain's contents before it, left at
    the contents after it.  Its arrays are split out of the unscoped buffers and put back at the exit contents; the
    generator register goes into the pipeline's invariant and comes back; nothing is owed; the kernel has no semaphore of its own. -/
def reg2 : RegionSeg (pcfgs (F := F)) adm (pdats m) () defs₀ vnone Lz lvz 2 where
  win := launch2.win.to₀
  block_pos := launch2.block_pos
  stage_whole := launch2.stage_whole
  K := PEmpty
  osem k := k.elim
  ho := Pipeline.OwnSemFacts.none _
  hbody c := (body_obligation2 (E13 m) c).loose
  hwaits := Pipeline.hwaits_of_owed_zero _ _ _ _ Lz lvz 2 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec2 c (E13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E13 m c) (E14 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V13 m (outs m) c) ∗ Er (F := F) 2 c) ⊢ (reg2 m).pre c := by
  rw [VX13]; exact .rfl
theorem hpost2 (c : Dev nD) : (reg2 m).post c ⊢ iprop(StableHlo.held (c : Thread nD τ) (Pipeline.ucRefs τ sig) (V14 m (outs m) c) ∗ Er (F := F) 3 c) := by
  rw [VX14]; exact .rfl

/-- After region 3 its output array holds the folded write-backs, -/
theorem X16_out (c : Dev nD) : X16 m c main_v80 = o80 m c := by
  simp only [X16, Function.update_self]
/-- and every other buffer what it held at entry. -/
theorem X16_ne (c : Dev nD) (b : Ref sig .tc) (h : b ≠ main_v80) : X16 m c b = X15 m c b := by
  simp only [X16, Function.update_of_ne (StableHlo.devRef_ne_of_ne h : (Proc.devRef .tc b : DevRef τ sig) ≠ Proc.devRef .tc main_v80)]
theorem hF3 (c : Dev nD) (w : Fin cfg3.W) : (pdats m 3 c).arrAt w cfg3.N = E16 m c (Pipeline.arrRef spec3 w) := by
  match w with
  | ⟨0, _⟩ => exact ((pdats m 3 c).arrAt_in 0 rfl _).trans (X16_ne m c main_v78 (by decide)).symm
  | ⟨1, _⟩ => exact ((pdats m 3 c).arrAt_in 1 rfl _).trans (X16_ne m c main_v79 (by decide)).symm
  | ⟨2, _⟩ => exact (X16_out m c).symm
theorem hrest3 (c : Dev nD) : ∀ b, b ∉ Finset.univ.image (Pipeline.arrRef spec3) → E16 m c b = E15 m c b :=
  fun b hb => X16_ne m c b fun h => hb (h ▸ Finset.mem_image.mpr ⟨2, Finset.mem_univ _, rfl⟩)

set_option backward.isDefEq.respectTransparency.types false in
/-- Region 3 over the thread state: entered from every unscoped buffer at the chain's contents before it, left at
    the contents after it.  Its arrays are split out of the unscoped buffers and put back at the exit contents; the
    generator register goes into the pipeline's invariant and comes back; nothing is owed; the kernel has no semaphore of its own. -/
def reg3 : RegionSeg (pcfgs (F := F)) adm (pdats m) () defs₀ vnone Lz lvz 3 where
  win := launch3.win.to₀
  block_pos := launch3.block_pos
  stage_whole := launch3.stage_whole
  K := PEmpty
  osem k := k.elim
  ho := Pipeline.OwnSemFacts.none _
  hbody c := (body_obligation3 (E15 m) c).loose
  hwaits := Pipeline.hwaits_of_owed_zero _ _ _ _ Lz lvz 3 fun _ _ => rfl
  pre c := iprop(StableHlo.held (c : Thread nD τ) (Pipeline.ucRefs τ sig) (X15 m c) ∗ Rr c)
  post c := iprop(StableHlo.held (c : Thread nD τ) (Pipeline.ucRefs τ sig) (X16 m c) ∗ Rr c)
  X c := iprop(∃ r, prngReg c r)
  Y c := iprop(∃ r, prngReg c r)
  Z c := Pipeline.unscopedRest (Ix := Unit) (Name := ℕ) (U := UR sig nD τ) (Lvl := ℕ) spec3 c (E15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E15 m c) (E16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V15 m (outs m) c) ∗ Er (F := F) 3 c) ⊢ (reg3 m).pre c := by
  rw [VX15]; exact .rfl
theorem hpost3 (c : Dev nD) : (reg3 m).post c ⊢ iprop(StableHlo.held (c : Thread nD τ) (Pipeline.ucRefs τ sig) (V16 m (outs m) c) ∗ Er (F := F) 4 c) := by
  rw [VX16]; exact .rfl

/-- After region 4 its output array holds the folded write-backs, -/
theorem X18_out (c : Dev nD) : X18 m c main_v83 = o83 m c := by
  simp only [X18, Function.update_self]
/-- and every other buffer what it held at entry. -/
theorem X18_ne (c : Dev nD) (b : Ref sig .tc) (h : b ≠ main_v83) : X18 m c b = X17 m c b := by
  simp only [X18, Function.update_of_ne (StableHlo.devRef_ne_of_ne h : (Proc.devRef .tc b : DevRef τ sig) ≠ Proc.devRef .tc main_v83)]
theorem hF4 (c : Dev nD) (w : Fin cfg4.W) : (pdats m 4 c).arrAt w cfg4.N = E18 m c (Pipeline.arrRef spec4 w) := by
  match w with
  | ⟨0, _⟩ => exact ((pdats m 4 c).arrAt_in 0 rfl _).trans (X18_ne m c main_v81 (by decide)).symm
  | ⟨1, _⟩ => exact ((pdats m 4 c).arrAt_in 1 rfl _).trans (X18_ne m c main_v82 (by decide)).symm
  | ⟨2, _⟩ => exact (X18_out m c).symm
theorem hrest4 (c : Dev nD) : ∀ b, b ∉ Finset.univ.image (Pipeline.arrRef spec4) → E18 m c b = E17 m c b :=
  fun b hb => X18_ne m c b fun h => hb (h ▸ Finset.mem_image.mpr ⟨2, Finset.mem_univ _, rfl⟩)

set_option backward.isDefEq.respectTransparency.types false in
/-- Region 4 over the thread state: entered from every unscoped buffer at the chain's contents before it, left at
    the contents after it.  Its arrays are split out of the unscoped buffers and put back at the exit contents; the
    generator register goes into the pipeline's invariant and comes back; nothing is owed; the kernel has no semaphore of its own. -/
def reg4 : RegionSeg (pcfgs (F := F)) adm (pdats m) () defs₀ vnone Lz lvz 4 where
  win := launch4.win.to₀
  block_pos := launch4.block_pos
  stage_whole := launch4.stage_whole
  K := PEmpty
  osem k := k.elim
  ho := Pipeline.OwnSemFacts.none _
  hbody c := (body_obligation4 (E17 m) c).loose
  hwaits := Pipeline.hwaits_of_owed_zero _ _ _ _ Lz lvz 4 fun _ _ => rfl
  pre c := iprop(StableHlo.held (c : Thread nD τ) (Pipeline.ucRefs τ sig) (X17 m c) ∗ Rr c)
  post c := iprop(StableHlo.held (c : Thread nD τ) (Pipeline.ucRefs τ sig) (X18 m c) ∗ Rr c)
  X c := iprop(∃ r, prngReg c r)
  Y c := iprop(∃ r, prngReg c r)
  Z c := Pipeline.unscopedRest (Ix := Unit) (Name := ℕ) (U := UR sig nD τ) (Lvl := ℕ) spec4 c (E17 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E17 m c) (E18 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V17 m (outs m) c) ∗ Er (F := F) 4 c) ⊢ (reg4 m).pre c := by
  rw [VX17]; exact .rfl
theorem hpost4 (c : Dev nD) : (reg4 m).post c ⊢ iprop(StableHlo.held (c : Thread nD τ) (Pipeline.ucRefs τ sig) (V18 m (outs m) c) ∗ Er (F := F) 5 c) := by
  rw [VX18]; exact .rfl

/-- After region 5 its output array holds the folded write-backs, -/
theorem X20_out (c : Dev nD) : X20 m c main_v98 = o98 m c := by
  simp only [X20, Function.update_self]
/-- and every other buffer what it held at entry. -/
theorem X20_ne (c : Dev nD) (b : Ref sig .tc) (h : b ≠ main_v98) : X20 m c b = X19 m c b := by
  simp only [X20, Function.update_of_ne (StableHlo.devRef_ne_of_ne h : (Proc.devRef .tc b : DevRef τ sig) ≠ Proc.devRef .tc main_v98)]
theorem hF5 (c : Dev nD) (w : Fin cfg5.W) : (pdats m 5 c).arrAt w cfg5.N = E20 m c (Pipeline.arrRef spec5 w) := by
  match w with
  | ⟨0, _⟩ => exact ((pdats m 5 c).arrAt_in 0 rfl _).trans (X20_ne m c main_v96 (by decide)).symm
  | ⟨1, _⟩ => exact ((pdats m 5 c).arrAt_in 1 rfl _).trans (X20_ne m c main_v97 (by decide)).symm
  | ⟨2, _⟩ => exact (X20_out m c).symm
theorem hrest5 (c : Dev nD) : ∀ b, b ∉ Finset.univ.image (Pipeline.arrRef spec5) → E20 m c b = E19 m c b :=
  fun b hb => X20_ne m c b fun h => hb (h ▸ Finset.mem_image.mpr ⟨2, Finset.mem_univ _, rfl⟩)

set_option backward.isDefEq.respectTransparency.types false in
/-- Region 5 over the thread state: entered from every unscoped buffer at the chain's contents before it, left at
    the contents after it.  Its arrays are split out of the unscoped buffers and put back at the exit contents; the
    generator register goes into the pipeline's invariant and comes back; nothing is owed; the kernel has no semaphore of its own. -/
def reg5 : RegionSeg (pcfgs (F := F)) adm (pdats m) () defs₀ vnone Lz lvz 5 where
  win := launch5.win.to₀
  block_pos := launch5.block_pos
  stage_whole := launch5.stage_whole
  K := PEmpty
  osem k := k.elim
  ho := Pipeline.OwnSemFacts.none _
  hbody c := (body_obligation5 (E19 m) c).loose
  hwaits := Pipeline.hwaits_of_owed_zero _ _ _ _ Lz lvz 5 fun _ _ => rfl
  pre c := iprop(StableHlo.held (c : Thread nD τ) (Pipeline.ucRefs τ sig) (X19 m c) ∗ Rr c)
  post c := iprop(StableHlo.held (c : Thread nD τ) (Pipeline.ucRefs τ sig) (X20 m c) ∗ Rr c)
  X c := iprop(∃ r, prngReg c r)
  Y c := iprop(∃ r, prngReg c r)
  Z c := Pipeline.unscopedRest (Ix := Unit) (Name := ℕ) (U := UR sig nD τ) (Lvl := ℕ) spec5 c (E19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E19 m c) (E20 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V19 m (outs m) c) ∗ Er (F := F) 5 c) ⊢ (reg5 m).pre c := by
  rw [VX19]; exact .rfl
theorem hpost5 (c : Dev nD) : (reg5 m).post c ⊢ iprop(StableHlo.held (c : Thread nD τ) (Pipeline.ucRefs τ sig) (V20 m (outs m) c) ∗ Er (F := F) 6 c) := by
  rw [VX20]; exact .rfl

/-! ## The launch -/

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch deals every core its generator register and an empty `owes`: the first thread state's rest. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (Er (F := F) 0) : sProp 𝕄) := by
  refine Pipeline.initEach Lz lvz fun c => ?_
  iintro ⟨⟨-, HO, -, Hp, -⟩, -⟩
  imodintro
  isplitl [Hp]; · iexists _; iexact Hp
  iexists ∅; iexact HO

theorem hE6 (c : Dev nD) : Er (F := F) 6 c ⊢ (iprop(∃ W, owes (c : Thread nD τ) (0 : CellTallies nD τ sig Unit) W) : sProp 𝕄) := by
  iintro ⟨-, H⟩; iexact H

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () vnone Lz lvz (fun _ _ => rfl) ρ (outs m) (pdats m) 0 (fun _ => iprop(emp))
    (initOf (Pipeline.cells cfgs cellOf_inj) (Pipeline.launchToks cfgs cellOf_inj)) (hu0) (Er (F := F)) (hE0 ρ) (hE6)
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)

end Cert.Kernel.Reg

end
-- ==== Proof.KIReg0.lean ====
/-
  Pallas region 0 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The second operand's staging buffer likewise: its block index never moves, so it is fetched once and stays. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each the whole of its staging buffer. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-- The output's staging buffer after the body, from the two loaded blocks: one store over the whole buffer. -/
def out0_2 (x0 : Vec F S10000x128 .bf16) (x1 : Vec F S128x128 .bf16) : Vec F S10000x128 .f32 :=
  View.canon [⟨r0_2, k0_pay1 (View.ld x0 r0_0) (View.ld x1 r0_1)⟩]

/-- The one store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging buffers, the operands' at contents `x0`, `x1` and the output's at anything, runs to its
    return with the operands' as they were and the output's at `out0_2 x0 x1`. -/
theorem sound_kernel0 (c : Dev nD) (E : Set ℕ) (i : grid0.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at point `t`
    each operand's buffer at its block and the output's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KIReg1.lean ====
/-
  Pallas region 1 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The second operand's staging buffer likewise: its block index never moves, so it is fetched once and stays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: each the whole of its staging buffer. -/
abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S10000x128 := Rect.unit (s := S10000x128) ![0, 0] S10000x128.size inb_S10000x128_S10000x128_0_0

/-- The output's staging buffer after the body, from the two loaded blocks: one store over the whole buffer. -/
def out1_2 (x0 : Vec F S10000x128 .f32) (x1 : Vec F S1x128 .f32) : Vec F S10000x128 .f32 :=
  View.canon [⟨r1_2, k1_pay1 (View.ld x0 r1_0) (View.ld x1 r1_1)⟩]

/-- The one store covers the buffer. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

set_option maxHeartbeats 1000000 in
/-- The body on whole staging buffers, the operands' at contents `x0`, `x1` and the output's at anything, runs to its
    return with the operands' as they were and the output's at `out1_2 x0 x1`. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region's pipeline on core `c`: the arrays as the region finds them; after the body at point `t`
    each operand's buffer at its block and the output's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KIReg2.lean ====
/-
  Pallas region 2 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's staging buffer holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The second operand's staging buffer likewise: its block index never moves, so it is fetched once and stays. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each the whole of its staging buffer. -/
abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S10000x128 := Rect.unit (s := S10000x128) ![0, 0] S10000x128.size inb_S10000x128_S10000x128_0_0

/-- The output's staging buffer after the body, from the two loaded blocks: one store over the whole buffer. -/
def out2_2 (x0 : Vec F S10000x128 .bf16) (x1 : Vec F S128x128 .bf16) : Vec F S10000x128 .f32 :=
  View.canon [⟨r2_2, k2_pay1 (View.ld x0 r2_0) (View.ld x1 r2_1)⟩]

/-- The one store covers the buffer. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

set_option maxHeartbeats 1000000 in
/-- The body on whole staging buffers, the operands' at contents `x0`, `x1` and the output's at anything, runs to its
    return with the operands' as they were and the output's at `out2_2 x0 x1`. -/
theorem sound_kernel2 (c : Dev nD) (E : Set ℕ) (i : grid2.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at point `t`
    each operand's buffer at its block and the output's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KIReg3.lean ====
/-
  Pallas region 3 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's staging buffer holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The second operand's staging buffer likewise: its block index never moves, so it is fetched once and stays. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's three accesses: each the whole of its staging buffer. -/
abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0
abbrev r3_2 : Rect S10000x128 := Rect.unit (s := S10000x128) ![0, 0] S10000x128.size inb_S10000x128_S10000x128_0_0

/-- The output's staging buffer after the body, from the two loaded blocks: one store over the whole buffer. -/
def out3_2 (x0 : Vec F S10000x128 .f32) (x1 : Vec F S1x128 .f32) : Vec F S10000x128 .f32 :=
  View.canon [⟨r3_2, k3_pay1 (View.ld x0 r3_0) (View.ld x1 r3_1)⟩]

/-- The one store covers the buffer. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

set_option maxHeartbeats 1000000 in
/-- The body on whole staging buffers, the operands' at contents `x0`, `x1` and the output's at anything, runs to its
    return with the operands' as they were and the output's at `out3_2 x0 x1`. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the region's pipeline on core `c`: the arrays as the region finds them; after the body at point `t`
    each operand's buffer at its block and the output's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KIReg4.lean ====
/-
  Pallas region 4 of the program (one of the six launches of @main): a grid of 10 points, each of which loads its
  block of the first operand and the whole second operand, and stores the product of its block of 10000 rows of the left matrix with the whole 128 x 128 right matrix, accumulated into zeros.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first operand's staging buffer holds its block at every point, for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The second operand's staging buffer likewise: its block index never moves, so it is fetched once and stays. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's three accesses: each the whole of its staging buffer. -/
abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S10000x128 := Rect.unit (s := S10000x128) ![0, 0] S10000x128.size inb_S10000x128_S10000x128_0_0

/-- The output's staging buffer after the body, from the two loaded blocks: one store over the whole buffer. -/
def out4_2 (x0 : Vec F S10000x128 .bf16) (x1 : Vec F S128x128 .bf16) : Vec F S10000x128 .f32 :=
  View.canon [⟨r4_2, k4_pay1 (View.ld x0 r4_0) (View.ld x1 r4_1)⟩]

/-- The one store covers the buffer. -/
theorem cover4_2 (p0 : Vec F S10000x128 .f32) (y : S10000x128.Idx) :
    ∃ pc ∈ ([⟨r4_2, p0⟩] : List (View.Piece (Elt F) S10000x128 .f32)), y ∈ pc.1.set :=
  View.cover_of_tiled [⟨r4_2, p0⟩] S10000x128.size (by rfl) y

set_option maxHeartbeats 1000000 in
/-- The body on whole staging buffers, the operands' at contents `x0`, `x1` and the output's at anything, runs to its
    return with the operands' as they were and the output's at `out4_2 x0 x1`. -/
theorem sound_kernel4 (c : Dev nD) (E : Set ℕ) (i : grid4.Coords) (arg1 : Memref sig .tc .vmem S10000x128 .bf16) (harg1 : arg1.IsWhole) (arg2 : Memref sig .tc .vmem S128x128 .bf16) (harg2 : arg2.IsWhole) (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at point `t`
    each operand's buffer at its block and the output's at `out4_2` of the two blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KIReg5.lean ====
/-
  Pallas region 5 of the program (one of the six launches of @main): a grid of 10 points, each of which loads its
  block of the first operand and the whole second operand, and stores its block of 10000 rows plus the bias row (broadcast down the rows), clamped from below at zero.
  Stated at any contents `V` of the buffers when the region is entered: each window's block at a point, what one run of
  the body leaves in the output's staging buffer (one store covering the buffer, its value the body's arithmetic of the
  two loaded blocks), the body's triple, the pipeline's proof data and the body obligation at every grid point.
  Generic in the float instance.
-/
import proofs.«104296_j21801253994527_1_alg».proof.Proof.Gen.KernelIdeal.Launch
import proofs.«104296_j21801253994527_1_alg».proof.Proof.Gen.KernelIdeal.Skeleton
import proofs.«104296_j21801253994527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The first operand's staging buffer holds its block at every point, for any proof data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The second operand's staging buffer likewise: its block index never moves, so it is fetched once and stays. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The body's three accesses: each the whole of its staging buffer. -/
abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0
abbrev r5_2 : Rect S10000x128 := Rect.unit (s := S10000x128) ![0, 0] S10000x128.size inb_S10000x128_S10000x128_0_0

/-- The output's staging buffer after the body, from the two loaded blocks: one store over the whole buffer. -/
def out5_2 (x0 : Vec F S10000x128 .f32) (x1 : Vec F S1x128 .f32) : Vec F S10000x128 .f32 :=
  View.canon [⟨r5_2, k5_pay1 (View.ld x0 r5_0) (View.ld x1 r5_1)⟩]

/-- The one store covers the buffer. -/
theorem cover5_2 (p0 : Vec F S10000x128 .f32) (y : S10000x128.Idx) :
    ∃ pc ∈ ([⟨r5_2, p0⟩] : List (View.Piece (Elt F) S10000x128 .f32)), y ∈ pc.1.set :=
  View.cover_of_tiled [⟨r5_2, p0⟩] S10000x128.size (by rfl) y

set_option maxHeartbeats 1000000 in
/-- The body on whole staging buffers, the operands' at contents `x0`, `x1` and the output's at anything, runs to its
    return with the operands' as they were and the output's at `out5_2 x0 x1`. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region's pipeline on core `c`: the arrays as the region finds them; after the body at point `t`
    each operand's buffer at its block and the output's at `out5_2` of the two blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the operands' buffers hold their blocks, so the body's triple applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KIRun.lean ====
/-
  The whole run of @main: nine stretches of host operations, then six pallas regions alternating with host stretches,
  then the final concatenation.  The buffer contents between two items are a chain of valuations: a host stretch
  applies its operations, a region replaces its output array by what its pipeline's write-backs leave (its operands
  are staged and left as they were).  Each region is entered from the thread state "every unscoped buffer at the
  chain's contents, the generator register at some state, nothing owed" and left at the next; the library's run of
  segments then gives: every weakly fair execution of @main terminates, nothing faulting, and every unscoped buffer
  ends at the chain's last valuation.  Generic in the float instance.
-/
import proofs.«104296_j21801253994527_1_alg».proof.Proof.KIReg0
import proofs.«104296_j21801253994527_1_alg».proof.Proof.KIReg1
import proofs.«104296_j21801253994527_1_alg».proof.Proof.KIReg2
import proofs.«104296_j21801253994527_1_alg».proof.Proof.KIReg3
import proofs.«104296_j21801253994527_1_alg».proof.Proof.KIReg4
import proofs.«104296_j21801253994527_1_alg».proof.Proof.KIReg5
import proofs.«104296_j21801253994527_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain of buffer contents, with each region's result spelt out -/

/-- The contents when region 0 is entered, read at the TensorCore's references. -/
abbrev E9 : (c : Dev nD) → (b : Ref sig .tc) → Buf (Elt F) ((c : Thread nD τ).loc b) := fun c b => V9 m c b
/-- What region 0 leaves in its output array `main_v47`: its pipeline's write-backs folded over the grid. -/
def o47 (c : Dev nD) : Buf (Elt F) ((c : Thread nD τ).loc main_v47) := (dat0 (E9 m) c).arrAt 2 cfg0.N
/-- The contents after region 0. -/
abbrev X10 (c : Dev nD) : Valuation τ sig (Elt F) := Function.update (V9 m c) main_v47 (o47 m c)
abbrev E10 : (c : Dev nD) → (b : Ref sig .tc) → Buf (Elt F) ((c : Thread nD τ).loc b) := fun c b => X10 m c b
/-- The contents after the host stretch `hostOps1` that follows it (the next region's entry). -/
abbrev X11 (c : Dev nD) : Valuation τ sig (Elt F) := StableHlo.after hostOps1 (X10 m c)
abbrev E11 : (c : Dev nD) → (b : Ref sig .tc) → Buf (Elt F) ((c : Thread nD τ).loc b) := fun c b => X11 m c b
/-- What region 1 leaves in its output array `main_v62`: its pipeline's write-backs folded over the grid. -/
def o62 (c : Dev nD) : Buf (Elt F) ((c : Thread nD τ).loc main_v62) := (dat1 (E11 m) c).arrAt 2 cfg1.N
/-- The contents after region 1. -/
abbrev X12 (c : Dev nD) : Valuation τ sig (Elt F) := Function.update (X11 m c) main_v62 (o62 m c)
abbrev E12 : (c : Dev nD) → (b : Ref sig .tc) → Buf (Elt F) ((c : Thread nD τ).loc b) := fun c b => X12 m c b
/-- The contents after the host stretch `hostOps2` that follows it (the next region's entry). -/
abbrev X13 (c : Dev nD) : Valuation τ sig (Elt F) := StableHlo.after hostOps2 (X12 m c)
abbrev E13 : (c : Dev nD) → (b : Ref sig .tc) → Buf (Elt F) ((c : Thread nD τ).loc b) := fun c b => X13 m c b
/-- What region 2 leaves in its output array `main_v65`: its pipeline's write-backs folded over the grid. -/
def o65 (c : Dev nD) : Buf (Elt F) ((c : Thread nD τ).loc main_v65) := (dat2 (E13 m) c).arrAt 2 cfg2.N
/-- The contents after region 2. -/
abbrev X14 (c : Dev nD) : Valuation τ sig (Elt F) := Function.update (X13 m c) main_v65 (o65 m c)
abbrev E14 : (c : Dev nD) → (b : Ref sig .tc) → Buf (Elt F) ((c : Thread nD τ).loc b) := fun c b => X14 m c b
/-- The contents after the host stretch `hostOps3` that follows it (the next region's entry). -/
abbrev X15 (c : Dev nD) : Valuation τ sig (Elt F) := StableHlo.after hostOps3 (X14 m c)
abbrev E15 : (c : Dev nD) → (b : Ref sig .tc) → Buf (Elt F) ((c : Thread nD τ).loc b) := fun c b => X15 m c b
/-- What region 3 leaves in its output array `main_v80`: its pipeline's write-backs folded over the grid. -/
def o80 (c : Dev nD) : Buf (Elt F) ((c : Thread nD τ).loc main_v80) := (dat3 (E15 m) c).arrAt 2 cfg3.N
/-- The contents after region 3. -/
abbrev X16 (c : Dev nD) : Valuation τ sig (Elt F) := Function.update (X15 m c) main_v80 (o80 m c)
abbrev E16 : (c : Dev nD) → (b : Ref sig .tc) → Buf (Elt F) ((c : Thread nD τ).loc b) := fun c b => X16 m c b
/-- The contents after the host stretch `hostOps4` that follows it (the next region's entry). -/
abbrev X17 (c : Dev nD) : Valuation τ sig (Elt F) := StableHlo.after hostOps4 (X16 m c)
abbrev E17 : (c : Dev nD) → (b : Ref sig .tc) → Buf (Elt F) ((c : Thread nD τ).loc b) := fun c b => X17 m c b
/-- What region 4 leaves in its output array `main_v83`: its pipeline's write-backs folded over the grid. -/
def o83 (c : Dev nD) : Buf (Elt F) ((c : Thread nD τ).loc main_v83) := (dat4 (E17 m) c).arrAt 2 cfg4.N
/-- The contents after region 4. -/
abbrev X18 (c : Dev nD) : Valuation τ sig (Elt F) := Function.update (X17 m c) main_v83 (o83 m c)
abbrev E18 : (c : Dev nD) → (b : Ref sig .tc) → Buf (Elt F) ((c : Thread nD τ).loc b) := fun c b => X18 m c b
/-- The contents after the host stretch `hostOps5` that follows it (the next region's entry). -/
abbrev X19 (c : Dev nD) : Valuation τ sig (Elt F) := StableHlo.after hostOps5 (X18 m c)
abbrev E19 : (c : Dev nD) → (b : Ref sig .tc) → Buf (Elt F) ((c : Thread nD τ).loc b) := fun c b => X19 m c b
/-- What region 5 leaves in its output array `main_v98`: its pipeline's write-backs folded over the grid. -/
def o98 (c : Dev nD) : Buf (Elt F) ((c : Thread nD τ).loc main_v98) := (dat5 (E19 m) c).arrAt 2 cfg5.N
/-- The contents after region 5. -/
abbrev X20 (c : Dev nD) : Valuation τ sig (Elt F) := Function.update (X19 m c) main_v98 (o98 m c)
abbrev E20 : (c : Dev nD) → (b : Ref sig .tc) → Buf (Elt F) ((c : Thread nD τ).loc b) := fun c b => X20 m c b

/-- The regions' results as the family the generated chain of valuations is written over (read only at each region's
    own output array). -/
def outs : Gen.Outs (F := F) := fun _ r c =>
  if h : r = main_v47 then h ▸ o47 m c
  else if h : r = main_v62 then h ▸ o62 m c
  else if h : r = main_v65 then h ▸ o65 m c
  else if h : r = main_v80 then h ▸ o80 m c
  else if h : r = main_v83 then h ▸ o83 m c
  else if h : r = main_v98 then h ▸ o98 m c
  else m ((c : Thread nD τ).loc r)

theorem outs_47 (n : ℕ) (c : Dev nD) : outs m n main_v47 c = o47 m c := by
  unfold outs; rw [dif_pos rfl]
theorem outs_62 (n : ℕ) (c : Dev nD) : outs m n main_v62 c = o62 m c := by
  unfold outs; rw [dif_neg (by decide), dif_pos rfl]
theorem outs_65 (n : ℕ) (c : Dev nD) : outs m n main_v65 c = o65 m c := by
  unfold outs; rw [dif_neg (by decide), dif_neg (by decide), dif_pos rfl]
theorem outs_80 (n : ℕ) (c : Dev nD) : outs m n main_v80 c = o80 m c := by
  unfold outs; rw [dif_neg (by decide), dif_neg (by decide), dif_neg (by decide), dif_pos rfl]
theorem outs_83 (n : ℕ) (c : Dev nD) : outs m n main_v83 c = o83 m c := by
  unfold outs; rw [dif_neg (by decide), dif_neg (by decide), dif_neg (by decide), dif_neg (by decide), dif_pos rfl]
theorem outs_98 (n : ℕ) (c : Dev nD) : outs m n main_v98 c = o98 m c := by
  unfold outs; rw [dif_neg (by decide), dif_neg (by decide), dif_neg (by decide), dif_neg (by decide), dif_neg (by decide), dif_pos rfl]

/-! The generated chain at these results is the chain above. -/
theorem VX10 (c : Dev nD) : V10 m (outs m) c = X10 m c := by
  show Function.update (V9 m c) main_v47 (outs m 10 main_v47 c) = _
  rw [outs_47]
theorem VX11 (c : Dev nD) : V11 m (outs m) c = X11 m c := by
  show StableHlo.after hostOps1 (V10 m (outs m) c) = _
  rw [VX10]
theorem VX12 (c : Dev nD) : V12 m (outs m) c = X12 m c := by
  show Function.update (V11 m (outs m) c) main_v62 (outs m 12 main_v62 c) = _
  rw [outs_62, VX11]
theorem VX13 (c : Dev nD) : V13 m (outs m) c = X13 m c := by
  show StableHlo.after hostOps2 (V12 m (outs m) c) = _
  rw [VX12]
theorem VX14 (c : Dev nD) : V14 m (outs m) c = X14 m c := by
  show Function.update (V13 m (outs m) c) main_v65 (outs m 14 main_v65 c) = _
  rw [outs_65, VX13]
theorem VX15 (c : Dev nD) : V15 m (outs m) c = X15 m c := by
  show StableHlo.after hostOps3 (V14 m (outs m) c) = _
  rw [VX14]
theorem VX16 (c : Dev nD) : V16 m (outs m) c = X16 m c := by
  show Function.update (V15 m (outs m) c) main_v80 (outs m 16 main_v80 c) = _
  rw [outs_80, VX15]
theorem VX17 (c : Dev nD) : V17 m (outs m) c = X17 m c := by
  show StableHlo.after hostOps4 (V16 m (outs m) c) = _
  rw [VX16]
theorem VX18 (c : Dev nD) : V18 m (outs m) c = X18 m c := by
  show Function.update (V17 m (outs m) c) main_v83 (outs m 18 main_v83 c) = _
  rw [outs_83, VX17]
theorem VX19 (c : Dev nD) : V19 m (outs m) c = X19 m c := by
  show StableHlo.after hostOps5 (V18 m (outs m) c) = _
  rw [VX18]
theorem VX20 (c : Dev nD) : V20 m (outs m) c = X20 m c := by
  show Function.update (V19 m (outs m) c) main_v98 (outs m 20 main_v98 c) = _
  rw [outs_98, VX19]

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (E9 m) c
  | ⟨1, _⟩ => fun c => dat1 (E11 m) c
  | ⟨2, _⟩ => fun c => dat2 (E13 m) c
  | ⟨3, _⟩ => fun c => dat3 (E15 m) c
  | ⟨4, _⟩ => fun c => dat4 (E17 m) c
  | ⟨5, _⟩ => fun c => dat5 (E19 m) c

abbrev vnone : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)
abbrev Er : Fin 7 → Dev nD → sProp 𝕄 := fun _ c => Rr c

/-- After region 0 its output array holds the folded write-backs, -/
theorem X10_out (c : Dev nD) : X10 m c main_v47 = o47 m c := by
  simp only [X10, Function.update_self]
/-- and every other buffer what it held at entry. -/
theorem X10_ne (c : Dev nD) (b : Ref sig .tc) (h : b ≠ main_v47) : X10 m c b = V9 m c b := by
  simp only [X10, Function.update_of_ne (StableHlo.devRef_ne_of_ne h : (Proc.devRef .tc b : DevRef τ sig) ≠ Proc.devRef .tc main_v47)]
theorem hF0 (c : Dev nD) (w : Fin cfg0.W) : (pdats m 0 c).arrAt w cfg0.N = E10 m c (Pipeline.arrRef spec0 w) := by
  match w with
  | ⟨0, _⟩ => exact ((pdats m 0 c).arrAt_in 0 rfl _).trans (X10_ne m c main_v45 (by decide)).symm
  | ⟨1, _⟩ => exact ((pdats m 0 c).arrAt_in 1 rfl _).trans (X10_ne m c main_v46 (by decide)).symm
  | ⟨2, _⟩ => exact (X10_out m c).symm
theorem hrest0 (c : Dev nD) : ∀ b, b ∉ Finset.univ.image (Pipeline.arrRef spec0) → E10 m c b = E9 m c b :=
  fun b hb => X10_ne m c b fun h => hb (h ▸ Finset.mem_image.mpr ⟨2, Finset.mem_univ _, rfl⟩)

set_option backward.isDefEq.respectTransparency.types false in
/-- Region 0 over the thread state: entered from every unscoped buffer at the chain's contents before it, left at
    the contents after it.  Its arrays are split out of the unscoped buffers and put back at the exit contents; the
    generator register goes into the pipeline's invariant and comes back; nothing is owed; the kernel has no semaphore of its own. -/
def reg0 : RegionSeg (pcfgs (F := F)) adm (pdats m) () defs₀ vnone Lz lvz 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Lz lvz 0 fun _ _ => rfl
  pre c := iprop(StableHlo.held (c : Thread nD τ) (Pipeline.ucRefs τ sig) (V9 m c) ∗ Rr c)
  post c := iprop(StableHlo.held (c : Thread nD τ) (Pipeline.ucRefs τ sig) (X10 m c) ∗ Rr c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V9 m c) ∗ Er (F := F) 0 c) ⊢ (reg0 m).pre c := by
  exact .rfl
theorem hpost0 (c : Dev nD) : (reg0 m).post c ⊢ iprop(StableHlo.held (c : Thread nD τ) (Pipeline.ucRefs τ sig) (V10 m (outs m) c) ∗ Er (F := F) 1 c) := by
  rw [VX10]; exact .rfl

/-- After region 1 its output array holds the folded write-backs, -/
theorem X12_out (c : Dev nD) : X12 m c main_v62 = o62 m c := by
  simp only [X12, Function.update_self]
/-- and every other buffer what it held at entry. -/
theorem X12_ne (c : Dev nD) (b : Ref sig .tc) (h : b ≠ main_v62) : X12 m c b = X11 m c b := by
  simp only [X12, Function.update_of_ne (StableHlo.devRef_ne_of_ne h : (Proc.devRef .tc b : DevRef τ sig) ≠ Proc.devRef .tc main_v62)]
theorem hF1 (c : Dev nD) (w : Fin cfg1.W) : (pdats m 1 c).arrAt w cfg1.N = E12 m c (Pipeline.arrRef spec1 w) := by
  match w with
  | ⟨0, _⟩ => exact ((pdats m 1 c).arrAt_in 0 rfl _).trans (X12_ne m c main_v60 (by decide)).symm
  | ⟨1, _⟩ => exact ((pdats m 1 c).arrAt_in 1 rfl _).trans (X12_ne m c main_v61 (by decide)).symm
  | ⟨2, _⟩ => exact (X12_out m c).symm
theorem hrest1 (c : Dev nD) : ∀ b, b ∉ Finset.univ.image (Pipeline.arrRef spec1) → E12 m c b = E11 m c b :=
  fun b hb => X12_ne m c b fun h => hb (h ▸ Finset.mem_image.mpr ⟨2, Finset.mem_univ _, rfl⟩)

set_option backward.isDefEq.respectTransparency.types false in
/-- Region 1 over the thread state: entered from every unscoped buffer at the chain's contents before it, left at
    the contents after it.  Its arrays are split out of the unscoped buffers and put back at the exit contents; the
    generator register goes into the pipeline's invariant and comes back; nothing is owed; the kernel has no semaphore of its own. -/
def reg1 : RegionSeg (pcfgs (F := F)) adm (pdats m) () defs₀ vnone Lz lvz 1 where
  win := launch1.win.to₀
  block_pos := launch1.block_pos
  stage_whole := launch1.stage_whole
  K := PEmpty
  osem k := k.elim
  ho := Pipeline.OwnSemFacts.none _
  hbody c := (body_obligation1 (E11 m) c).loose
  hwaits := Pipeline.hwaits_of_owed_zero _ _ _ _ Lz lvz 1 fun _ _ => rfl
  pre c := iprop(StableHlo.held (c : Thread nD τ) (Pipeline.ucRefs τ sig) (X11 m c) ∗ Rr c)
  post c := iprop(StableHlo.held (c : Thread nD τ) (Pipeline.ucRefs τ sig) (X12 m c) ∗ Rr c)
  X c := iprop(∃ r, prngReg c r)
  Y c := iprop(∃ r, prngReg c r)
  Z c := Pipeline.unscopedRest (Ix := Unit) (Name := ℕ) (U := UR sig nD τ) (Lvl := ℕ) spec1 c (E11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E11 m c) (E12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V11 m (outs m) c) ∗ Er (F := F) 1 c) ⊢ (reg1 m).pre c := by
  rw [VX11]; exact .rfl
theorem hpost1 (c : Dev nD) : (reg1 m).post c ⊢ iprop(StableHlo.held (c : Thread nD τ) (Pipeline.ucRefs τ sig) (V12 m (outs m) c) ∗ Er (F := F) 2 c) := by
  rw [VX12]; exact .rfl

/-- After region 2 its output array holds the folded write-backs, -/
theorem X14_out (c : Dev nD) : X14 m c main_v65 = o65 m c := by
  simp only [X14, Function.update_self]
/-- and every other buffer what it held at entry. -/
theorem X14_ne (c : Dev nD) (b : Ref sig .tc) (h : b ≠ main_v65) : X14 m c b = X13 m c b := by
  simp only [X14, Function.update_of_ne (StableHlo.devRef_ne_of_ne h : (Proc.devRef .tc b : DevRef τ sig) ≠ Proc.devRef .tc main_v65)]
theorem hF2 (c : Dev nD) (w : Fin cfg2.W) : (pdats m 2 c).arrAt w cfg2.N = E14 m c (Pipeline.arrRef spec2 w) := by
  match w with
  | ⟨0, _⟩ => exact ((pdats m 2 c).arrAt_in 0 rfl _).trans (X14_ne m c main_v63 (by decide)).symm
  | ⟨1, _⟩ => exact ((pdats m 2 c).arrAt_in 1 rfl _).trans (X14_ne m c main_v64 (by decide)).symm
  | ⟨2, _⟩ => exact (X14_out m c).symm
theorem hrest2 (c : Dev nD) : ∀ b, b ∉ Finset.univ.image (Pipeline.arrRef spec2) → E14 m c b = E13 m c b :=
  fun b hb => X14_ne m c b fun h => hb (h ▸ Finset.mem_image.mpr ⟨2, Finset.mem_univ _, rfl⟩)

set_option backward.isDefEq.respectTransparency.types false in
/-- Region 2 over the thread state: entered from every unscoped buffer at the chain's contents before it, left at
    the contents after it.  Its arrays are split out of the unscoped buffers and put back at the exit contents; the
    generator register goes into the pipeline's invariant and comes back; nothing is owed; the kernel has no semaphore of its own. -/
def reg2 : RegionSeg (pcfgs (F := F)) adm (pdats m) () defs₀ vnone Lz lvz 2 where
  win := launch2.win.to₀
  block_pos := launch2.block_pos
  stage_whole := launch2.stage_whole
  K := PEmpty
  osem k := k.elim
  ho := Pipeline.OwnSemFacts.none _
  hbody c := (body_obligation2 (E13 m) c).loose
  hwaits := Pipeline.hwaits_of_owed_zero _ _ _ _ Lz lvz 2 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec2 c (E13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E13 m c) (E14 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V13 m (outs m) c) ∗ Er (F := F) 2 c) ⊢ (reg2 m).pre c := by
  rw [VX13]; exact .rfl
theorem hpost2 (c : Dev nD) : (reg2 m).post c ⊢ iprop(StableHlo.held (c : Thread nD τ) (Pipeline.ucRefs τ sig) (V14 m (outs m) c) ∗ Er (F := F) 3 c) := by
  rw [VX14]; exact .rfl

/-- After region 3 its output array holds the folded write-backs, -/
theorem X16_out (c : Dev nD) : X16 m c main_v80 = o80 m c := by
  simp only [X16, Function.update_self]
/-- and every other buffer what it held at entry. -/
theorem X16_ne (c : Dev nD) (b : Ref sig .tc) (h : b ≠ main_v80) : X16 m c b = X15 m c b := by
  simp only [X16, Function.update_of_ne (StableHlo.devRef_ne_of_ne h : (Proc.devRef .tc b : DevRef τ sig) ≠ Proc.devRef .tc main_v80)]
theorem hF3 (c : Dev nD) (w : Fin cfg3.W) : (pdats m 3 c).arrAt w cfg3.N = E16 m c (Pipeline.arrRef spec3 w) := by
  match w with
  | ⟨0, _⟩ => exact ((pdats m 3 c).arrAt_in 0 rfl _).trans (X16_ne m c main_v78 (by decide)).symm
  | ⟨1, _⟩ => exact ((pdats m 3 c).arrAt_in 1 rfl _).trans (X16_ne m c main_v79 (by decide)).symm
  | ⟨2, _⟩ => exact (X16_out m c).symm
theorem hrest3 (c : Dev nD) : ∀ b, b ∉ Finset.univ.image (Pipeline.arrRef spec3) → E16 m c b = E15 m c b :=
  fun b hb => X16_ne m c b fun h => hb (h ▸ Finset.mem_image.mpr ⟨2, Finset.mem_univ _, rfl⟩)

set_option backward.isDefEq.respectTransparency.types false in
/-- Region 3 over the thread state: entered from every unscoped buffer at the chain's contents before it, left at
    the contents after it.  Its arrays are split out of the unscoped buffers and put back at the exit contents; the
    generator register goes into the pipeline's invariant and comes back; nothing is owed; the kernel has no semaphore of its own. -/
def reg3 : RegionSeg (pcfgs (F := F)) adm (pdats m) () defs₀ vnone Lz lvz 3 where
  win := launch3.win.to₀
  block_pos := launch3.block_pos
  stage_whole := launch3.stage_whole
  K := PEmpty
  osem k := k.elim
  ho := Pipeline.OwnSemFacts.none _
  hbody c := (body_obligation3 (E15 m) c).loose
  hwaits := Pipeline.hwaits_of_owed_zero _ _ _ _ Lz lvz 3 fun _ _ => rfl
  pre c := iprop(StableHlo.held (c : Thread nD τ) (Pipeline.ucRefs τ sig) (X15 m c) ∗ Rr c)
  post c := iprop(StableHlo.held (c : Thread nD τ) (Pipeline.ucRefs τ sig) (X16 m c) ∗ Rr c)
  X c := iprop(∃ r, prngReg c r)
  Y c := iprop(∃ r, prngReg c r)
  Z c := Pipeline.unscopedRest (Ix := Unit) (Name := ℕ) (U := UR sig nD τ) (Lvl := ℕ) spec3 c (E15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E15 m c) (E16 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V15 m (outs m) c) ∗ Er (F := F) 3 c) ⊢ (reg3 m).pre c := by
  rw [VX15]; exact .rfl
theorem hpost3 (c : Dev nD) : (reg3 m).post c ⊢ iprop(StableHlo.held (c : Thread nD τ) (Pipeline.ucRefs τ sig) (V16 m (outs m) c) ∗ Er (F := F) 4 c) := by
  rw [VX16]; exact .rfl

/-- After region 4 its output array holds the folded write-backs, -/
theorem X18_out (c : Dev nD) : X18 m c main_v83 = o83 m c := by
  simp only [X18, Function.update_self]
/-- and every other buffer what it held at entry. -/
theorem X18_ne (c : Dev nD) (b : Ref sig .tc) (h : b ≠ main_v83) : X18 m c b = X17 m c b := by
  simp only [X18, Function.update_of_ne (StableHlo.devRef_ne_of_ne h : (Proc.devRef .tc b : DevRef τ sig) ≠ Proc.devRef .tc main_v83)]
theorem hF4 (c : Dev nD) (w : Fin cfg4.W) : (pdats m 4 c).arrAt w cfg4.N = E18 m c (Pipeline.arrRef spec4 w) := by
  match w with
  | ⟨0, _⟩ => exact ((pdats m 4 c).arrAt_in 0 rfl _).trans (X18_ne m c main_v81 (by decide)).symm
  | ⟨1, _⟩ => exact ((pdats m 4 c).arrAt_in 1 rfl _).trans (X18_ne m c main_v82 (by decide)).symm
  | ⟨2, _⟩ => exact (X18_out m c).symm
theorem hrest4 (c : Dev nD) : ∀ b, b ∉ Finset.univ.image (Pipeline.arrRef spec4) → E18 m c b = E17 m c b :=
  fun b hb => X18_ne m c b fun h => hb (h ▸ Finset.mem_image.mpr ⟨2, Finset.mem_univ _, rfl⟩)

set_option backward.isDefEq.respectTransparency.types false in
/-- Region 4 over the thread state: entered from every unscoped buffer at the chain's contents before it, left at
    the contents after it.  Its arrays are split out of the unscoped buffers and put back at the exit contents; the
    generator register goes into the pipeline's invariant and comes back; nothing is owed; the kernel has no semaphore of its own. -/
def reg4 : RegionSeg (pcfgs (F := F)) adm (pdats m) () defs₀ vnone Lz lvz 4 where
  win := launch4.win.to₀
  block_pos := launch4.block_pos
  stage_whole := launch4.stage_whole
  K := PEmpty
  osem k := k.elim
  ho := Pipeline.OwnSemFacts.none _
  hbody c := (body_obligation4 (E17 m) c).loose
  hwaits := Pipeline.hwaits_of_owed_zero _ _ _ _ Lz lvz 4 fun _ _ => rfl
  pre c := iprop(StableHlo.held (c : Thread nD τ) (Pipeline.ucRefs τ sig) (X17 m c) ∗ Rr c)
  post c := iprop(StableHlo.held (c : Thread nD τ) (Pipeline.ucRefs τ sig) (X18 m c) ∗ Rr c)
  X c := iprop(∃ r, prngReg c r)
  Y c := iprop(∃ r, prngReg c r)
  Z c := Pipeline.unscopedRest (Ix := Unit) (Name := ℕ) (U := UR sig nD τ) (Lvl := ℕ) spec4 c (E17 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E17 m c) (E18 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V17 m (outs m) c) ∗ Er (F := F) 4 c) ⊢ (reg4 m).pre c := by
  rw [VX17]; exact .rfl
theorem hpost4 (c : Dev nD) : (reg4 m).post c ⊢ iprop(StableHlo.held (c : Thread nD τ) (Pipeline.ucRefs τ sig) (V18 m (outs m) c) ∗ Er (F := F) 5 c) := by
  rw [VX18]; exact .rfl

/-- After region 5 its output array holds the folded write-backs, -/
theorem X20_out (c : Dev nD) : X20 m c main_v98 = o98 m c := by
  simp only [X20, Function.update_self]
/-- and every other buffer what it held at entry. -/
theorem X20_ne (c : Dev nD) (b : Ref sig .tc) (h : b ≠ main_v98) : X20 m c b = X19 m c b := by
  simp only [X20, Function.update_of_ne (StableHlo.devRef_ne_of_ne h : (Proc.devRef .tc b : DevRef τ sig) ≠ Proc.devRef .tc main_v98)]
theorem hF5 (c : Dev nD) (w : Fin cfg5.W) : (pdats m 5 c).arrAt w cfg5.N = E20 m c (Pipeline.arrRef spec5 w) := by
  match w with
  | ⟨0, _⟩ => exact ((pdats m 5 c).arrAt_in 0 rfl _).trans (X20_ne m c main_v96 (by decide)).symm
  | ⟨1, _⟩ => exact ((pdats m 5 c).arrAt_in 1 rfl _).trans (X20_ne m c main_v97 (by decide)).symm
  | ⟨2, _⟩ => exact (X20_out m c).symm
theorem hrest5 (c : Dev nD) : ∀ b, b ∉ Finset.univ.image (Pipeline.arrRef spec5) → E20 m c b = E19 m c b :=
  fun b hb => X20_ne m c b fun h => hb (h ▸ Finset.mem_image.mpr ⟨2, Finset.mem_univ _, rfl⟩)

set_option backward.isDefEq.respectTransparency.types false in
/-- Region 5 over the thread state: entered from every unscoped buffer at the chain's contents before it, left at
    the contents after it.  Its arrays are split out of the unscoped buffers and put back at the exit contents; the
    generator register goes into the pipeline's invariant and comes back; nothing is owed; the kernel has no semaphore of its own. -/
def reg5 : RegionSeg (pcfgs (F := F)) adm (pdats m) () defs₀ vnone Lz lvz 5 where
  win := launch5.win.to₀
  block_pos := launch5.block_pos
  stage_whole := launch5.stage_whole
  K := PEmpty
  osem k := k.elim
  ho := Pipeline.OwnSemFacts.none _
  hbody c := (body_obligation5 (E19 m) c).loose
  hwaits := Pipeline.hwaits_of_owed_zero _ _ _ _ Lz lvz 5 fun _ _ => rfl
  pre c := iprop(StableHlo.held (c : Thread nD τ) (Pipeline.ucRefs τ sig) (X19 m c) ∗ Rr c)
  post c := iprop(StableHlo.held (c : Thread nD τ) (Pipeline.ucRefs τ sig) (X20 m c) ∗ Rr c)
  X c := iprop(∃ r, prngReg c r)
  Y c := iprop(∃ r, prngReg c r)
  Z c := Pipeline.unscopedRest (Ix := Unit) (Name := ℕ) (U := UR sig nD τ) (Lvl := ℕ) spec5 c (E19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E19 m c) (E20 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V19 m (outs m) c) ∗ Er (F := F) 5 c) ⊢ (reg5 m).pre c := by
  rw [VX19]; exact .rfl
theorem hpost5 (c : Dev nD) : (reg5 m).post c ⊢ iprop(StableHlo.held (c : Thread nD τ) (Pipeline.ucRefs τ sig) (V20 m (outs m) c) ∗ Er (F := F) 6 c) := by
  rw [VX20]; exact .rfl

/-! ## The launch -/

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch deals every core its generator register and an empty `owes`: the first thread state's rest. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (Er (F := F) 0) : sProp 𝕄) := by
  refine Pipeline.initEach Lz lvz fun c => ?_
  iintro ⟨⟨-, HO, -, Hp, -⟩, -⟩
  imodintro
  isplitl [Hp]; · iexists _; iexact Hp
  iexists ∅; iexact HO

theorem hE6 (c : Dev nD) : Er (F := F) 6 c ⊢ (iprop(∃ W, owes (c : Thread nD τ) (0 : CellTallies nD τ sig Unit) W) : sProp 𝕄) := by
  iintro ⟨-, H⟩; iexact H

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () vnone Lz lvz (fun _ _ => rfl) ρ (outs m) (pdats m) 0 (fun _ => iprop(emp))
    (initOf (Pipeline.cells cfgs cellOf_inj) (Pipeline.launchToks cfgs cellOf_inj)) (hu0) (Er (F := F)) (hE0 ρ) (hE6)
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)

end Cert.KernelIdeal.Reg

end
-- ==== Proof.KIRunAll.lean ====
/-
  The run of @main with its RESULT read back.  Given, per pallas region, its segment record entered from the chain's
  contents before it and left at the contents after it, every weakly fair execution of @main from a memory with zero
  counters terminates, and in every final memory EVERY unscoped buffer of a core holds the chain's last valuation
  (the argument arrays and the result array among them).  The same run as the conditional frame, whose post only keeps
  the argument arrays; then instantiated at the regions' records of this program.
-/
import proofs.«104296_j21801253994527_1_alg».proof.Proof.KIRun

set_option maxRecDepth 16384

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

section Cond
variable (m : (ℓ : Loc nD τ sig) → Buf (Elt F) ℓ)

set_option backward.isDefEq.respectTransparency.types false in
/-- The run from the regions' records: every unscoped buffer ends at the last valuation of the chain. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c)) :
    θ_run defs (onTc (τ := τ) (main (F := F))) ⟨m, fun _ => 0, ρ⟩ (fun r => ∀ c : Dev nD, ∀ b ∈ Pipeline.ucRefs τ sig,
      r.2.mem ((c : Thread nD τ).1, b) = V21 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, .rfl, .rfl, .rfl, .rfl, .rfl, .rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => ∀ b ∈ Pipeline.ucRefs τ sig, s.mem ((c : Thread nD τ).1, b) = V21 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V21 m outs c) s') $$ [Hh HSI]
    · isplitl [Hh] <;> iassumption
    icases Hr with ⟨%h, HSI⟩
    imodintro
    isplitr
    · ipureintro
      exact h
    · iexact HSI

end Cond

/-- The run of this program: every unscoped buffer of every core ends at the chain's last valuation, at the regions'
    results spelt out in `outs`. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V21 m (outs m) c b) :=
  run_cond m emb₁ () vnone Lz lvz (fun _ _ => rfl) ρ (outs m) (pdats m) 0 (fun _ => iprop(emp))
    (initOf (Pipeline.cells cfgs cellOf_inj) (Pipeline.launchToks cfgs cellOf_inj)) (hu0) (Er (F := F)) (hE0 ρ) (hE6)
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)

end Cert.KernelIdeal.Reg

end
-- ==== Proof.ValDefs.lean ====
/-
  The two whole-array functions a layer's kernel regions are stated with.

  One layer of the graph convolution takes node features h (100000 × 128) and a weight matrix w (128 × 128), forms
  the product h · w, aggregates it over the graph's edges, and finishes with max (agg + bias, 0), the bias being one
  row of 128 entries added to each of the 100000 rows.  `mmOut` is the product and `brOut` the bias-and-clamp, each
  as a function of whole arrays.
-/
import proofs.«104296_j21801253994527_1_alg».proof.KernelIdeal
import Idealize.ShloMosaic.PureOps.Ideal
import Idealize.ShloMosaic.Lib.ValueIdx

noncomputable section

namespace Cert.KernelIdeal.ValBridge

open Cert.KernelIdeal Idealize.ShloMosaic Idealize.SL.Sem

/-- one region's matrix product on whole arrays -/
def mmOut (x : FVec Ideal S100000x128 .bf16) (w : FVec Ideal S128x128 .bf16) : FVec Ideal S100000x128 .f32 :=
  Host.dotGeneral (F := Ideal) (DotDims.plain 100000 128 128) none x w

/-- one region's bias-and-clamp on whole arrays: the body's arithmetic with the row broadcast down all 100000 rows -/
def brOut (a : FVec Ideal S100000x128 .f32) (b : FVec Ideal S1x128 .f32) : FVec Ideal S100000x128 .f32 :=
  fun i => max (a i + b (ValueIdx.ix2 (0 : Fin 1) (i 1))) (Scalar.ofBits (F := Ideal) .f32 0x00000000#32)

end Cert.KernelIdeal.ValBridge

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.KIVal0.lean ====
/-
  What pallas region 0 leaves in its output array, at the ideal instance: the matrix product of its two operand arrays, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg0
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices over the grid: the first operand and the output move down the rows with the point, the
    second operand stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at entry (p, q) of a block. -/
theorem pay0_apply (x0 : Vec Ideal S10000x128 .bf16) (x1 : Vec Ideal S128x128 .bf16) (p : Fin 10000) (q : Fin 128) :
    k0_pay1 (F := Ideal) x0 x1 (ix2 p q) = ∑ k : Fin 128, x0 (ix2 p k) * x1 (ix2 k q) := by
  unfold k0_pay1
  rw [shapeCast_self, shapeCast_self]
  exact MatRows.matmul_plain_apply none x0 x1 p q

/-- The whole-array product at entry (P, q). -/
theorem whole0_apply (x : FVec Ideal S100000x128 .bf16) (w : FVec Ideal S128x128 .bf16) (P : Fin 100000) (q : Fin 128) :
    mmOut x w (ix2 P q) = ∑ k : Fin 128, x (ix2 P k) * w (ix2 k q) := by
  unfold mmOut; exact MatRows.dotGeneral_plain_apply none x w P q

/-- What point `t` writes back is block `t` of the whole-array function of the operand arrays. -/
theorem flushed0_eq (c : Dev nD) (t : Fin cfg0.N) :
    (dat0 V c).flushed 2 t = ((cfg0.win 2).blk t).view.read (Elt Ideal) (mmOut (V c main_v45) (V c main_v46)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  obtain ⟨e0, e1, e2, e3, e4, e5⟩ := idx_facts0 t
  have hP : ∀ p : Fin 10000, t.val * 10000 + p.val < 100000 := fun p => by
    have h1 := t.isLt; have hN : cfg0.N = 10 := N_0; have := p.isLt; omega
  funext j
  obtain ⟨p, q, rfl⟩ : ∃ (p : Fin 10000) (q : Fin 128), j = ix2 p q := ⟨j 0, j 1, eq_ix2 j⟩
  have hP := hP p
  refine (pay0_apply (iblk0 V c 0 t) (iblk0 V c 1 t) p q).trans ?_
  have hemb : ((cfg0.win 2).blk t).view.emb (ix2 p q) = ix2 (⟨t.val * 10000 + p.val, hP⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show _ = mmOut (V c main_v45) (V c main_v46) (((cfg0.win 2).blk t).view.emb (ix2 p q))
  rw [hemb]
  refine Eq.trans ?_ (whole0_apply (V c main_v45) (V c main_v46) (⟨t.val * 10000 + p.val, hP⟩ : Fin 100000) q).symm
  refine Finset.sum_congr rfl fun k _ => ?_
  have h0 : iblk0 V c 0 t (ix2 p k) = (V c main_v45 : FVec Ideal S100000x128 .bf16) (ix2 (⟨t.val * 10000 + p.val, hP⟩ : Fin 100000) k) := by
    show (V c main_v45 : FVec Ideal S100000x128 .bf16) (((cfg0.win 0).blk t).view.emb (ix2 p k)) = _
    refine congrArg (V c main_v45 : FVec Ideal S100000x128 .bf16) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : iblk0 V c 1 t (ix2 k q) = (V c main_v46 : FVec Ideal S128x128 .bf16) (ix2 k q) := by
    show (V c main_v46 : FVec Ideal S128x128 .bf16) (((cfg0.win 1).blk t).view.emb (ix2 k q)) = _
    refine congrArg (V c main_v46 : FVec Ideal S128x128 .bf16) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v47).slice (win0_2.rect t)).set ↔ _
  rw [View.set_slice_whole, Rect.mem_set_unit]
  exact Iff.rfl

/-- The ten blocks tile the output array: row r lies in the block of point r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- THE OUTPUT ARRAY after the region. -/
theorem final0 (c : Dev nD) : (dat0 V c).arrAt 2 cfg0.N = mmOut (V c main_v45) (V c main_v46) :=
  (dat0 V c).arrAt_eq_of_cover 2 _ (fun t _ => flushed0_eq V c t) (cover0)

end Cert.KernelIdeal.Reg

end
-- ==== Proof.KIVal1.lean ====
/-
  What pallas region 1 leaves in its output array, at the ideal instance: its first operand shifted by the bias row and clamped from below at zero, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg1
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices over the grid: the first operand and the output move down the rows with the point, the
    second operand stays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at entry (p, q) of a block. -/
theorem pay1_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Scalar.ofBits (F := Ideal) .f32 0x00000000#32) := by
  unfold k1_pay1
  rw [shapeCast_self, shapeCast_self]
  show max (x0 (ix2 p q) + broadcastTo S10000x128 x1 broadcasts_S1x128_S10000x128 (ix2 p q)) _ = _
  rw [broadcastTo_1b_ab_apply]
  rfl

/-- The whole-array bias-and-clamp at entry (P, q). -/
theorem whole1_apply (a : FVec Ideal S100000x128 .f32) (b : FVec Ideal S1x128 .f32) (P : Fin 100000) (q : Fin 128) :
    brOut a b (ix2 P q) = max (a (ix2 P q) + b (ix2 (0 : Fin 1) q)) (Scalar.ofBits (F := Ideal) .f32 0x00000000#32) := rfl

/-- What point `t` writes back is block `t` of the whole-array function of the operand arrays. -/
theorem flushed1_eq (c : Dev nD) (t : Fin cfg1.N) :
    (dat1 V c).flushed 2 t = ((cfg1.win 2).blk t).view.read (Elt Ideal) (brOut (V c main_v60) (V c main_v61)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S1x128) hz1]
  obtain ⟨e0, e1, e2, e3, e4, e5⟩ := idx_facts1 t
  have hP : ∀ p : Fin 10000, t.val * 10000 + p.val < 100000 := fun p => by
    have h1 := t.isLt; have hN : cfg1.N = 10 := N_1; have := p.isLt; omega
  funext j
  obtain ⟨p, q, rfl⟩ : ∃ (p : Fin 10000) (q : Fin 128), j = ix2 p q := ⟨j 0, j 1, eq_ix2 j⟩
  have hP := hP p
  refine (pay1_apply (iblk1 V c 0 t) (iblk1 V c 1 t) p q).trans ?_
  have hemb : ((cfg1.win 2).blk t).view.emb (ix2 p q) = ix2 (⟨t.val * 10000 + p.val, hP⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show _ = brOut (V c main_v60) (V c main_v61) (((cfg1.win 2).blk t).view.emb (ix2 p q))
  rw [hemb]
  refine Eq.trans ?_ (whole1_apply (V c main_v60) (V c main_v61) (⟨t.val * 10000 + p.val, hP⟩ : Fin 100000) q).symm
  have h0 : iblk1 V c 0 t (ix2 p q) = (V c main_v60 : FVec Ideal S100000x128 .f32) (ix2 (⟨t.val * 10000 + p.val, hP⟩ : Fin 100000) q) := by
    show (V c main_v60 : FVec Ideal S100000x128 .f32) (((cfg1.win 0).blk t).view.emb (ix2 p q)) = _
    refine congrArg (V c main_v60 : FVec Ideal S100000x128 .f32) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have h1 : iblk1 V c 1 t (ix2 (0 : Fin 1) q) = (V c main_v61 : FVec Ideal S1x128 .f32) (ix2 (0 : Fin 1) q) := by
    show (V c main_v61 : FVec Ideal S1x128 .f32) (((cfg1.win 1).blk t).view.emb (ix2 (0 : Fin 1) q)) = _
    refine congrArg (V c main_v61 : FVec Ideal S1x128 .f32) ?_
    funext a; apply Fin.ext
    match a with
    | ⟨0, _⟩ => show win1_1.index t (0 : Fin 2) * 1 + 1 * (0 : Fin 1).val = (0 : Fin 1).val; simp only [Fin.val_zero]; omega
    | ⟨1, _⟩ => show win1_1.index t (1 : Fin 2) * 128 + 1 * q.val = q.val; omega
  rw [h0, h1]

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v62).slice (win1_2.rect t)).set ↔ _
  rw [View.set_slice_whole, Rect.mem_set_unit]
  exact Iff.rfl

/-- The ten blocks tile the output array: row r lies in the block of point r / 10000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨e0, e1, e2, e3, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 128 ≤ (i 1).val ∧ (i 1).val < win1_2.index ⟨(i 0).val / 10000, ht⟩ (1 : Fin 2) * 128 + 128
    rw [e5]; omega

/-- THE OUTPUT ARRAY after the region. -/
theorem final1 (c : Dev nD) : (dat1 V c).arrAt 2 cfg1.N = brOut (V c main_v60) (V c main_v61) :=
  (dat1 V c).arrAt_eq_of_cover 2 _ (fun t _ => flushed1_eq V c t) (cover1)

end Cert.KernelIdeal.Reg

end
-- ==== Proof.KIVal2.lean ====
/-
  What pallas region 2 leaves in its output array, at the ideal instance: the matrix product of its two operand arrays, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg2
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The windows' block indices over the grid: the first operand and the output move down the rows with the point, the
    second operand stays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at entry (p, q) of a block. -/
theorem pay2_apply (x0 : Vec Ideal S10000x128 .bf16) (x1 : Vec Ideal S128x128 .bf16) (p : Fin 10000) (q : Fin 128) :
    k2_pay1 (F := Ideal) x0 x1 (ix2 p q) = ∑ k : Fin 128, x0 (ix2 p k) * x1 (ix2 k q) := by
  unfold k2_pay1
  rw [shapeCast_self, shapeCast_self]
  exact MatRows.matmul_plain_apply none x0 x1 p q

/-- The whole-array product at entry (P, q). -/
theorem whole2_apply (x : FVec Ideal S100000x128 .bf16) (w : FVec Ideal S128x128 .bf16) (P : Fin 100000) (q : Fin 128) :
    mmOut x w (ix2 P q) = ∑ k : Fin 128, x (ix2 P k) * w (ix2 k q) := by
  unfold mmOut; exact MatRows.dotGeneral_plain_apply none x w P q

/-- What point `t` writes back is block `t` of the whole-array function of the operand arrays. -/
theorem flushed2_eq (c : Dev nD) (t : Fin cfg2.N) :
    (dat2 V c).flushed 2 t = ((cfg2.win 2).blk t).view.read (Elt Ideal) (mmOut (V c main_v63) (V c main_v64)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  obtain ⟨e0, e1, e2, e3, e4, e5⟩ := idx_facts2 t
  have hP : ∀ p : Fin 10000, t.val * 10000 + p.val < 100000 := fun p => by
    have h1 := t.isLt; have hN : cfg2.N = 10 := N_2; have := p.isLt; omega
  funext j
  obtain ⟨p, q, rfl⟩ : ∃ (p : Fin 10000) (q : Fin 128), j = ix2 p q := ⟨j 0, j 1, eq_ix2 j⟩
  have hP := hP p
  refine (pay2_apply (iblk2 V c 0 t) (iblk2 V c 1 t) p q).trans ?_
  have hemb : ((cfg2.win 2).blk t).view.emb (ix2 p q) = ix2 (⟨t.val * 10000 + p.val, hP⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show _ = mmOut (V c main_v63) (V c main_v64) (((cfg2.win 2).blk t).view.emb (ix2 p q))
  rw [hemb]
  refine Eq.trans ?_ (whole2_apply (V c main_v63) (V c main_v64) (⟨t.val * 10000 + p.val, hP⟩ : Fin 100000) q).symm
  refine Finset.sum_congr rfl fun k _ => ?_
  have h0 : iblk2 V c 0 t (ix2 p k) = (V c main_v63 : FVec Ideal S100000x128 .bf16) (ix2 (⟨t.val * 10000 + p.val, hP⟩ : Fin 100000) k) := by
    show (V c main_v63 : FVec Ideal S100000x128 .bf16) (((cfg2.win 0).blk t).view.emb (ix2 p k)) = _
    refine congrArg (V c main_v63 : FVec Ideal S100000x128 .bf16) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : iblk2 V c 1 t (ix2 k q) = (V c main_v64 : FVec Ideal S128x128 .bf16) (ix2 k q) := by
    show (V c main_v64 : FVec Ideal S128x128 .bf16) (((cfg2.win 1).blk t).view.emb (ix2 k q)) = _
    refine congrArg (V c main_v64 : FVec Ideal S128x128 .bf16) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [h0, h1]

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v65).slice (win2_2.rect t)).set ↔ _
  rw [View.set_slice_whole, Rect.mem_set_unit]
  exact Iff.rfl

/-- The ten blocks tile the output array: row r lies in the block of point r / 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val ∧ (i 1).val < win2_2.index ⟨(i 0).val / 10000, ht⟩ (1 : Fin 2) * 128 + 128
    rw [e5]; omega

/-- THE OUTPUT ARRAY after the region. -/
theorem final2 (c : Dev nD) : (dat2 V c).arrAt 2 cfg2.N = mmOut (V c main_v63) (V c main_v64) :=
  (dat2 V c).arrAt_eq_of_cover 2 _ (fun t _ => flushed2_eq V c t) (cover2)

end Cert.KernelIdeal.Reg

end
-- ==== Proof.KIVal3.lean ====
/-
  What pallas region 3 leaves in its output array, at the ideal instance: its first operand shifted by the bias row and clamped from below at zero, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg3
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The windows' block indices over the grid: the first operand and the output move down the rows with the point, the
    second operand stays. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at entry (p, q) of a block. -/
theorem pay3_apply (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) (Scalar.ofBits (F := Ideal) .f32 0x00000000#32) := by
  unfold k3_pay1
  rw [shapeCast_self, shapeCast_self]
  show max (x0 (ix2 p q) + broadcastTo S10000x128 x1 broadcasts_S1x128_S10000x128 (ix2 p q)) _ = _
  rw [broadcastTo_1b_ab_apply]
  rfl

/-- The whole-array bias-and-clamp at entry (P, q). -/
theorem whole3_apply (a : FVec Ideal S100000x128 .f32) (b : FVec Ideal S1x128 .f32) (P : Fin 100000) (q : Fin 128) :
    brOut a b (ix2 P q) = max (a (ix2 P q) + b (ix2 (0 : Fin 1) q)) (Scalar.ofBits (F := Ideal) .f32 0x00000000#32) := rfl

/-- What point `t` writes back is block `t` of the whole-array function of the operand arrays. -/
theorem flushed3_eq (c : Dev nD) (t : Fin cfg3.N) :
    (dat3 V c).flushed 2 t = ((cfg3.win 2).blk t).view.read (Elt Ideal) (brOut (V c main_v78) (V c main_v79)) := by
  show (cfg3.win 2).cut (grid3.coords t) ((dat3 V c).after 2 t) = _
  rw [after3_2]
  unfold out3_2
  rw [View.canon_unit_zero hz3]
  simp only [View.ld_unit_zero (S := S10000x128) hz3, View.ld_unit_zero (S := S1x128) hz3]
  obtain ⟨e0, e1, e2, e3, e4, e5⟩ := idx_facts3 t
  have hP : ∀ p : Fin 10000, t.val * 10000 + p.val < 100000 := fun p => by
    have h1 := t.isLt; have hN : cfg3.N = 10 := N_3; have := p.isLt; omega
  funext j
  obtain ⟨p, q, rfl⟩ : ∃ (p : Fin 10000) (q : Fin 128), j = ix2 p q := ⟨j 0, j 1, eq_ix2 j⟩
  have hP := hP p
  refine (pay3_apply (iblk3 V c 0 t) (iblk3 V c 1 t) p q).trans ?_
  have hemb : ((cfg3.win 2).blk t).view.emb (ix2 p q) = ix2 (⟨t.val * 10000 + p.val, hP⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  show _ = brOut (V c main_v78) (V c main_v79) (((cfg3.win 2).blk t).view.emb (ix2 p q))
  rw [hemb]
  refine Eq.trans ?_ (whole3_apply (V c main_v78) (V c main_v79) (⟨t.val * 10000 + p.val, hP⟩ : Fin 100000) q).symm
  have h0 : iblk3 V c 0 t (ix2 p q) = (V c main_v78 : FVec Ideal S100000x128 .f32) (ix2 (⟨t.val * 10000 + p.val, hP⟩ : Fin 100000) q) := by
    show (V c main_v78 : FVec Ideal S100000x128 .f32) (((cfg3.win 0).blk t).view.emb (ix2 p q)) = _
    refine congrArg (V c main_v78 : FVec Ideal S100000x128 .f32) ?_
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have h1 : iblk3 V c 1 t (ix2 (0 : Fin 1) q) = (V c main_v79 : FVec Ideal S1x128 .f32) (ix2 (0 : Fin 1) q) := by
    show (V c main_v79 : FVec Ideal S1x128 .f32) (((cfg3.win 1).blk t).view.emb (ix2 (0 : Fin 1) q)) = _
    refine congrArg (V c main_v79 : FVec Ideal S1x128 .f32) ?_
    funext a; apply Fin.ext
    match a with
    | ⟨0, _⟩ => show win3_1.index t (0 : Fin 2) * 1 + 1 * (0 : Fin 1).val = (0 : Fin 1).val; simp only [Fin.val_zero]; omega
    | ⟨1, _⟩ => show win3_1.index t (1 : Fin 2) * 128 + 1 * q.val = q.val; omega
  rw [h0, h1]

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v80).slice (win3_2.rect t)).set ↔ _
  rw [View.set_slice_whole, Rect.mem_set_unit]
  exact Iff.rfl

/-- The ten blocks tile the output array: row r lies in the block of point r / 10000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  have ht : (i 0).val / 10000 < cfg3.N := by rw [hN]; omega
  obtain ⟨e0, e1, e2, e3, e4, e5⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 128 ≤ (i 1).val ∧ (i 1).val < win3_2.index ⟨(i 0).val / 10000, ht⟩ (1 : Fin 2) * 128 + 128
    rw [e5]; omega

/-- THE OUTPUT ARRAY after the region. -/
theorem final3 (c : Dev nD) : (dat3 V c).arrAt 2 cfg3.N = brOut (V c main_v78) (V c main_v79) :=
  (dat3 V c).arrAt_eq_of_cover 2 _ (fun t _ => flushed3_eq V c t) (cover3)

end Cert.KernelIdeal.Reg

end
-- ==== Proof.KIVal4.lean ====
/-
  What pallas region 4 leaves in its output array, at the ideal instance: the matrix product of its two operand arrays, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg4
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The windows' block indices over the grid: the first operand and the output move down the rows with the point, the
    second operand stays. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at entry (p, q) of a block. -/
theorem pay4_apply (x0 : Vec Ideal S10000x128 .bf16) (x1 : Vec Ideal S128x128 .bf16) (p : Fin 10000) (q : Fin 128) :
    k4_pay1 (F := Ideal) x0 x1 (ix2 p q) = ∑ k : Fin 128, x0 (ix2 p k) * x1 (ix2 k q) := by
  unfold k4_pay1
  rw [shapeCast_self, shapeCast_self]
  exact MatRows.matmul_plain_apply none x0 x1 p q

/-- The whole-array product at entry (P, q). -/
theorem whole4_apply (x : FVec Ideal S100000x128 .bf16) (w : FVec Ideal S128x128 .bf16) (P : Fin 100000) (q : Fin 128) :
    mmOut x w (ix2 P q) = ∑ k : Fin 128, x (ix2 P k) * w (ix2 k q) := by
  unfold mmOut; exact MatRows.dotGeneral_plain_apply none x w P q

/-- What point `t` writes back is block `t` of the whole-array function of the operand arrays. -/
theorem flushed4_eq (c : Dev nD) (t : Fin cfg4.N) :
    (dat4 V c).flushed 2 t = ((cfg4.win 2).blk t).view.read (Elt Ideal) (mmOut (V c main_v81) (V c main_v82)) := by
  show (cfg4.win 2).cut (grid4.coords t) ((dat4 V c).after 2 t) = _
  rw [after4_2]
  unfold out4_2
  rw [View.canon_unit_zero hz4]
  simp only [View.ld_unit_zero (S := S10000x128) hz4, View.ld_unit_zero (S := S128x128) hz4]
  obtain ⟨e0, e1, e2, e3, e4, e5⟩ := idx_facts4 t
  have hP : ∀ p : Fin 10000, t.val * 10000 + p.val < 100000 := fun p => by
    have h1 := t.isLt; have hN : cfg4.N = 10 := N_4; have := p.isLt; omega
  funext j
  obtain ⟨p, q, rfl⟩ : ∃ (p : Fin 10000) (q : Fin 128), j = ix2 p q := ⟨j 0, j 1, eq_ix2 j⟩
  have hP := hP p
  refine (pay4_apply (iblk4 V c 0 t) (iblk4 V c 1 t) p q).trans ?_
  have hemb : ((cfg4.win 2).blk t).view.emb (ix2 p q) = ix2 (⟨t.val * 10000 + p.val, hP⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 128 + 1 * q.val = q.val; omega
  show _ = mmOut (V c main_v81) (V c main_v82) (((cfg4.win 2).blk t).view.emb (ix2 p q))
  rw [hemb]
  refine Eq.trans ?_ (whole4_apply (V c main_v81) (V c main_v82) (⟨t.val * 10000 + p.val, hP⟩ : Fin 100000) q).symm
  refine Finset.sum_congr rfl fun k _ => ?_
  have h0 : iblk4 V c 0 t (ix2 p k) = (V c main_v81 : FVec Ideal S100000x128 .bf16) (ix2 (⟨t.val * 10000 + p.val, hP⟩ : Fin 100000) k) := by
    show (V c main_v81 : FVec Ideal S100000x128 .bf16) (((cfg4.win 0).blk t).view.emb (ix2 p k)) = _
    refine congrArg (V c main_v81 : FVec Ideal S100000x128 .bf16) ?_
    funext a; apply Fin.ext
    match a with
    | ⟨0, _⟩ => show win4_0.index t (0 : Fin 2) * 10000 + 1 * p.val = t.val * 10000 + p.val; omega
    | ⟨1, _⟩ => show win4_0.index t (1 : Fin 2) * 128 + 1 * k.val = k.val; omega
  have h1 : iblk4 V c 1 t (ix2 k q) = (V c main_v82 : FVec Ideal S128x128 .bf16) (ix2 k q) := by
    show (V c main_v82 : FVec Ideal S128x128 .bf16) (((cfg4.win 1).blk t).view.emb (ix2 k q)) = _
    refine congrArg (V c main_v82 : FVec Ideal S128x128 .bf16) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  rw [h0, h1]

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v83).slice (win4_2.rect t)).set ↔ _
  rw [View.set_slice_whole, Rect.mem_set_unit]
  exact Iff.rfl

/-- The ten blocks tile the output array: row r lies in the block of point r / 10000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  have ht : (i 0).val / 10000 < cfg4.N := by rw [hN]; omega
  obtain ⟨e0, e1, e2, e3, e4, e5⟩ := idx_facts4 ⟨(i 0).val / 10000, ht⟩
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e5]; omega

/-- THE OUTPUT ARRAY after the region. -/
theorem final4 (c : Dev nD) : (dat4 V c).arrAt 2 cfg4.N = mmOut (V c main_v81) (V c main_v82) :=
  (dat4 V c).arrAt_eq_of_cover 2 _ (fun t _ => flushed4_eq V c t) (cover4)

end Cert.KernelIdeal.Reg

end
-- ==== Proof.KIVal5.lean ====
/-
  What pallas region 5 leaves in its output array, at the ideal instance: its first operand shifted by the bias row and clamped from below at zero, on whole arrays.
  Point t of the grid computes rows 10000 t … 10000 t + 9999: its block of the first operand is those rows, the second
  operand is staged whole, and the body's value at entry (p, q) of the block depends on row p of the first block only —
  so the block point t writes back is the restriction of one whole-array function, and the ten blocks tile the array.
-/
import proofs.«104296_j21801253994527_1_alg».proof.Proof.KIReg5
import proofs.«104296_j21801253994527_1_alg».proof.Proof.ValDefs
import proofs.«104296_j21801253994527_1_alg».proof.Proof.LibMatRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg

open Cert.KernelIdeal Cert.KernelIdeal.Gen Cert.KernelIdeal.ValBridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The windows' block indices over the grid: the first operand and the output move down the rows with the point, the
    second operand stays. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's value at entry (p, q) of a block. -/
theorem pay5_apply (x0 : Vec Ideal S10000x128 .f32) (x1 : Vec Ideal S1x128 .f32) (p : Fin 10000) (q : Fin 128) :
    k5_pay1 (F := Ideal) x0 x1 (ix2 p q) = max (x0 (ix2 p q) + x1 (ix2 (0 : Fin 1) q)) (Scalar.ofBits (F := Ideal) .f32 0x00000000#32) := by
  unfold k5_pay1
  rw [shapeCast_self, shapeCast_self]
  show max (x0 (ix2 p q) + broadcastTo S10000x128 x1 broadcasts_S1x128_S10000x128 (ix2 p q)) _ = _
  rw [broadcastTo_1b_ab_apply]
  rfl

/-- The whole-array bias-and-clamp at entry (P, q). -/
theorem whole5_apply (a : FVec Ideal S100000x128 .f32) (b : FVec Ideal S1x128 .f32) (P : Fin 100000) (q : Fin 128) :
    brOut a b (ix2 P q) = max (a (ix2 P q) + b (ix2 (0 : Fin 1) q)) (Scalar.ofBits (F := Ideal) .f32 0x00000000#32) := rfl

/-- What point `t` writes back is block `t` of the whole-array function of the operand arrays. -/
theorem flushed5_eq (c : Dev nD) (t : Fin cfg5.N) :
    (dat5 V c).flushed 2 t = ((cfg5.win 2).blk t).view.read (Elt Ideal) (brOut (V c main_v96) (V c main_v97)) := by
  show (cfg5.win 2).cut (grid5.coords t) ((dat5 V c).after 2 t) = _
  rw [after5_2]
  unfold out5_2
  rw [View.canon_unit_zero hz5]
  simp only [View.ld_unit_zero (S := S10000x128) hz5, View.ld_unit_zero (S := S1x128) hz5]
  obtain ⟨e0, e1, e2, e3, e4, e5⟩ := idx_facts5 t
  have hP : ∀ p : Fin 10000, t.val * 10000 + p.val < 100000 := fun p => by
    have h1 := t.isLt; have hN : cfg5.N = 10 := N_5; have := p.isLt; omega
  funext j
  obtain ⟨p, q, rfl⟩ : ∃ (p : Fin 10000) (q : Fin 128), j = ix2 p q := ⟨j 0, j 1, eq_ix2 j⟩
  have hP := hP p
  refine (pay5_apply (iblk5 V c 0 t) (iblk5 V c 1 t) p q).trans ?_
  have hemb : ((cfg5.win 2).blk t).view.emb (ix2 p q) = ix2 (⟨t.val * 10000 + p.val, hP⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 128 + 1 * q.val = q.val; omega
  show _ = brOut (V c main_v96) (V c main_v97) (((cfg5.win 2).blk t).view.emb (ix2 p q))
  rw [hemb]
  refine Eq.trans ?_ (whole5_apply (V c main_v96) (V c main_v97) (⟨t.val * 10000 + p.val, hP⟩ : Fin 100000) q).symm
  have h0 : iblk5 V c 0 t (ix2 p q) = (V c main_v96 : FVec Ideal S100000x128 .f32) (ix2 (⟨t.val * 10000 + p.val, hP⟩ : Fin 100000) q) := by
    show (V c main_v96 : FVec Ideal S100000x128 .f32) (((cfg5.win 0).blk t).view.emb (ix2 p q)) = _
    refine congrArg (V c main_v96 : FVec Ideal S100000x128 .f32) ?_
    funext a; apply Fin.ext
    match a with
    | ⟨0, _⟩ => show win5_0.index t (0 : Fin 2) * 10000 + 1 * p.val = t.val * 10000 + p.val; omega
    | ⟨1, _⟩ => show win5_0.index t (1 : Fin 2) * 128 + 1 * q.val = q.val; omega
  have h1 : iblk5 V c 1 t (ix2 (0 : Fin 1) q) = (V c main_v97 : FVec Ideal S1x128 .f32) (ix2 (0 : Fin 1) q) := by
    show (V c main_v97 : FVec Ideal S1x128 .f32) (((cfg5.win 1).blk t).view.emb (ix2 (0 : Fin 1) q)) = _
    refine congrArg (V c main_v97 : FVec Ideal S1x128 .f32) ?_
    funext a; apply Fin.ext
    match a with
    | ⟨0, _⟩ => show win5_1.index t (0 : Fin 2) * 1 + 1 * (0 : Fin 1).val = (0 : Fin 1).val; simp only [Fin.val_zero]; omega
    | ⟨1, _⟩ => show win5_1.index t (1 : Fin 2) * 128 + 1 * q.val = q.val; omega
  rw [h0, h1]

/-- An index of the output array is in point `t`'s block iff each coordinate is in the block's range on its axis. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v98).slice (win5_2.rect t)).set ↔ _
  rw [View.set_slice_whole, Rect.mem_set_unit]
  exact Iff.rfl

/-- The ten blocks tile the output array: row r lies in the block of point r / 10000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  have ht : (i 0).val / 10000 < cfg5.N := by rw [hN]; omega
  obtain ⟨e0, e1, e2, e3, e4, e5⟩ := idx_facts5 ⟨(i 0).val / 10000, ht⟩
  refine ⟨⟨(i 0).val / 10000, ht⟩, flush5_2 _, ?_⟩
  rw [mem_blk5]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 128 ≤ (i 1).val ∧ (i 1).val < win5_2.index ⟨(i 0).val / 10000, ht⟩ (1 : Fin 2) * 128 + 128
    rw [e5]; omega

/-- THE OUTPUT ARRAY after the region. -/
theorem final5 (c : Dev nD) : (dat5 V c).arrAt 2 cfg5.N = brOut (V c main_v96) (V c main_v97) :=
  (dat5 V c).arrAt_eq_of_cover 2 _ (fun t _ => flushed5_eq V c t) (cover5)

end Cert.KernelIdeal.Reg

end
-- ==== Proof.ValAggr.lean ====
/-
  One layer of the graph convolution as a function of whole arrays.

  With the graph given as a list of 1700000 edges — a source node `row`, a target node `col` and a weight `nrm`
  per edge — a layer maps node features h (100000 × 128), a weight matrix w (128 × 128) and a bias vector b to

      max (A (h · w) + b, 0),    (A y)[n, :] = Σ over the edges e with col e = n of  nrm e · y[row e, :].

  `aggr` is the edge aggregation A written as the host operations that compute it: the source indices brought into
  range (an index below zero is moved up by the node count), the rows of y gathered per edge, each scaled by its edge's
  weight, and the scaled rows added into a zero array at the target nodes.  `layer` composes the product, the
  aggregation and the bias-and-clamp, the bias vector first reshaped into a one-row matrix.
-/
import proofs.«104296_j21801253994527_1_alg».proof.Proof.Gen.KernelIdeal
import proofs.«104296_j21801253994527_1_alg».proof.Proof.ValDefs

noncomputable section

namespace Cert.KernelIdeal.ValBridge

open Cert.KernelIdeal Cert.KernelIdeal.Gen Idealize.ShloMosaic Idealize.SL.Sem

/-- the edge aggregation of a feature array `y` -/
def aggr (y : FVec Ideal S100000x128 .f32) (row col : (⟨S1700000, .i32⟩ : BufTy).Contents (Elt Ideal))
    (nrm : FVec Ideal S1700000 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 col)
    (mulf (broadcastInDim S1700000x128 ![0, 1] bcast_S1700000x1_S1700000x128_0_1
            (broadcastInDim S1700000x1 ![0] bcast_S1700000_S1700000x1_0 nrm))
          (Host.gather gather_S100000x128_S1700000x1_S1700000x128_1_0_n_n_0_1_1128 y
            (broadcastInDim S1700000x1 ![0] bcast_S1700000_S1700000x1_0
              (select (cmpi .slt row (broadcastInDim S1700000 ![] bcast_S_S1700000 (constantI S_ 32 0#32)))
                (addi row (broadcastInDim S1700000 ![] bcast_S_S1700000 (constantI S_ 32 100000#32)))
                row))))

/-- one layer: product, edge aggregation, bias-and-clamp -/
def layer (h : FVec Ideal S100000x128 .f32) (w : FVec Ideal S128x128 .f32) (b : FVec Ideal S128 .f32)
    (row col : (⟨S1700000, .i32⟩ : BufTy).Contents (Elt Ideal)) (nrm : FVec Ideal S1700000 .f32) :
    FVec Ideal S100000x128 .f32 :=
  brOut (aggr (mmOut h w) row col nrm) (shapeCast S1x128 b shapeCasts_S128_S1x128)

end Cert.KernelIdeal.ValBridge

end
-- ==== Proof.ValKeep.lean ====
/-
  Buffers that the items of the main program leave alone.

  Between two items of the main program a buffer that none of the items in between writes keeps its contents.  The
  statements below chain the one-item facts: an argument array is still the launch contents at each of the points where
  a layer reads it, the edge list and edge weights computed before the first layer are still there when the second
  and third layers read them, and a layer's output is still there when the final concatenation reads it.
-/
import proofs.«104296_j21801253994527_1_alg».proof.Proof.Gen.KernelIdeal.Regions
import Idealize.ShloMosaic.PureOps.Ideal

noncomputable section

namespace Cert.KernelIdeal.ValBridge

open Cert.KernelIdeal Cert.KernelIdeal.Gen Idealize.ShloMosaic Idealize.ShloMosaic.TcCoe Idealize.SL.Sem

variable (m : (ℓ : Loc nD τ sig) → Buf (Elt Ideal) ℓ) (outs : Gen.Outs (F := Ideal)) (c : Dev nD)

/-- Not written by any of the nine host stretches before the first region but the last: launch contents after eight. -/
theorem V8_launch (r : Ref sig .tc)
    (h : r ∉ hostOps0_W ∧ r ∉ hostOps0_1_W ∧ r ∉ hostOps0_2_W ∧ r ∉ hostOps0_3_W ∧ r ∉ hostOps0_4_W
      ∧ r ∉ hostOps0_5_W ∧ r ∉ hostOps0_6_W ∧ r ∉ hostOps0_7_W) :
    V8 m c r = m ((c.tc : Thread nD τ).loc r) :=
  (V8_of m c r h.2.2.2.2.2.2.2).trans <| (V7_of m c r h.2.2.2.2.2.2.1).trans <| (V6_of m c r h.2.2.2.2.2.1).trans <|
  (V5_of m c r h.2.2.2.2.1).trans <| (V4_of m c r h.2.2.2.1).trans <| (V3_of m c r h.2.2.1).trans <|
  (V2_of m c r h.2.1).trans <| (V1_of m c r h.1).trans rfl

/-- Launch contents after all nine host stretches before the first region. -/
theorem V9_launch (r : Ref sig .tc)
    (h : r ∉ hostOps0_W ∧ r ∉ hostOps0_1_W ∧ r ∉ hostOps0_2_W ∧ r ∉ hostOps0_3_W ∧ r ∉ hostOps0_4_W
      ∧ r ∉ hostOps0_5_W ∧ r ∉ hostOps0_6_W ∧ r ∉ hostOps0_7_W)
    (h9 : r ∉ hostOps0_8_W) :
    V9 m c r = m ((c.tc : Thread nD τ).loc r) :=
  (V9_of m c r h9).trans (V8_launch m c r h)

/-- From the end of the prefix to the point where the second layer's host operations read (after region 2). -/
theorem V14_V9 (r : Ref sig .tc)
    (h : r ∉ ([main_v47] : List (Ref sig .tc)) ∧ r ∉ hostOps1_W ∧ r ∉ ([main_v62] : List (Ref sig .tc)) ∧ r ∉ hostOps2_W
      ∧ r ∉ ([main_v65] : List (Ref sig .tc))) :
    V14 m outs c r = V9 m c r :=
  (V14_of m outs c r h.2.2.2.2).trans <| (V13_of m outs c r h.2.2.2.1).trans <| (V12_of m outs c r h.2.2.1).trans <|
  (V11_of m outs c r h.2.1).trans <| (V10_of m outs c r h.1)

/-- From after region 2 to the point where the third layer's host operations read (after region 4). -/
theorem V18_V14 (r : Ref sig .tc)
    (h : r ∉ hostOps3_W ∧ r ∉ ([main_v80] : List (Ref sig .tc)) ∧ r ∉ hostOps4_W ∧ r ∉ ([main_v83] : List (Ref sig .tc))) :
    V18 m outs c r = V14 m outs c r :=
  (V18_of m outs c r h.2.2.2).trans <| (V17_of m outs c r h.2.2.1).trans <| (V16_of m outs c r h.2.1).trans <|
  (V15_of m outs c r h.1)

/-- From after region 1 to after region 3. -/
theorem V16_V12 (r : Ref sig .tc)
    (h : r ∉ hostOps2_W ∧ r ∉ ([main_v65] : List (Ref sig .tc)) ∧ r ∉ hostOps3_W ∧ r ∉ ([main_v80] : List (Ref sig .tc))) :
    V16 m outs c r = V12 m outs c r :=
  (V16_of m outs c r h.2.2.2).trans <| (V15_of m outs c r h.2.2.1).trans <| (V14_of m outs c r h.2.1).trans <|
  (V13_of m outs c r h.1)

/-- From after region 3 to after region 5, where the final concatenation reads. -/
theorem V20_V16 (r : Ref sig .tc)
    (h : r ∉ hostOps4_W ∧ r ∉ ([main_v83] : List (Ref sig .tc)) ∧ r ∉ hostOps5_W ∧ r ∉ ([main_v98] : List (Ref sig .tc))) :
    V20 m outs c r = V16 m outs c r :=
  (V20_of m outs c r h.2.2.2).trans <| (V19_of m outs c r h.2.2.1).trans <| (V18_of m outs c r h.2.1).trans <|
  (V17_of m outs c r h.1)

/-- From the end of the prefix to after region 1. -/
theorem V12_V9 (r : Ref sig .tc)
    (h : r ∉ ([main_v47] : List (Ref sig .tc)) ∧ r ∉ hostOps1_W ∧ r ∉ ([main_v62] : List (Ref sig .tc))) :
    V12 m outs c r = V9 m c r :=
  (V12_of m outs c r h.2.2).trans <| (V11_of m outs c r h.2.1).trans <| (V10_of m outs c r h.1)

end Cert.KernelIdeal.ValBridge

end
-- ==== Proof.ValKernel.lean ====
/-
  The kernel's three layers read back as whole-array functions.

  The main program runs, per layer, a region that forms the product of the features with the layer's weights, a
  stretch of host operations that aggregates the product over the graph's edges and reshapes the bias vector into a
  row, and a region that adds the bias row and clamps at zero; before the second and third layers a short stretch
  converts the previous layer's output and the weights to the product's input format, which changes nothing at the
  ideal values.  Given what the two regions of a layer leave in their output arrays (the hypotheses), the contents of
  the layer's output buffer is `layer` applied to the layer's input, its weights and bias, and the edge list and
  edge weights the prefix of the program computed.  The last host operation lays the input features and the three
  layers' outputs side by side.
-/
import proofs.«104296_j21801253994527_1_alg».proof.Proof.Gen.KernelIdeal.Regions
import proofs.«104296_j21801253994527_1_alg».proof.Proof.ValAggr
import proofs.«104296_j21801253994527_1_alg».proof.Proof.ValKeep
import Idealize.ShloMosaic.Lib.StableHlo.Run
import Idealize.ShloMosaic.PureOps.Ideal

noncomputable section

namespace Cert.KernelIdeal.ValBridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (outs : Gen.Outs (F := Ideal)) (c : Dev nD)

/-- At the ideal values a change of float format leaves an array as it is. -/
theorem truncf_ideal {s : Shape} {φ : FTy} (ψ : FTy) (x : FVec Ideal s φ) (h : ψ.bits < φ.bits) :
    truncf (F := Ideal) ψ x h = x := rfl

/-! ## Layer 1 -/

theorem V9_v45 :
    V9 m c main_v45 = truncf (F := Ideal) .bf16 (V8 m c main_arg3 : FVec Ideal S100000x128 .f32) bitsLt_bf16_f32 := by
  show StableHlo.after hostOps0_8 (V8 m c) (Proc.devRef .tc main_v45) = _
  generalize V8 m c = W
  after_results <;> rfl

theorem V9_v46 :
    V9 m c main_v46 = truncf (F := Ideal) .bf16 (V8 m c main_arg4 : FVec Ideal S128x128 .f32) bitsLt_bf16_f32 := by
  show StableHlo.after hostOps0_8 (V8 m c) (Proc.devRef .tc main_v46) = _
  generalize V8 m c = W
  after_results <;> rfl

set_option maxHeartbeats 2000000 in
theorem V11_v60 :
    V11 m outs c main_v60
      = aggr (V10 m outs c main_v47) (V10 m outs c main_v16) (V10 m outs c main_v17) (V10 m outs c main_v44) := by
  show StableHlo.after hostOps1 (V10 m outs c) (Proc.devRef .tc main_v60) = _
  generalize V10 m outs c = W
  after_results_simp <;> rfl

theorem V11_v61 :
    V11 m outs c main_v61
      = shapeCast S1x128 (V10 m outs c main_arg7 : FVec Ideal S128 .f32) shapeCasts_S128_S1x128 := by
  show StableHlo.after hostOps1 (V10 m outs c) (Proc.devRef .tc main_v61) = _
  generalize V10 m outs c = W
  after_results <;> rfl

/-- The first layer's output buffer after its bias region. -/
theorem layer1
    (h47 : outs 10 main_v47 c = mmOut (V9 m c main_v45) (V9 m c main_v46))
    (h62 : outs 12 main_v62 c = brOut (V11 m outs c main_v60) (V11 m outs c main_v61)) :
    V12 m outs c main_v62
      = layer (m ((c.tc : Thread nD τ).loc main_arg3)) (m ((c.tc : Thread nD τ).loc main_arg4))
          (m ((c.tc : Thread nD τ).loc main_arg7)) (V9 m c main_v16) (V9 m c main_v17) (V9 m c main_v44) := by
  have e62 : V12 m outs c main_v62 = outs 12 main_v62 c := Function.update_self ..
  have e47 : V10 m outs c main_v47 = outs 10 main_v47 c := Function.update_self ..
  rw [e62, h62, V11_v60, V11_v61, e47, h47, V9_v45, V9_v46, truncf_ideal, truncf_ideal,
    V8_launch m c main_arg3 (by decide), V8_launch m c main_arg4 (by decide),
    V10_of m outs c main_v16 (by decide), V10_of m outs c main_v17 (by decide), V10_of m outs c main_v44 (by decide),
    V10_of m outs c main_arg7 (by decide), V9_launch m c main_arg7 (by decide) (by decide)]
  rfl

/-! ## Layer 2 -/

theorem V13_v63 :
    V13 m outs c main_v63
      = truncf (F := Ideal) .bf16 (V12 m outs c main_v62 : FVec Ideal S100000x128 .f32) bitsLt_bf16_f32 := by
  show StableHlo.after hostOps2 (V12 m outs c) (Proc.devRef .tc main_v63) = _
  generalize V12 m outs c = W
  after_results <;> rfl

theorem V13_v64 :
    V13 m outs c main_v64
      = truncf (F := Ideal) .bf16 (V12 m outs c main_arg5 : FVec Ideal S128x128 .f32) bitsLt_bf16_f32 := by
  show StableHlo.after hostOps2 (V12 m outs c) (Proc.devRef .tc main_v64) = _
  generalize V12 m outs c = W
  after_results <;> rfl

set_option maxHeartbeats 2000000 in
theorem V15_v78 :
    V15 m outs c main_v78
      = aggr (V14 m outs c main_v65) (V14 m outs c main_v16) (V14 m outs c main_v17) (V14 m outs c main_v44) := by
  show StableHlo.after hostOps3 (V14 m outs c) (Proc.devRef .tc main_v78) = _
  generalize V14 m outs c = W
  after_results_simp <;> rfl

theorem V15_v79 :
    V15 m outs c main_v79
      = shapeCast S1x128 (V14 m outs c main_arg8 : FVec Ideal S128 .f32) shapeCasts_S128_S1x128 := by
  show StableHlo.after hostOps3 (V14 m outs c) (Proc.devRef .tc main_v79) = _
  generalize V14 m outs c = W
  after_results <;> rfl

/-- The second layer's output buffer after its bias region. -/
theorem layer2
    (h65 : outs 14 main_v65 c = mmOut (V13 m outs c main_v63) (V13 m outs c main_v64))
    (h80 : outs 16 main_v80 c = brOut (V15 m outs c main_v78) (V15 m outs c main_v79)) :
    V16 m outs c main_v80
      = layer (V12 m outs c main_v62) (m ((c.tc : Thread nD τ).loc main_arg5))
          (m ((c.tc : Thread nD τ).loc main_arg8)) (V9 m c main_v16) (V9 m c main_v17) (V9 m c main_v44) := by
  have e80 : V16 m outs c main_v80 = outs 16 main_v80 c := Function.update_self ..
  have e65 : V14 m outs c main_v65 = outs 14 main_v65 c := Function.update_self ..
  rw [e80, h80, V15_v78, V15_v79, e65, h65, V13_v63, V13_v64, truncf_ideal, truncf_ideal,
    (V12_V9 m outs c main_arg5 (by decide)).trans (V9_launch m c main_arg5 (by decide) (by decide)),
    V14_V9 m outs c main_v16 (by decide), V14_V9 m outs c main_v17 (by decide), V14_V9 m outs c main_v44 (by decide),
    (V14_V9 m outs c main_arg8 (by decide)).trans (V9_launch m c main_arg8 (by decide) (by decide))]
  rfl

/-! ## Layer 3 -/

theorem V17_v81 :
    V17 m outs c main_v81
      = truncf (F := Ideal) .bf16 (V16 m outs c main_v80 : FVec Ideal S100000x128 .f32) bitsLt_bf16_f32 := by
  show StableHlo.after hostOps4 (V16 m outs c) (Proc.devRef .tc main_v81) = _
  generalize V16 m outs c = W
  after_results <;> rfl

theorem V17_v82 :
    V17 m outs c main_v82
      = truncf (F := Ideal) .bf16 (V16 m outs c main_arg6 : FVec Ideal S128x128 .f32) bitsLt_bf16_f32 := by
  show StableHlo.after hostOps4 (V16 m outs c) (Proc.devRef .tc main_v82) = _
  generalize V16 m outs c = W
  after_results <;> rfl

set_option maxHeartbeats 2000000 in
theorem V19_v96 :
    V19 m outs c main_v96
      = aggr (V18 m outs c main_v83) (V18 m outs c main_v16) (V18 m outs c main_v17) (V18 m outs c main_v44) := by
  show StableHlo.after hostOps5 (V18 m outs c) (Proc.devRef .tc main_v96) = _
  generalize V18 m outs c = W
  after_results_simp <;> rfl

theorem V19_v97 :
    V19 m outs c main_v97
      = shapeCast S1x128 (V18 m outs c main_arg9 : FVec Ideal S128 .f32) shapeCasts_S128_S1x128 := by
  show StableHlo.after hostOps5 (V18 m outs c) (Proc.devRef .tc main_v97) = _
  generalize V18 m outs c = W
  after_results <;> rfl

/-- The third layer's output buffer after its bias region. -/
theorem layer3
    (h83 : outs 18 main_v83 c = mmOut (V17 m outs c main_v81) (V17 m outs c main_v82))
    (h98 : outs 20 main_v98 c = brOut (V19 m outs c main_v96) (V19 m outs c main_v97)) :
    V20 m outs c main_v98
      = layer (V16 m outs c main_v80) (m ((c.tc : Thread nD τ).loc main_arg6))
          (m ((c.tc : Thread nD τ).loc main_arg9)) (V9 m c main_v16) (V9 m c main_v17) (V9 m c main_v44) := by
  have e98 : V20 m outs c main_v98 = outs 20 main_v98 c := Function.update_self ..
  have e83 : V18 m outs c main_v83 = outs 18 main_v83 c := Function.update_self ..
  rw [e98, h98, V19_v96, V19_v97, e83, h83, V17_v81, V17_v82, truncf_ideal, truncf_ideal,
    (V16_V12 m outs c main_arg6 (by decide)).trans
      ((V12_V9 m outs c main_arg6 (by decide)).trans (V9_launch m c main_arg6 (by decide) (by decide))),
    (V18_V14 m outs c main_v16 (by decide)).trans (V14_V9 m outs c main_v16 (by decide)),
    (V18_V14 m outs c main_v17 (by decide)).trans (V14_V9 m outs c main_v17 (by decide)),
    (V18_V14 m outs c main_v44 (by decide)).trans (V14_V9 m outs c main_v44 (by decide)),
    (V18_V14 m outs c main_arg9 (by decide)).trans
      ((V14_V9 m outs c main_arg9 (by decide)).trans (V9_launch m c main_arg9 (by decide) (by decide)))]
  rfl

/-! ## The result -/

/-- The result buffer: the input features and the three layers' outputs side by side. -/
theorem V21_v99 :
    V21 m outs c main_v99
      = concatenate S100000x512 1
          [⟨S100000x128, (V20 m outs c main_arg3 : FVec Ideal S100000x128 .f32)⟩,
           ⟨S100000x128, (V20 m outs c main_v62 : FVec Ideal S100000x128 .f32)⟩,
           ⟨S100000x128, (V20 m outs c main_v80 : FVec Ideal S100000x128 .f32)⟩,
           ⟨S100000x128, (V20 m outs c main_v98 : FVec Ideal S100000x128 .f32)⟩]
          concatenates_S100000x128_S100000x128_S100000x128_S100000x128_S100000x512_d1 := by
  show StableHlo.after hostOps6 (V20 m outs c) (Proc.devRef .tc main_v99) = _
  generalize V20 m outs c = W
  after_results <;> rfl

/-- The input features are still the launch contents where the concatenation reads them. -/
theorem V20_arg3 : V20 m outs c main_arg3 = m ((c.tc : Thread nD τ).loc main_arg3) :=
  (V20_V16 m outs c main_arg3 (by decide)).trans <| (V16_V12 m outs c main_arg3 (by decide)).trans <|
  (V12_V9 m outs c main_arg3 (by decide)).trans (V9_launch m c main_arg3 (by decide) (by decide))

/-- The first layer's output is still there where the concatenation reads it. -/
theorem V20_v62 : V20 m outs c main_v62 = V12 m outs c main_v62 :=
  (V20_V16 m outs c main_v62 (by decide)).trans (V16_V12 m outs c main_v62 (by decide))

/-- The second layer's output is still there where the concatenation reads it. -/
theorem V20_v80 : V20 m outs c main_v80 = V16 m outs c main_v80 :=
  V20_V16 m outs c main_v80 (by decide)

end Cert.KernelIdeal.ValBridge

end
-- ==== Proof.ValPrefix.lean ====
/-
  The edge list and edge weights the prefix of the main program computes are the reference's.

  Before the first layer both programs run the same host operations on the edge index (argument 1) and the edge
  weights (argument 2): the two rows of the edge index are extended by a self-loop per node, giving the source list
  (value 16) and the target list (value 17); the weights are extended by a per-node self-loop weight (value 18),
  summed per target node into a degree (value 21), and the inverse square root of the positive degrees (value 28),
  read at both ends of each edge, scales the weights into the normalised edge weights (value 44).  The main program
  runs these operations in nine stretches; each statement below says that a buffer, after the stretch that writes it,
  holds the value the reference names.  The shallow values are read through all stretches at once; from the degree
  on, each stretch is read from the facts about the stretch before.
-/
import proofs.«104296_j21801253994527_1_alg».proof.Proof.Gen.KernelIdeal.Regions
import proofs.«104296_j21801253994527_1_alg».proof.Proof.RefReadP
import Idealize.ShloMosaic.Lib.StableHlo.Run
import Idealize.ShloMosaic.PureOps.Ideal

noncomputable section

namespace Cert.KernelIdeal.ValBridge

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (c : Dev nD)

/-! ## Values read through all the stretches before them at once -/

set_option maxHeartbeats 1000000 in
/-- the first row of the edge index, after four stretches -/
theorem pre4_v1 : V4 m c main_v1 = val_main_v1 (F := Ideal) (m ((c.tc : Thread nD τ).loc main_arg1)) := by
  show (StableHlo.after hostOps0_3 (StableHlo.after hostOps0_2 (StableHlo.after hostOps0_1 (StableHlo.after hostOps0 (fun b => m (c, b)))))) (Proc.devRef .tc main_v1) = _
  after_results_simp
  rfl

set_option maxHeartbeats 1000000 in
/-- the second row of the edge index, after four stretches -/
theorem pre4_v3 : V4 m c main_v3 = val_main_v3 (F := Ideal) (m ((c.tc : Thread nD τ).loc main_arg1)) := by
  show (StableHlo.after hostOps0_3 (StableHlo.after hostOps0_2 (StableHlo.after hostOps0_1 (StableHlo.after hostOps0 (fun b => m (c, b)))))) (Proc.devRef .tc main_v3) = _
  after_results_simp
  rfl

set_option maxHeartbeats 2000000 in
/-- the per-node self-loop weights, after four stretches -/
theorem pre4_v13 : V4 m c main_v13 = val_main_v13 (F := Ideal) (m ((c.tc : Thread nD τ).loc main_arg1)) (m ((c.tc : Thread nD τ).loc main_arg2)) := by
  show (StableHlo.after hostOps0_3 (StableHlo.after hostOps0_2 (StableHlo.after hostOps0_1 (StableHlo.after hostOps0 (fun b => m (c, b)))))) (Proc.devRef .tc main_v13) = _
  after_results_simp
  rfl

set_option maxHeartbeats 2000000 in
/-- the edge weights with those of the self-loops among them zeroed, after four stretches -/
theorem pre4_v14 : V4 m c main_v14 = val_main_v14 (F := Ideal) (m ((c.tc : Thread nD τ).loc main_arg1)) (m ((c.tc : Thread nD τ).loc main_arg2)) := by
  show (StableHlo.after hostOps0_3 (StableHlo.after hostOps0_2 (StableHlo.after hostOps0_1 (StableHlo.after hostOps0 (fun b => m (c, b)))))) (Proc.devRef .tc main_v14) = _
  after_results_simp
  rfl

set_option maxHeartbeats 1000000 in
/-- the source list, after eight stretches -/
theorem pre8_v16 : V8 m c main_v16 = val_main_v16 (F := Ideal) (m ((c.tc : Thread nD τ).loc main_arg1)) := by
  show (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (Proc.devRef .tc main_v16) = _
  after_results_simp
  rfl

set_option maxHeartbeats 1000000 in
/-- the target list, after eight stretches -/
theorem pre8_v17 : V8 m c main_v17 = val_main_v17 (F := Ideal) (m ((c.tc : Thread nD τ).loc main_arg1)) := by
  show (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (Proc.devRef .tc main_v17) = _
  after_results_simp
  rfl

set_option maxHeartbeats 1000000 in
/-- the source list, at the end of the prefix -/
theorem pre_v16 : V9 m c main_v16 = val_main_v16 (F := Ideal) (m ((c.tc : Thread nD τ).loc main_arg1)) := by
  show (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (Proc.devRef .tc main_v16) = _
  after_results_simp
  rfl

set_option maxHeartbeats 1000000 in
/-- the target list, at the end of the prefix -/
theorem pre_v17 : V9 m c main_v17 = val_main_v17 (F := Ideal) (m ((c.tc : Thread nD τ).loc main_arg1)) := by
  show (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (Proc.devRef .tc main_v17) = _
  after_results_simp
  rfl

/-! ## The fifth stretch: the extended weights and the degree -/

set_option maxHeartbeats 4000000 in
/-- the edge weights extended by the self-loop weights -/
theorem pre5_v18 : V5 m c main_v18 = val_main_v18 (F := Ideal) (m ((c.tc : Thread nD τ).loc main_arg1)) (m ((c.tc : Thread nD τ).loc main_arg2)) := by
  have h13 := pre4_v13 m c
  have h14 := pre4_v14 m c
  show StableHlo.after hostOps0_4 (V4 m c) (Proc.devRef .tc main_v18) = _
  generalize V4 m c = W at h13 h14 ⊢
  after_results
  rw [h13, h14]
  rfl

set_option maxHeartbeats 4000000 in
/-- the degree: the extended weights summed per target node -/
theorem pre5_v21 : V5 m c main_v21 = val_main_v21 (F := Ideal) (m ((c.tc : Thread nD τ).loc main_arg1)) (m ((c.tc : Thread nD τ).loc main_arg2)) := by
  have h3 := pre4_v3 m c
  have h13 := pre4_v13 m c
  have h14 := pre4_v14 m c
  show StableHlo.after hostOps0_4 (V4 m c) (Proc.devRef .tc main_v21) = _
  generalize V4 m c = W at h3 h13 h14 ⊢
  after_results
  rw [h3, h13, h14]
  rfl

set_option maxHeartbeats 4000000 in
/-- where the degree is positive -/
theorem pre5_v23 : V5 m c main_v23 = val_main_v23 (F := Ideal) (m ((c.tc : Thread nD τ).loc main_arg1)) (m ((c.tc : Thread nD τ).loc main_arg2)) := by
  have h3 := pre4_v3 m c
  have h13 := pre4_v13 m c
  have h14 := pre4_v14 m c
  show StableHlo.after hostOps0_4 (V4 m c) (Proc.devRef .tc main_v23) = _
  generalize V4 m c = W at h3 h13 h14 ⊢
  after_results
  rw [h3, h13, h14]
  rfl

/-- the constant one the degree is replaced by where it is not positive -/
theorem pre5_cst_5 : V5 m c main_cst_5 = val_main_cst_5 (F := Ideal) := by
  show StableHlo.after hostOps0_4 (V4 m c) (Proc.devRef .tc main_cst_5) = _
  generalize V4 m c = W
  after_results_simp <;> rfl

/-! ## The sixth to eighth stretches: the inverse square root of the degree -/

/-- the degree with one in place of the entries that are not positive -/
theorem pre6_v24 : V6 m c main_v24 = val_main_v24 (F := Ideal) (m ((c.tc : Thread nD τ).loc main_arg1)) (m ((c.tc : Thread nD τ).loc main_arg2)) := by
  have h21 := pre5_v21 m c
  have h23 := pre5_v23 m c
  have hc := pre5_cst_5 m c
  show StableHlo.after hostOps0_5 (V5 m c) (Proc.devRef .tc main_v24) = _
  generalize V5 m c = W at h21 h23 hc ⊢
  have rb : StableHlo.after hostOps0_5 W (Proc.devRef .tc main_v24)
      = select (W (Proc.devRef .tc main_v23)) (W (Proc.devRef .tc main_v21))
          (broadcastInDim S100000 ![] bcast_S_S100000 (W (Proc.devRef .tc main_cst_5))) := by
    after_results_simp <;> rfl
  rw [rb, h21, h23, hc]
  rfl

/-- where the degree is positive, computed a second time -/
theorem pre7_v26 : V7 m c main_v26 = val_main_v26 (F := Ideal) (m ((c.tc : Thread nD τ).loc main_arg1)) (m ((c.tc : Thread nD τ).loc main_arg2)) := by
  have h21 : V6 m c main_v21 = val_main_v21 (F := Ideal) (m ((c.tc : Thread nD τ).loc main_arg1)) (m ((c.tc : Thread nD τ).loc main_arg2)) :=
    (V6_of m c main_v21 (by decide)).trans (pre5_v21 m c)
  show StableHlo.after hostOps0_6 (V6 m c) (Proc.devRef .tc main_v26) = _
  generalize V6 m c = W at h21 ⊢
  after_results_simp
  rw [h21]
  rfl

/-- the inverse square root -/
theorem pre7_v27 : V7 m c main_v27 = val_main_v27 (F := Ideal) (m ((c.tc : Thread nD τ).loc main_arg1)) (m ((c.tc : Thread nD τ).loc main_arg2)) := by
  have h24 := pre6_v24 m c
  show StableHlo.after hostOps0_6 (V6 m c) (Proc.devRef .tc main_v27) = _
  generalize V6 m c = W at h24 ⊢
  after_results_simp
  rw [h24]
  rfl

/-- the constant zero the inverse square root is replaced by where the degree is not positive -/
theorem pre7_cst_7 : V7 m c main_cst_7 = val_main_cst_7 (F := Ideal) := by
  show StableHlo.after hostOps0_6 (V6 m c) (Proc.devRef .tc main_cst_7) = _
  generalize V6 m c = W
  after_results_simp <;> rfl

/-- the inverse square root of the positive degrees, zero elsewhere -/
theorem pre8_v28 : V8 m c main_v28 = val_main_v28 (F := Ideal) (m ((c.tc : Thread nD τ).loc main_arg1)) (m ((c.tc : Thread nD τ).loc main_arg2)) := by
  have h26 := pre7_v26 m c
  have h27 := pre7_v27 m c
  have hc := pre7_cst_7 m c
  show StableHlo.after hostOps0_7 (V7 m c) (Proc.devRef .tc main_v28) = _
  generalize V7 m c = W at h26 h27 hc ⊢
  have rb : StableHlo.after hostOps0_7 W (Proc.devRef .tc main_v28)
      = select (W (Proc.devRef .tc main_v26)) (W (Proc.devRef .tc main_v27))
          (broadcastInDim S100000 ![] bcast_S_S100000 (W (Proc.devRef .tc main_cst_7))) := by
    after_results_simp <;> rfl
  rw [rb, h26, h27, hc]
  rfl

/-! ## The ninth stretch: the normalised edge weights -/

set_option maxHeartbeats 2000000 in
/-- the normalised edge weights, at the end of the prefix -/
theorem pre_v44 : V9 m c main_v44 = val_main_v44 (F := Ideal) (m ((c.tc : Thread nD τ).loc main_arg1)) (m ((c.tc : Thread nD τ).loc main_arg2)) := by
  have h16 := pre8_v16 m c
  have h17 := pre8_v17 m c
  have h18 : V8 m c main_v18 = val_main_v18 (F := Ideal) (m ((c.tc : Thread nD τ).loc main_arg1)) (m ((c.tc : Thread nD τ).loc main_arg2)) :=
    (V8_of m c main_v18 (by decide)).trans <| (V7_of m c main_v18 (by decide)).trans <|
      (V6_of m c main_v18 (by decide)).trans (pre5_v18 m c)
  have h28 := pre8_v28 m c
  show StableHlo.after hostOps0_8 (V8 m c) (Proc.devRef .tc main_v44) = _
  generalize V8 m c = W at h16 h17 h18 h28 ⊢
  after_results_simp
  rw [h16, h17, h18, h28]
  rfl

end Cert.KernelIdeal.ValBridge

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.ValRef.lean ====
/-
  The reference's three layers as the same whole-array functions.

  The reference computes a layer with a host product, the same edge aggregation, the bias vector broadcast first to
  a row and then down all rows, an addition, and a maximum against an array of zeros.  Its product is `mmOut` (the
  two dimension records list the same axes), its aggregation is `aggr` of the product (the same operations in the
  same order), and adding the twice-broadcast bias and clamping against a zero array is `brOut` against the bias
  reshaped to a row: at row p and column q both read bias entry q and the zero word.  So each layer's value in the
  reference is `layer` of the layer's input, weights and bias and the reference's edge list and edge weights.
-/
import proofs.«104296_j21801253994527_1_alg».proof.Proof.RefReadP
import proofs.«104296_j21801253994527_1_alg».proof.Proof.ValAggr
import proofs.«104296_j21801253994527_1_alg».proof.Proof.LibHostLayout
import Idealize.ShloMosaic.PureOps.Ideal
import Idealize.ShloMosaic.Lib.ValueIdx

noncomputable section

namespace Cert.KernelIdeal.ValBridge

open Cert.KernelIdeal Cert.KernelIdeal.Gen Idealize.ShloMosaic Idealize.SL.Sem
open Idealize.ShloMosaic.ValueIdx
open Cert.ReferenceIdeal.ReadP

/-- Adding a bias vector broadcast to a row and then down the rows, and clamping against an array of zeros, is the
    bias-and-clamp against the vector reshaped to a row. -/
theorem relu_bias (A : FVec Ideal S100000x128 .f32) (b : FVec Ideal S128 .f32)
    (h1 : S128.BroadcastsInDim S1x128 (![1] : Fin 1 → Fin 2))
    (h2 : S1x128.BroadcastsInDim S100000x128 (![0, 1] : Fin 2 → Fin 2))
    (h0 : S_.BroadcastsInDim S100000x128 (![] : Fin 0 → Fin 2))
    (hc : S128.ShapeCasts S1x128) :
    maximumf (addf A (broadcastInDim S100000x128 ![0, 1] h2 (broadcastInDim S1x128 ![1] h1 b)))
        (broadcastInDim S100000x128 ![] h0 (constant (F := Ideal) S_ .f32 0x00000000#32))
      = brOut A (shapeCast S1x128 b hc) := by
  funext i
  obtain ⟨p, q, rfl⟩ : ∃ (p : Fin 100000) (q : Fin 128), i = ix2 p q := ⟨i 0, i 1, eq_ix2 i⟩
  show FloatOps.maximumf (FloatOps.addf (A (ix2 p q))
        (broadcastInDim S100000x128 ![0, 1] h2 (broadcastInDim S1x128 ![1] h1 b) (ix2 p q)))
        (broadcastInDim S100000x128 ![] h0 (constant (F := Ideal) S_ .f32 0x00000000#32) (ix2 p q))
      = max (A (ix2 p q) + shapeCast S1x128 b hc (ix2 (0 : Fin 1) q)) (Scalar.ofBits (F := Ideal) .f32 0x00000000#32)
  rw [Cert.HostLayout.bcast_cols_apply, Cert.HostLayout.bcast_rowvec_apply, Cert.HostLayout.bcast_scalar_apply,
    Cert.HostLayout.reshape_rowvec_apply]
  rfl

variable (x1 : (⟨S2x1600000, .i32⟩ : BufTy).Contents (Elt Ideal)) (x2 : FVec Ideal S1600000 .f32)
  (x3 : FVec Ideal S100000x128 .f32) (x4 x5 x6 : FVec Ideal S128x128 .f32) (x7 x8 x9 : FVec Ideal S128 .f32)

/-- The reference's product is the product the layers are stated with. -/
theorem ref_mm (h : FVec Ideal S100000x128 .f32) (w : FVec Ideal S128x128 .f32) :
    (Host.dotGeneral (F := Ideal) Cert.ReferenceIdeal.dot_S100000x128_S128x128_S100000x128_1_0_0_1_n_n none h w
      : FVec Ideal S100000x128 .f32) = mmOut h w := rfl

/-! ## Layer 1 -/

theorem ref_aggr1 :
    val_main_v58 (F := Ideal) x1 x2 x3 x4
      = aggr (val_main_v45 (F := Ideal) x3 x4) (val_main_v16 (F := Ideal) x1) (val_main_v17 (F := Ideal) x1)
          (val_main_v44 (F := Ideal) x1 x2) := by
  unfold val_main_v58 val_main_v57 val_main_v56 val_main_cst_14 val_main_v55 val_main_v54 val_main_v53 val_main_v52
    val_main_v51 val_main_v50 val_main_v49 val_main_c_13 val_main_v48 val_main_v47 val_main_c_12 val_main_v46
  generalize val_main_v45 (F := Ideal) x3 x4 = y
  generalize val_main_v16 (F := Ideal) x1 = row
  generalize val_main_v17 (F := Ideal) x1 = col
  generalize val_main_v44 (F := Ideal) x1 x2 = nrm
  rfl

theorem ref_layer1 :
    val_main_v62 (F := Ideal) x1 x2 x3 x4 x7
      = layer x3 x4 x7 (val_main_v16 (F := Ideal) x1) (val_main_v17 (F := Ideal) x1) (val_main_v44 (F := Ideal) x1 x2) := by
  unfold val_main_v62 val_main_v61 val_main_v60 val_main_v59 val_main_call4_v0 val_main_call4_cst
  rw [relu_bias _ x7 _ _ _ shapeCasts_S128_S1x128, ref_aggr1]
  unfold val_main_v45 layer
  rw [ref_mm]

/-! ## Layer 2 -/

theorem ref_aggr2 :
    val_main_v76 (F := Ideal) x1 x2 x3 x4 x5 x7
      = aggr (val_main_v63 (F := Ideal) x1 x2 x3 x4 x5 x7) (val_main_v16 (F := Ideal) x1) (val_main_v17 (F := Ideal) x1)
          (val_main_v44 (F := Ideal) x1 x2) := by
  unfold val_main_v76 val_main_v75 val_main_v74 val_main_cst_17 val_main_v73 val_main_v72 val_main_v71 val_main_v70
    val_main_v69 val_main_v68 val_main_v67 val_main_c_16 val_main_v66 val_main_v65 val_main_c_15 val_main_v64
  generalize val_main_v63 (F := Ideal) x1 x2 x3 x4 x5 x7 = y
  generalize val_main_v16 (F := Ideal) x1 = row
  generalize val_main_v17 (F := Ideal) x1 = col
  generalize val_main_v44 (F := Ideal) x1 x2 = nrm
  rfl

theorem ref_layer2 :
    val_main_v80 (F := Ideal) x1 x2 x3 x4 x5 x7 x8
      = layer (val_main_v62 (F := Ideal) x1 x2 x3 x4 x7) x5 x8 (val_main_v16 (F := Ideal) x1)
          (val_main_v17 (F := Ideal) x1) (val_main_v44 (F := Ideal) x1 x2) := by
  unfold val_main_v80 val_main_v79 val_main_v78 val_main_v77 val_main_call5_v0 val_main_call5_cst
  rw [relu_bias _ x8 _ _ _ shapeCasts_S128_S1x128, ref_aggr2]
  unfold val_main_v63 layer
  rw [ref_mm]

/-! ## Layer 3 -/

theorem ref_aggr3 :
    val_main_v94 (F := Ideal) x1 x2 x3 x4 x5 x6 x7 x8
      = aggr (val_main_v81 (F := Ideal) x1 x2 x3 x4 x5 x6 x7 x8) (val_main_v16 (F := Ideal) x1)
          (val_main_v17 (F := Ideal) x1) (val_main_v44 (F := Ideal) x1 x2) := by
  unfold val_main_v94 val_main_v93 val_main_v92 val_main_cst_20 val_main_v91 val_main_v90 val_main_v89 val_main_v88
    val_main_v87 val_main_v86 val_main_v85 val_main_c_19 val_main_v84 val_main_v83 val_main_c_18 val_main_v82
  generalize val_main_v81 (F := Ideal) x1 x2 x3 x4 x5 x6 x7 x8 = y
  generalize val_main_v16 (F := Ideal) x1 = row
  generalize val_main_v17 (F := Ideal) x1 = col
  generalize val_main_v44 (F := Ideal) x1 x2 = nrm
  rfl

theorem ref_layer3 :
    val_main_v98 (F := Ideal) x1 x2 x3 x4 x5 x6 x7 x8 x9
      = layer (val_main_v80 (F := Ideal) x1 x2 x3 x4 x5 x7 x8) x6 x9 (val_main_v16 (F := Ideal) x1)
          (val_main_v17 (F := Ideal) x1) (val_main_v44 (F := Ideal) x1 x2) := by
  unfold val_main_v98 val_main_v97 val_main_v96 val_main_v95 val_main_call6_v0 val_main_call6_cst
  rw [relu_bias _ x9 _ _ _ shapeCasts_S128_S1x128, ref_aggr3]
  unfold val_main_v81 layer
  rw [ref_mm]

end Cert.KernelIdeal.ValBridge

end
-- ==== Proof.ValBridge.lean ====
/-
  The kernel's result is the reference's.

  Given what the six kernel regions leave in their output arrays — each product region the product of the two arrays
  it reads, each bias region the bias-and-clamp of the two arrays it reads — the result buffer at the end of the main
  program holds the reference's result as a function of the nine argument arrays.  Layer by layer: the layer's output
  buffer holds `layer` of the layer's input, weights and bias and the prefix's edge list and edge weights; the prefix's
  values are the reference's; the reference's layer is the same `layer` of the same arrays; and the previous layer's
  output, already identified, is the next layer's input.  The last host operation lays the input features and the
  three outputs side by side in both programs.
-/
import proofs.«104296_j21801253994527_1_alg».proof.Proof.ValKernel
import proofs.«104296_j21801253994527_1_alg».proof.Proof.ValPrefix
import proofs.«104296_j21801253994527_1_alg».proof.Proof.ValRef

noncomputable section

namespace Cert.KernelIdeal.ValBridge

open Cert.KernelIdeal Cert.KernelIdeal.Gen Idealize.ShloMosaic Idealize.ShloMosaic.TcCoe Idealize.SL.Sem

theorem value_bridge (m : (ℓ : Loc nD τ sig) → Buf (Elt Ideal) ℓ) (outs : Gen.Outs (F := Ideal)) (c : Dev nD)
    (h47 : outs 10 main_v47 c = mmOut (V9 m c main_v45) (V9 m c main_v46))
    (h62 : outs 12 main_v62 c = brOut (V11 m outs c main_v60) (V11 m outs c main_v61))
    (h65 : outs 14 main_v65 c = mmOut (V13 m outs c main_v63) (V13 m outs c main_v64))
    (h80 : outs 16 main_v80 c = brOut (V15 m outs c main_v78) (V15 m outs c main_v79))
    (h83 : outs 18 main_v83 c = mmOut (V17 m outs c main_v81) (V17 m outs c main_v82))
    (h98 : outs 20 main_v98 c = brOut (V19 m outs c main_v96) (V19 m outs c main_v97)) :
    V21 m outs c main_v99 = Cert.ReferenceIdeal.ReadP.val_main_v99 (F := Ideal)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  have e62 : V12 m outs c main_v62 = Cert.ReferenceIdeal.ReadP.val_main_v62 (F := Ideal)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg7)) := by
    rw [layer1 m outs c h47 h62, pre_v16, pre_v17, pre_v44]
    exact (ref_layer1 _ _ _ _ _).symm
  have e80 : V16 m outs c main_v80 = Cert.ReferenceIdeal.ReadP.val_main_v80 (F := Ideal)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7)) (m ((c.tc : Thread nD τ).loc main_arg8)) := by
    rw [layer2 m outs c h65 h80, e62, pre_v16, pre_v17, pre_v44]
    exact (ref_layer2 _ _ _ _ _ _ _).symm
  have e98 : V20 m outs c main_v98 = Cert.ReferenceIdeal.ReadP.val_main_v98 (F := Ideal)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
    rw [layer3 m outs c h83 h98, e80, pre_v16, pre_v17, pre_v44]
    exact (ref_layer3 _ _ _ _ _ _ _ _ _).symm
  rw [V21_v99, V20_arg3, V20_v62, V20_v80, e62, e80, e98]
  rfl

end Cert.KernelIdeal.ValBridge

end
-- ==== Proof.KIValue.lean ====
/-
  The kernel program's run with its result read back, at the ideal instance.  Each region leaves in its output array
  the whole-array product, or bias-and-clamp, of the arrays it found (the six facts below, from the regions' blocks);
  along the chain of buffer contents these compose, with the host operations between the regions, to the reference's
  last stage function of the argument arrays.  So: every weakly fair execution of the kernel program terminates, its
  result array at that function of the arguments, the arguments unchanged.
-/
import proofs.«104296_j21801253994527_1_alg».proof.Proof.KIRunAll
import proofs.«104296_j21801253994527_1_alg».proof.Proof.KIVal0
import proofs.«104296_j21801253994527_1_alg».proof.Proof.KIVal1
import proofs.«104296_j21801253994527_1_alg».proof.Proof.KIVal2
import proofs.«104296_j21801253994527_1_alg».proof.Proof.KIVal3
import proofs.«104296_j21801253994527_1_alg».proof.Proof.KIVal4
import proofs.«104296_j21801253994527_1_alg».proof.Proof.KIVal5
import proofs.«104296_j21801253994527_1_alg».proof.Proof.ValBridge

set_option maxRecDepth 16384

noncomputable section

namespace Cert.KernelIdeal.Reg

open Cert.KernelIdeal Cert.KernelIdeal.Gen Cert.KernelIdeal.ValBridge
open Idealize.ShloMosaic Idealize.ShloMosaic.TcCoe Idealize.SL.Sem

section Facts
variable (m : (ℓ : Loc nD τ sig) → Buf (Elt Ideal) ℓ) (c : Dev nD)

/-- What region 0 leaves in `main_v47`. -/
theorem h47 : outs m 10 main_v47 c = mmOut (V9 m c main_v45) (V9 m c main_v46) := by
  rw [outs_47]; exact final0 (E9 m) c
/-- What region 1 leaves in `main_v62`. -/
theorem h62 : outs m 12 main_v62 c = brOut (V11 m (outs m) c main_v60) (V11 m (outs m) c main_v61) := by
  rw [outs_62, VX11]; exact final1 (E11 m) c
/-- What region 2 leaves in `main_v65`. -/
theorem h65 : outs m 14 main_v65 c = mmOut (V13 m (outs m) c main_v63) (V13 m (outs m) c main_v64) := by
  rw [outs_65, VX13]; exact final2 (E13 m) c
/-- What region 3 leaves in `main_v80`. -/
theorem h80 : outs m 16 main_v80 c = brOut (V15 m (outs m) c main_v78) (V15 m (outs m) c main_v79) := by
  rw [outs_80, VX15]; exact final3 (E15 m) c
/-- What region 4 leaves in `main_v83`. -/
theorem h83 : outs m 18 main_v83 c = mmOut (V17 m (outs m) c main_v81) (V17 m (outs m) c main_v82) := by
  rw [outs_83, VX17]; exact final4 (E17 m) c
/-- What region 5 leaves in `main_v98`. -/
theorem h98 : outs m 20 main_v98 c = brOut (V19 m (outs m) c main_v96) (V19 m (outs m) c main_v97) := by
  rw [outs_98, VX19]; exact final5 (E19 m) c

end Facts

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE KERNEL PROGRAM'S RUN at the ideal instance: the result array at the reference's last stage function of the
    argument arrays, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v99) = Cert.ReferenceIdeal.ReadP.val_main_v99 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v99 (by decide))).trans
        (value_bridge m (outs m) c (h47 m c) (h62 m c) (h65 m c) (h80 m c) (h83 m c) (h98 m c)),
      (h c _ (mem_uc main_arg0 (by decide))).trans (V21_main_arg0 m (outs m) c),
      (h c _ (mem_uc main_arg1 (by decide))).trans (V21_main_arg1 m (outs m) c),
      (h c _ (mem_uc main_arg2 (by decide))).trans (V21_main_arg2 m (outs m) c),
      (h c _ (mem_uc main_arg3 (by decide))).trans (V21_main_arg3 m (outs m) c),
      (h c _ (mem_uc main_arg4 (by decide))).trans (V21_main_arg4 m (outs m) c),
      (h c _ (mem_uc main_arg5 (by decide))).trans (V21_main_arg5 m (outs m) c),
      (h c _ (mem_uc main_arg6 (by decide))).trans (V21_main_arg6 m (outs m) c),
      (h c _ (mem_uc main_arg7 (by decide))).trans (V21_main_arg7 m (outs m) c),
      (h c _ (mem_uc main_arg8 (by decide))).trans (V21_main_arg8 m (outs m) c),
      (h c _ (mem_uc main_arg9 (by decide))).trans (V21_main_arg9 m (outs m) c)⟩)
    (run_all m ρ)

end Cert.KernelIdeal.Reg

end
-- ==== Proof.RefOps.lean ====
/-
  The reference's 134 host operations cut where the computation has its joints: the graph-norm prefix in three parts,
  the three layers, the final concatenation.  Running the whole list is running the pieces one after the other.
-/
import proofs.«104296_j21801253994527_1_alg».proof.Proof.RefRunP
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a list of operations cut in two is running the first part, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The graph-norm prefix, first part (the row and column indices, the edge weights without self loops, the self-loop weights): operations 1–26. -/
abbrev opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_v1 main_v3 main_v4 (cmpi .eq : (⟨S1600000, .i32⟩ : BufTy).Contents (Elt F) → (⟨S1600000, .i32⟩ : BufTy).Contents (Elt F) → (⟨S1600000, .i1⟩ : BufTy).Contents (Elt F)),
    nullary main_c (constantI S_ 32 100000#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1600000, .i32⟩) main_call0_v1) (broadcastInDim S1600000 ![] bcast_S_S1600000),
    TRef.ternary (TRef.of (T := ⟨S1600000, .i1⟩) main_v4) (TRef.of (T := ⟨S1600000, .i32⟩) main_v1) (TRef.of (T := ⟨S1600000, .i32⟩) main_call0_v1) (TRef.of (T := ⟨S1600000, .i32⟩) main_v5) select,
    nullary main_cst (constant S_ .f32 0x3F800000#32),
    unary main_cst main_v6 (broadcastInDim S100000 ![] bcast_S_S100000 : (⟨S_, .f32⟩ : BufTy).Contents (Elt F) → (⟨S100000, .f32⟩ : BufTy).Contents (Elt F)),
    nullary main_c_0 (constantI S_ 32 0#32),
    unary main_c_0 main_v7 (broadcastInDim S1600000 ![] bcast_S_S1600000 : (⟨S_, .i32⟩ : BufTy).Contents (Elt F) → (⟨S1600000, .i32⟩ : BufTy).Contents (Elt F)),
    binary main_v5 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v9 (broadcastInDim S1600000 ![] bcast_S_S1600000 : (⟨S_, .i32⟩ : BufTy).Contents (Elt F) → (⟨S1600000, .i32⟩ : BufTy).Contents (Elt F)),
    binary main_v5 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_v5 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    ternary main_v6 main_v12 main_arg2 main_v13 ((fun x i u => Host.scatter scatter_S100000_S1600000x1_S1600000_n_0_0_1 (fun _ b => b) x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S1600000, .f32⟩) main_call1_v0) (broadcastInDim S1600000 ![] bcast_S_S1600000),
    TRef.ternary (TRef.of (T := ⟨S1600000, .i1⟩) main_v4) (TRef.of (T := ⟨S1600000, .f32⟩) main_call1_v0) (TRef.of (T := ⟨S1600000, .f32⟩) main_arg2) (TRef.of (T := ⟨S1600000, .f32⟩) main_v14) select,
    nullary main_v15 (iotaInDim S100000 32 0),
    binary main_v1 main_v15 main_v16 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v15 main_v17 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The graph-norm prefix, first part continued (all edge weights in one array, the degrees): operations 27–31. -/
abbrev opsA1b : List (HloOp τ sig (Elt F)) :=
  [ binary main_v14 main_v13 main_v18 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_3 (constant S_ .f32 0x00000000#32),
    unary main_cst_3 main_v19 (broadcastInDim S100000 ![] bcast_S_S100000 : (⟨S_, .f32⟩ : BufTy).Contents (Elt F) → (⟨S100000, .f32⟩ : BufTy).Contents (Elt F)),
    unary main_v17 main_v20 (broadcastInDim S1700000x1 ![0] bcast_S1700000_S1700000x1_0 : (⟨S1700000, .i32⟩ : BufTy).Contents (Elt F) → (⟨S1700000x1, .i32⟩ : BufTy).Contents (Elt F)),
    ternary main_v19 main_v20 main_v18 main_v21 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]
/-- The graph-norm prefix, second part (the inverse square roots of the degrees): operations 32–44. -/
abbrev opsA2 : List (HloOp τ sig (Elt F)) :=
  [ nullary main_cst_4 (constant S_ .f32 0x00000000#32),
    unary main_cst_4 main_v22 (broadcastInDim S100000 ![] bcast_S_S100000 : (⟨S_, .f32⟩ : BufTy).Contents (Elt F) → (⟨S100000, .f32⟩ : BufTy).Contents (Elt F)),
    binary main_v21 main_v22 main_v23 (cmpf .ogt : (⟨S100000, .f32⟩ : BufTy).Contents (Elt F) → (⟨S100000, .f32⟩ : BufTy).Contents (Elt F) → (⟨S100000, .i1⟩ : BufTy).Contents (Elt F)),
    nullary main_cst_5 (constant S_ .f32 0x3F800000#32),
    TRef.unary (TRef.of (T := ⟨S_, .f32⟩) main_cst_5) (TRef.of (T := ⟨S100000, .f32⟩) main_call2_v0) (broadcastInDim S100000 ![] bcast_S_S100000),
    TRef.ternary (TRef.of (T := ⟨S100000, .i1⟩) main_v23) (TRef.of (T := ⟨S100000, .f32⟩) main_v21) (TRef.of (T := ⟨S100000, .f32⟩) main_call2_v0) (TRef.of (T := ⟨S100000, .f32⟩) main_v24) select,
    nullary main_cst_6 (constant S_ .f32 0x00000000#32),
    unary main_cst_6 main_v25 (broadcastInDim S100000 ![] bcast_S_S100000 : (⟨S_, .f32⟩ : BufTy).Contents (Elt F) → (⟨S100000, .f32⟩ : BufTy).Contents (Elt F)),
    binary main_v21 main_v25 main_v26 (cmpf .ogt : (⟨S100000, .f32⟩ : BufTy).Contents (Elt F) → (⟨S100000, .f32⟩ : BufTy).Contents (Elt F) → (⟨S100000, .i1⟩ : BufTy).Contents (Elt F)),
    unary main_v24 main_v27 (Host.rsqrt : (⟨S100000, .f32⟩ : BufTy).Contents (Elt F) → (⟨S100000, .f32⟩ : BufTy).Contents (Elt F)),
    nullary main_cst_7 (constant S_ .f32 0x00000000#32),
    TRef.unary (TRef.of (T := ⟨S_, .f32⟩) main_cst_7) (TRef.of (T := ⟨S100000, .f32⟩) main_call3_v0) (broadcastInDim S100000 ![] bcast_S_S100000),
    TRef.ternary (TRef.of (T := ⟨S100000, .i1⟩) main_v26) (TRef.of (T := ⟨S100000, .f32⟩) main_v27) (TRef.of (T := ⟨S100000, .f32⟩) main_call3_v0) (TRef.of (T := ⟨S100000, .f32⟩) main_v28) select ]
/-- The graph-norm prefix, third part (the two gathers and the edge norm): operations 45–64. -/
abbrev opsA3 : List (HloOp τ sig (Elt F)) :=
  [ nullary main_c_8 (constantI S_ 32 0#32),
    unary main_c_8 main_v29 (broadcastInDim S1700000 ![] bcast_S_S1700000 : (⟨S_, .i32⟩ : BufTy).Contents (Elt F) → (⟨S1700000, .i32⟩ : BufTy).Contents (Elt F)),
    binary main_v16 main_v29 main_v30 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v31 (broadcastInDim S1700000 ![] bcast_S_S1700000 : (⟨S_, .i32⟩ : BufTy).Contents (Elt F) → (⟨S1700000, .i32⟩ : BufTy).Contents (Elt F)),
    binary main_v16 main_v31 main_v32 (addi : (⟨S1700000, .i32⟩ : BufTy).Contents (Elt F) → (⟨S1700000, .i32⟩ : BufTy).Contents (Elt F) → (⟨S1700000, .i32⟩ : BufTy).Contents (Elt F)),
    ternary main_v30 main_v32 main_v16 main_v33 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v33 main_v34 (broadcastInDim S1700000x1 ![0] bcast_S1700000_S1700000x1_0 : (⟨S1700000, .i32⟩ : BufTy).Contents (Elt F) → (⟨S1700000x1, .i32⟩ : BufTy).Contents (Elt F)),
    binary main_v28 main_v34 main_v35 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v35 main_v18 main_v36 (mulf : (⟨S1700000, .f32⟩ : BufTy).Contents (Elt F) → (⟨S1700000, .f32⟩ : BufTy).Contents (Elt F) → (⟨S1700000, .f32⟩ : BufTy).Contents (Elt F)),
    nullary main_c_10 (constantI S_ 32 0#32),
    unary main_c_10 main_v37 (broadcastInDim S1700000 ![] bcast_S_S1700000 : (⟨S_, .i32⟩ : BufTy).Contents (Elt F) → (⟨S1700000, .i32⟩ : BufTy).Contents (Elt F)),
    binary main_v17 main_v37 main_v38 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v39 (broadcastInDim S1700000 ![] bcast_S_S1700000 : (⟨S_, .i32⟩ : BufTy).Contents (Elt F) → (⟨S1700000, .i32⟩ : BufTy).Contents (Elt F)),
    binary main_v17 main_v39 main_v40 (addi : (⟨S1700000, .i32⟩ : BufTy).Contents (Elt F) → (⟨S1700000, .i32⟩ : BufTy).Contents (Elt F) → (⟨S1700000, .i32⟩ : BufTy).Contents (Elt F)),
    ternary main_v38 main_v40 main_v17 main_v41 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v41 main_v42 (broadcastInDim S1700000x1 ![0] bcast_S1700000_S1700000x1_0 : (⟨S1700000, .i32⟩ : BufTy).Contents (Elt F) → (⟨S1700000x1, .i32⟩ : BufTy).Contents (Elt F)),
    binary main_v28 main_v42 main_v43 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v36 main_v43 main_v44 (mulf : (⟨S1700000, .f32⟩ : BufTy).Contents (Elt F) → (⟨S1700000, .f32⟩ : BufTy).Contents (Elt F) → (⟨S1700000, .f32⟩ : BufTy).Contents (Elt F)) ]
/-- Layer 1: operations 65–87. -/
abbrev opsB : List (HloOp τ sig (Elt F)) :=
  [ binary main_arg3 main_arg4 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v44 main_v46 (broadcastInDim S1700000x1 ![0] bcast_S1700000_S1700000x1_0 : (⟨S1700000, .f32⟩ : BufTy).Contents (Elt F) → (⟨S1700000x1, .f32⟩ : BufTy).Contents (Elt F)),
    nullary main_c_12 (constantI S_ 32 0#32),
    unary main_c_12 main_v47 (broadcastInDim S1700000 ![] bcast_S_S1700000 : (⟨S_, .i32⟩ : BufTy).Contents (Elt F) → (⟨S1700000, .i32⟩ : BufTy).Contents (Elt F)),
    binary main_v16 main_v47 main_v48 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v49 (broadcastInDim S1700000 ![] bcast_S_S1700000 : (⟨S_, .i32⟩ : BufTy).Contents (Elt F) → (⟨S1700000, .i32⟩ : BufTy).Contents (Elt F)),
    binary main_v16 main_v49 main_v50 (addi : (⟨S1700000, .i32⟩ : BufTy).Contents (Elt F) → (⟨S1700000, .i32⟩ : BufTy).Contents (Elt F) → (⟨S1700000, .i32⟩ : BufTy).Contents (Elt F)),
    ternary main_v48 main_v50 main_v16 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v51 main_v52 (broadcastInDim S1700000x1 ![0] bcast_S1700000_S1700000x1_0 : (⟨S1700000, .i32⟩ : BufTy).Contents (Elt F) → (⟨S1700000x1, .i32⟩ : BufTy).Contents (Elt F)),
    binary main_v45 main_v52 main_v53 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v46 main_v54 (broadcastInDim S1700000x128 ![0, 1] bcast_S1700000x1_S1700000x128_0_1 : (⟨S1700000x1, .f32⟩ : BufTy).Contents (Elt F) → (⟨S1700000x128, .f32⟩ : BufTy).Contents (Elt F)),
    binary main_v54 main_v53 main_v55 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v56 (broadcastInDim S100000x128 ![] bcast_S_S100000x128 : (⟨S_, .f32⟩ : BufTy).Contents (Elt F) → (⟨S100000x128, .f32⟩ : BufTy).Contents (Elt F)),
    unary main_v17 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v61) (TRef.of (T := ⟨S100000x128, .f32⟩) main_call4_v0) (TRef.of (T := ⟨S100000x128, .f32⟩) main_v62) maximumf ]
/-- Layer 2: operations 88–110. -/
abbrev opsC : List (HloOp τ sig (Elt F)) :=
  [ binary main_v62 main_arg5 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v44 main_v64 (broadcastInDim S1700000x1 ![0] bcast_S1700000_S1700000x1_0 : (⟨S1700000, .f32⟩ : BufTy).Contents (Elt F) → (⟨S1700000x1, .f32⟩ : BufTy).Contents (Elt F)),
    nullary main_c_15 (constantI S_ 32 0#32),
    unary main_c_15 main_v65 (broadcastInDim S1700000 ![] bcast_S_S1700000 : (⟨S_, .i32⟩ : BufTy).Contents (Elt F) → (⟨S1700000, .i32⟩ : BufTy).Contents (Elt F)),
    binary main_v16 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v67 (broadcastInDim S1700000 ![] bcast_S_S1700000 : (⟨S_, .i32⟩ : BufTy).Contents (Elt F) → (⟨S1700000, .i32⟩ : BufTy).Contents (Elt F)),
    binary main_v16 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v16 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v63 main_v70 main_v71 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v64 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v71 main_v73 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v74 (broadcastInDim S100000x128 ![] bcast_S_S100000x128 : (⟨S_, .f32⟩ : BufTy).Contents (Elt F) → (⟨S100000x128, .f32⟩ : BufTy).Contents (Elt F)),
    unary main_v17 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v79) (TRef.of (T := ⟨S100000x128, .f32⟩) main_call5_v0) (TRef.of (T := ⟨S100000x128, .f32⟩) main_v80) maximumf ]
/-- Layer 3: operations 111–133. -/
abbrev opsD : List (HloOp τ sig (Elt F)) :=
  [ binary main_v80 main_arg6 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v44 main_v82 (broadcastInDim S1700000x1 ![0] bcast_S1700000_S1700000x1_0 : (⟨S1700000, .f32⟩ : BufTy).Contents (Elt F) → (⟨S1700000x1, .f32⟩ : BufTy).Contents (Elt F)),
    nullary main_c_18 (constantI S_ 32 0#32),
    unary main_c_18 main_v83 (broadcastInDim S1700000 ![] bcast_S_S1700000 : (⟨S_, .i32⟩ : BufTy).Contents (Elt F) → (⟨S1700000, .i32⟩ : BufTy).Contents (Elt F)),
    binary main_v16 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v85 (broadcastInDim S1700000 ![] bcast_S_S1700000 : (⟨S_, .i32⟩ : BufTy).Contents (Elt F) → (⟨S1700000, .i32⟩ : BufTy).Contents (Elt F)),
    binary main_v16 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v16 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v81 main_v88 main_v89 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v82 main_v90 (broadcastInDim S1700000x128 ![0, 1] bcast_S1700000x1_S1700000x128_0_1 : (⟨S1700000x1, .f32⟩ : BufTy).Contents (Elt F) → (⟨S1700000x128, .f32⟩ : BufTy).Contents (Elt F)),
    binary main_v90 main_v89 main_v91 (mulf : (⟨S1700000x128, .f32⟩ : BufTy).Contents (Elt F) → (⟨S1700000x128, .f32⟩ : BufTy).Contents (Elt F) → (⟨S1700000x128, .f32⟩ : BufTy).Contents (Elt F)),
    nullary main_cst_20 (constant S_ .f32 0x00000000#32),
    unary main_cst_20 main_v92 (broadcastInDim S100000x128 ![] bcast_S_S100000x128 : (⟨S_, .f32⟩ : BufTy).Contents (Elt F) → (⟨S100000x128, .f32⟩ : BufTy).Contents (Elt F)),
    unary main_v17 main_v93 (broadcastInDim S1700000x1 ![0] bcast_S1700000_S1700000x1_0 : (⟨S1700000, .i32⟩ : BufTy).Contents (Elt F) → (⟨S1700000x1, .i32⟩ : BufTy).Contents (Elt F)),
    ternary main_v92 main_v93 main_v91 main_v94 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg9 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v97) (TRef.of (T := ⟨S100000x128, .f32⟩) main_call6_v0) (TRef.of (T := ⟨S100000x128, .f32⟩) main_v98) maximumf ]
/-- The final concatenation: operation 134. -/
abbrev opsE : List (HloOp τ sig (Elt F)) :=
  [ nary ![main_arg3, main_v62, main_v80, main_v98] main_v99 (fun u => concatenate S100000x512 1 [⟨S100000x128, u 0⟩, ⟨S100000x128, u 1⟩, ⟨S100000x128, u 2⟩, ⟨S100000x128, u 3⟩] concatenates_S100000x128_S100000x128_S100000x128_S100000x128_S100000x512_d1) ]

theorem ops_split : (ops : List (HloOp τ sig (Elt F))) = opsA1 ++ (opsA1b ++ (opsA2 ++ (opsA3 ++ (opsB ++ (opsC ++ (opsD ++ opsE)))))) := rfl

end Cert.ReferenceIdeal.RefRun

end
-- ==== Proof.RefStA1.lean ====
/-
  One piece of the reference's run read back over an ARBITRARY valuation of the buffers: The graph-norm prefix, first part (the row and column indices, the edge weights with self loops, the degrees): operations 1–26.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem A1_v13 : after opsA1 W main_v13 = val_main_v13 (F := F) (W main_arg1) (W main_arg2) := by after_results_simp <;> rfl
theorem A1_v14 : after opsA1 W main_v14 = val_main_v14 (F := F) (W main_arg1) (W main_arg2) := by after_results_simp <;> rfl
theorem A1_v16 : after opsA1 W main_v16 = val_main_v16 (F := F) (W main_arg1) := by after_results_simp <;> rfl
theorem A1_v17 : after opsA1 W main_v17 = val_main_v17 (F := F) (W main_arg1) := by after_results_simp <;> rfl
theorem A1_keep_main_arg0 : after opsA1 W main_arg0 = W main_arg0 := by after_results_simp <;> rfl
theorem A1_keep_main_arg1 : after opsA1 W main_arg1 = W main_arg1 := by after_results_simp <;> rfl
theorem A1_keep_main_arg2 : after opsA1 W main_arg2 = W main_arg2 := by after_results_simp <;> rfl
theorem A1_keep_main_arg3 : after opsA1 W main_arg3 = W main_arg3 := by after_results_simp <;> rfl
theorem A1_keep_main_arg4 : after opsA1 W main_arg4 = W main_arg4 := by after_results_simp <;> rfl
theorem A1_keep_main_arg5 : after opsA1 W main_arg5 = W main_arg5 := by after_results_simp <;> rfl
theorem A1_keep_main_arg6 : after opsA1 W main_arg6 = W main_arg6 := by after_results_simp <;> rfl
theorem A1_keep_main_arg7 : after opsA1 W main_arg7 = W main_arg7 := by after_results_simp <;> rfl
theorem A1_keep_main_arg8 : after opsA1 W main_arg8 = W main_arg8 := by after_results_simp <;> rfl
theorem A1_keep_main_arg9 : after opsA1 W main_arg9 = W main_arg9 := by after_results_simp <;> rfl

end Cert.ReferenceIdeal.RefRun

end
-- ==== Proof.RefStA1b.lean ====
/-
  One piece of the reference's run read back over an ARBITRARY valuation of the buffers: The graph-norm prefix, first part continued (all edge weights in one array, the degrees): operations 27–31.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem A1b_v18 (x1 : (⟨S2x1600000, .i32⟩ : BufTy).Contents (Elt F)) (x2 : (⟨S1600000, .f32⟩ : BufTy).Contents (Elt F)) (h13 : W main_v13 = val_main_v13 (F := F) x1 x2) (h14 : W main_v14 = val_main_v14 (F := F) x1 x2) :
    after opsA1b W main_v18 = val_main_v18 (F := F) x1 x2 := by
  after_results_simp
  rw [h13, h14]
  rfl
theorem A1b_v21 (x1 : (⟨S2x1600000, .i32⟩ : BufTy).Contents (Elt F)) (x2 : (⟨S1600000, .f32⟩ : BufTy).Contents (Elt F)) (h13 : W main_v13 = val_main_v13 (F := F) x1 x2) (h14 : W main_v14 = val_main_v14 (F := F) x1 x2)
    (h17 : W main_v17 = val_main_v17 (F := F) x1) :
    after opsA1b W main_v21 = val_main_v21 (F := F) x1 x2 := by
  after_results_simp
  rw [h13, h14, h17]
  rfl
theorem A1b_keep_main_arg0 : after opsA1b W main_arg0 = W main_arg0 := by after_results_simp <;> rfl
theorem A1b_keep_main_arg1 : after opsA1b W main_arg1 = W main_arg1 := by after_results_simp <;> rfl
theorem A1b_keep_main_arg2 : after opsA1b W main_arg2 = W main_arg2 := by after_results_simp <;> rfl
theorem A1b_keep_main_arg3 : after opsA1b W main_arg3 = W main_arg3 := by after_results_simp <;> rfl
theorem A1b_keep_main_arg4 : after opsA1b W main_arg4 = W main_arg4 := by after_results_simp <;> rfl
theorem A1b_keep_main_arg5 : after opsA1b W main_arg5 = W main_arg5 := by after_results_simp <;> rfl
theorem A1b_keep_main_arg6 : after opsA1b W main_arg6 = W main_arg6 := by after_results_simp <;> rfl
theorem A1b_keep_main_arg7 : after opsA1b W main_arg7 = W main_arg7 := by after_results_simp <;> rfl
theorem A1b_keep_main_arg8 : after opsA1b W main_arg8 = W main_arg8 := by after_results_simp <;> rfl
theorem A1b_keep_main_arg9 : after opsA1b W main_arg9 = W main_arg9 := by after_results_simp <;> rfl
theorem A1b_keep_main_v16 : after opsA1b W main_v16 = W main_v16 := by after_results_simp <;> rfl
theorem A1b_keep_main_v17 : after opsA1b W main_v17 = W main_v17 := by after_results_simp <;> rfl

end Cert.ReferenceIdeal.RefRun

end
-- ==== Proof.RefStA2.lean ====
/-
  One piece of the reference's run read back over an ARBITRARY valuation of the buffers: The graph-norm prefix, second part (the inverse square roots of the degrees): operations 32–44.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem A2_v28 (x1 : (⟨S2x1600000, .i32⟩ : BufTy).Contents (Elt F)) (x2 : (⟨S1600000, .f32⟩ : BufTy).Contents (Elt F)) (h21 : W main_v21 = val_main_v21 (F := F) x1 x2) :
    after opsA2 W main_v28 = val_main_v28 (F := F) x1 x2 := by
  after_results_simp
  rw [h21]
  rfl
theorem A2_keep_main_arg0 : after opsA2 W main_arg0 = W main_arg0 := by after_results_simp <;> rfl
theorem A2_keep_main_arg1 : after opsA2 W main_arg1 = W main_arg1 := by after_results_simp <;> rfl
theorem A2_keep_main_arg2 : after opsA2 W main_arg2 = W main_arg2 := by after_results_simp <;> rfl
theorem A2_keep_main_arg3 : after opsA2 W main_arg3 = W main_arg3 := by after_results_simp <;> rfl
theorem A2_keep_main_arg4 : after opsA2 W main_arg4 = W main_arg4 := by after_results_simp <;> rfl
theorem A2_keep_main_arg5 : after opsA2 W main_arg5 = W main_arg5 := by after_results_simp <;> rfl
theorem A2_keep_main_arg6 : after opsA2 W main_arg6 = W main_arg6 := by after_results_simp <;> rfl
theorem A2_keep_main_arg7 : after opsA2 W main_arg7 = W main_arg7 := by after_results_simp <;> rfl
theorem A2_keep_main_arg8 : after opsA2 W main_arg8 = W main_arg8 := by after_results_simp <;> rfl
theorem A2_keep_main_arg9 : after opsA2 W main_arg9 = W main_arg9 := by after_results_simp <;> rfl
theorem A2_keep_main_v16 : after opsA2 W main_v16 = W main_v16 := by after_results_simp <;> rfl
theorem A2_keep_main_v17 : after opsA2 W main_v17 = W main_v17 := by after_results_simp <;> rfl
theorem A2_keep_main_v18 : after opsA2 W main_v18 = W main_v18 := by after_results_simp <;> rfl

end Cert.ReferenceIdeal.RefRun

end
-- ==== Proof.RefStA3.lean ====
/-
  One piece of the reference's run read back over an ARBITRARY valuation of the buffers: The graph-norm prefix, third part (the two gathers and the edge norm): operations 45–64.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem A3_v44 (x1 : (⟨S2x1600000, .i32⟩ : BufTy).Contents (Elt F)) (x2 : (⟨S1600000, .f32⟩ : BufTy).Contents (Elt F)) (h16 : W main_v16 = val_main_v16 (F := F) x1) (h17 : W main_v17 = val_main_v17 (F := F) x1)
    (h18 : W main_v18 = val_main_v18 (F := F) x1 x2) (h28 : W main_v28 = val_main_v28 (F := F) x1 x2) :
    after opsA3 W main_v44 = val_main_v44 (F := F) x1 x2 := by
  after_results_simp
  rw [h16, h17, h18, h28]
  rfl
theorem A3_keep_main_arg0 : after opsA3 W main_arg0 = W main_arg0 := by after_results_simp <;> rfl
theorem A3_keep_main_arg1 : after opsA3 W main_arg1 = W main_arg1 := by after_results_simp <;> rfl
theorem A3_keep_main_arg2 : after opsA3 W main_arg2 = W main_arg2 := by after_results_simp <;> rfl
theorem A3_keep_main_arg3 : after opsA3 W main_arg3 = W main_arg3 := by after_results_simp <;> rfl
theorem A3_keep_main_arg4 : after opsA3 W main_arg4 = W main_arg4 := by after_results_simp <;> rfl
theorem A3_keep_main_arg5 : after opsA3 W main_arg5 = W main_arg5 := by after_results_simp <;> rfl
theorem A3_keep_main_arg6 : after opsA3 W main_arg6 = W main_arg6 := by after_results_simp <;> rfl
theorem A3_keep_main_arg7 : after opsA3 W main_arg7 = W main_arg7 := by after_results_simp <;> rfl
theorem A3_keep_main_arg8 : after opsA3 W main_arg8 = W main_arg8 := by after_results_simp <;> rfl
theorem A3_keep_main_arg9 : after opsA3 W main_arg9 = W main_arg9 := by after_results_simp <;> rfl
theorem A3_keep_main_v16 : after opsA3 W main_v16 = W main_v16 := by after_results_simp <;> rfl
theorem A3_keep_main_v17 : after opsA3 W main_v17 = W main_v17 := by after_results_simp <;> rfl

end Cert.ReferenceIdeal.RefRun

end
-- ==== Proof.RefStB.lean ====
/-
  One piece of the reference's run read back over an ARBITRARY valuation of the buffers: Layer 1: operations 65–87.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem B_v62 (x1 : (⟨S2x1600000, .i32⟩ : BufTy).Contents (Elt F)) (x2 : (⟨S1600000, .f32⟩ : BufTy).Contents (Elt F)) (x3 : (⟨S100000x128, .f32⟩ : BufTy).Contents (Elt F)) (x4 : (⟨S128x128, .f32⟩ : BufTy).Contents (Elt F)) (x7 : (⟨S128, .f32⟩ : BufTy).Contents (Elt F))
    (h16 : W main_v16 = val_main_v16 (F := F) x1) (h17 : W main_v17 = val_main_v17 (F := F) x1) (h44 : W main_v44 = val_main_v44 (F := F) x1 x2)
    (h3 : W main_arg3 = x3) (h4 : W main_arg4 = x4) (h7 : W main_arg7 = x7) :
    after opsB W main_v62 = val_main_v62 (F := F) x1 x2 x3 x4 x7 := by
  after_results_simp
  rw [h16, h17, h44, h3, h4, h7]
  rfl
theorem B_keep_main_arg0 : after opsB W main_arg0 = W main_arg0 := by after_results_simp <;> rfl
theorem B_keep_main_arg1 : after opsB W main_arg1 = W main_arg1 := by after_results_simp <;> rfl
theorem B_keep_main_arg2 : after opsB W main_arg2 = W main_arg2 := by after_results_simp <;> rfl
theorem B_keep_main_arg3 : after opsB W main_arg3 = W main_arg3 := by after_results_simp <;> rfl
theorem B_keep_main_arg4 : after opsB W main_arg4 = W main_arg4 := by after_results_simp <;> rfl
theorem B_keep_main_arg5 : after opsB W main_arg5 = W main_arg5 := by after_results_simp <;> rfl
theorem B_keep_main_arg6 : after opsB W main_arg6 = W main_arg6 := by after_results_simp <;> rfl
theorem B_keep_main_arg7 : after opsB W main_arg7 = W main_arg7 := by after_results_simp <;> rfl
theorem B_keep_main_arg8 : after opsB W main_arg8 = W main_arg8 := by after_results_simp <;> rfl
theorem B_keep_main_arg9 : after opsB W main_arg9 = W main_arg9 := by after_results_simp <;> rfl
theorem B_keep_main_v16 : after opsB W main_v16 = W main_v16 := by after_results_simp <;> rfl
theorem B_keep_main_v17 : after opsB W main_v17 = W main_v17 := by after_results_simp <;> rfl
theorem B_keep_main_v44 : after opsB W main_v44 = W main_v44 := by after_results_simp <;> rfl

end Cert.ReferenceIdeal.RefRun

end
-- ==== Proof.RefStC.lean ====
/-
  One piece of the reference's run read back over an ARBITRARY valuation of the buffers: Layer 2: operations 88–110.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem C_v80 (x1 : (⟨S2x1600000, .i32⟩ : BufTy).Contents (Elt F)) (x2 : (⟨S1600000, .f32⟩ : BufTy).Contents (Elt F)) (x3 : (⟨S100000x128, .f32⟩ : BufTy).Contents (Elt F)) (x4 : (⟨S128x128, .f32⟩ : BufTy).Contents (Elt F)) (x5 : (⟨S128x128, .f32⟩ : BufTy).Contents (Elt F)) (x7 : (⟨S128, .f32⟩ : BufTy).Contents (Elt F)) (x8 : (⟨S128, .f32⟩ : BufTy).Contents (Elt F))
    (h16 : W main_v16 = val_main_v16 (F := F) x1) (h17 : W main_v17 = val_main_v17 (F := F) x1) (h44 : W main_v44 = val_main_v44 (F := F) x1 x2)
    (h62 : W main_v62 = val_main_v62 (F := F) x1 x2 x3 x4 x7) (h5 : W main_arg5 = x5) (h8 : W main_arg8 = x8) :
    after opsC W main_v80 = val_main_v80 (F := F) x1 x2 x3 x4 x5 x7 x8 := by
  after_results_simp
  rw [h16, h17, h44, h62, h5, h8]
  rfl
theorem C_keep_main_arg0 : after opsC W main_arg0 = W main_arg0 := by after_results_simp <;> rfl
theorem C_keep_main_arg1 : after opsC W main_arg1 = W main_arg1 := by after_results_simp <;> rfl
theorem C_keep_main_arg2 : after opsC W main_arg2 = W main_arg2 := by after_results_simp <;> rfl
theorem C_keep_main_arg3 : after opsC W main_arg3 = W main_arg3 := by after_results_simp <;> rfl
theorem C_keep_main_arg4 : after opsC W main_arg4 = W main_arg4 := by after_results_simp <;> rfl
theorem C_keep_main_arg5 : after opsC W main_arg5 = W main_arg5 := by after_results_simp <;> rfl
theorem C_keep_main_arg6 : after opsC W main_arg6 = W main_arg6 := by after_results_simp <;> rfl
theorem C_keep_main_arg7 : after opsC W main_arg7 = W main_arg7 := by after_results_simp <;> rfl
theorem C_keep_main_arg8 : after opsC W main_arg8 = W main_arg8 := by after_results_simp <;> rfl
theorem C_keep_main_arg9 : after opsC W main_arg9 = W main_arg9 := by after_results_simp <;> rfl
theorem C_keep_main_v16 : after opsC W main_v16 = W main_v16 := by after_results_simp <;> rfl
theorem C_keep_main_v17 : after opsC W main_v17 = W main_v17 := by after_results_simp <;> rfl
theorem C_keep_main_v44 : after opsC W main_v44 = W main_v44 := by after_results_simp <;> rfl
theorem C_keep_main_v62 : after opsC W main_v62 = W main_v62 := by after_results_simp <;> rfl

end Cert.ReferenceIdeal.RefRun

end
-- ==== Proof.RefStD.lean ====
/-
  One piece of the reference's run read back over an ARBITRARY valuation of the buffers: Layer 3: operations 111–133.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem D_v98 (x1 : (⟨S2x1600000, .i32⟩ : BufTy).Contents (Elt F)) (x2 : (⟨S1600000, .f32⟩ : BufTy).Contents (Elt F)) (x3 : (⟨S100000x128, .f32⟩ : BufTy).Contents (Elt F)) (x4 : (⟨S128x128, .f32⟩ : BufTy).Contents (Elt F)) (x5 : (⟨S128x128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F))
    (h16 : W main_v16 = val_main_v16 (F := F) x1) (h17 : W main_v17 = val_main_v17 (F := F) x1) (h44 : W main_v44 = val_main_v44 (F := F) x1 x2)
    (h80 : W main_v80 = val_main_v80 (F := F) x1 x2 x3 x4 x5 x7 x8) (h6 : W main_arg6 = x6) (h9 : W main_arg9 = x9) :
    after opsD W main_v98 = val_main_v98 (F := F) x1 x2 x3 x4 x5 x6 x7 x8 x9 := by
  after_results_simp
  rw [h16, h17, h44, h80, h6, h9]
  rfl
theorem D_keep_main_arg0 : after opsD W main_arg0 = W main_arg0 := by after_results_simp <;> rfl
theorem D_keep_main_arg1 : after opsD W main_arg1 = W main_arg1 := by after_results_simp <;> rfl
theorem D_keep_main_arg2 : after opsD W main_arg2 = W main_arg2 := by after_results_simp <;> rfl
theorem D_keep_main_arg3 : after opsD W main_arg3 = W main_arg3 := by after_results_simp <;> rfl
theorem D_keep_main_arg4 : after opsD W main_arg4 = W main_arg4 := by after_results_simp <;> rfl
theorem D_keep_main_arg5 : after opsD W main_arg5 = W main_arg5 := by after_results_simp <;> rfl
theorem D_keep_main_arg6 : after opsD W main_arg6 = W main_arg6 := by after_results_simp <;> rfl
theorem D_keep_main_arg7 : after opsD W main_arg7 = W main_arg7 := by after_results_simp <;> rfl
theorem D_keep_main_arg8 : after opsD W main_arg8 = W main_arg8 := by after_results_simp <;> rfl
theorem D_keep_main_arg9 : after opsD W main_arg9 = W main_arg9 := by after_results_simp <;> rfl
theorem D_keep_main_v62 : after opsD W main_v62 = W main_v62 := by after_results_simp <;> rfl
theorem D_keep_main_v80 : after opsD W main_v80 = W main_v80 := by after_results_simp <;> rfl

end Cert.ReferenceIdeal.RefRun

end
-- ==== Proof.RefStE.lean ====
/-
  One piece of the reference's run read back over an ARBITRARY valuation of the buffers: The final concatenation: operation 134.
  Its result is the generated stage function of the program's arguments once its few inputs are known to be such
  stage functions; every buffer it does not write keeps its contents.
-/
import proofs.«104296_j21801253994527_1_alg».proof.Proof.RefOps
import proofs.«104296_j21801253994527_1_alg».proof.Proof.RefReadP

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (W : Valuation τ sig (Elt F))

theorem E_v99 (x1 : (⟨S2x1600000, .i32⟩ : BufTy).Contents (Elt F)) (x2 : (⟨S1600000, .f32⟩ : BufTy).Contents (Elt F)) (x3 : (⟨S100000x128, .f32⟩ : BufTy).Contents (Elt F)) (x4 : (⟨S128x128, .f32⟩ : BufTy).Contents (Elt F)) (x5 : (⟨S128x128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F))
    (h3 : W main_arg3 = x3) (h62 : W main_v62 = val_main_v62 (F := F) x1 x2 x3 x4 x7) (h80 : W main_v80 = val_main_v80 (F := F) x1 x2 x3 x4 x5 x7 x8)
    (h98 : W main_v98 = val_main_v98 (F := F) x1 x2 x3 x4 x5 x6 x7 x8 x9) :
    after opsE W main_v99 = val_main_v99 (F := F) x1 x2 x3 x4 x5 x6 x7 x8 x9 := by
  after_results_simp
  show concatenate S100000x512 1 [⟨S100000x128, W main_arg3⟩, ⟨S100000x128, W main_v62⟩, ⟨S100000x128, W main_v80⟩, ⟨S100000x128, W main_v98⟩] concatenates_S100000x128_S100000x128_S100000x128_S100000x128_S100000x512_d1 = _
  rw [h3, h62, h80, h98]
  rfl
theorem E_keep_main_arg0 : after opsE W main_arg0 = W main_arg0 := by after_results_simp <;> rfl
theorem E_keep_main_arg1 : after opsE W main_arg1 = W main_arg1 := by after_results_simp <;> rfl
theorem E_keep_main_arg2 : after opsE W main_arg2 = W main_arg2 := by after_results_simp <;> rfl
theorem E_keep_main_arg3 : after opsE W main_arg3 = W main_arg3 := by after_results_simp <;> rfl
theorem E_keep_main_arg4 : after opsE W main_arg4 = W main_arg4 := by after_results_simp <;> rfl
theorem E_keep_main_arg5 : after opsE W main_arg5 = W main_arg5 := by after_results_simp <;> rfl
theorem E_keep_main_arg6 : after opsE W main_arg6 = W main_arg6 := by after_results_simp <;> rfl
theorem E_keep_main_arg7 : after opsE W main_arg7 = W main_arg7 := by after_results_simp <;> rfl
theorem E_keep_main_arg8 : after opsE W main_arg8 = W main_arg8 := by after_results_simp <;> rfl
theorem E_keep_main_arg9 : after opsE W main_arg9 = W main_arg9 := by after_results_simp <;> rfl

end Cert.ReferenceIdeal.RefRun

end
-- ==== Proof.RefRun.lean ====
/-
  The reference's run, read back stage by stage.  @main is 134 host operations in a row; its result's composed term is
  too deep to compare in one piece, so the list is cut where the computation has its joints (the graph-norm prefix in
  three parts, the three layers, the final concatenation), each piece is read back over an arbitrary valuation whose few
  inputs are known, and the pieces are chained: every weakly fair execution terminates, the result array at the last
  stage function of the argument arrays, the arguments unchanged.
-/
import proofs.«104296_j21801253994527_1_alg».proof.Proof.RefOps
import proofs.«104296_j21801253994527_1_alg».proof.Proof.RefReadP
import proofs.«104296_j21801253994527_1_alg».proof.Proof.RefStA1
import proofs.«104296_j21801253994527_1_alg».proof.Proof.RefStA1b
import proofs.«104296_j21801253994527_1_alg».proof.Proof.RefStA2
import proofs.«104296_j21801253994527_1_alg».proof.Proof.RefStA3
import proofs.«104296_j21801253994527_1_alg».proof.Proof.RefStB
import proofs.«104296_j21801253994527_1_alg».proof.Proof.RefStC
import proofs.«104296_j21801253994527_1_alg».proof.Proof.RefStD
import proofs.«104296_j21801253994527_1_alg».proof.Proof.RefStE

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- No operation writes an argument array. -/
theorem keep_arg0 (V : Valuation τ sig (Elt F)) : after ops V main_arg0 = V main_arg0 := by
  rw [ops_split, after_append, after_append, after_append, after_append, after_append, after_append, after_append,
    E_keep_main_arg0, D_keep_main_arg0, C_keep_main_arg0, B_keep_main_arg0, A3_keep_main_arg0, A2_keep_main_arg0, A1b_keep_main_arg0, A1_keep_main_arg0]
theorem keep_arg1 (V : Valuation τ sig (Elt F)) : after ops V main_arg1 = V main_arg1 := by
  rw [ops_split, after_append, after_append, after_append, after_append, after_append, after_append, after_append,
    E_keep_main_arg1, D_keep_main_arg1, C_keep_main_arg1, B_keep_main_arg1, A3_keep_main_arg1, A2_keep_main_arg1, A1b_keep_main_arg1, A1_keep_main_arg1]
theorem keep_arg2 (V : Valuation τ sig (Elt F)) : after ops V main_arg2 = V main_arg2 := by
  rw [ops_split, after_append, after_append, after_append, after_append, after_append, after_append, after_append,
    E_keep_main_arg2, D_keep_main_arg2, C_keep_main_arg2, B_keep_main_arg2, A3_keep_main_arg2, A2_keep_main_arg2, A1b_keep_main_arg2, A1_keep_main_arg2]
theorem keep_arg3 (V : Valuation τ sig (Elt F)) : after ops V main_arg3 = V main_arg3 := by
  rw [ops_split, after_append, after_append, after_append, after_append, after_append, after_append, after_append,
    E_keep_main_arg3, D_keep_main_arg3, C_keep_main_arg3, B_keep_main_arg3, A3_keep_main_arg3, A2_keep_main_arg3, A1b_keep_main_arg3, A1_keep_main_arg3]
theorem keep_arg4 (V : Valuation τ sig (Elt F)) : after ops V main_arg4 = V main_arg4 := by
  rw [ops_split, after_append, after_append, after_append, after_append, after_append, after_append, after_append,
    E_keep_main_arg4, D_keep_main_arg4, C_keep_main_arg4, B_keep_main_arg4, A3_keep_main_arg4, A2_keep_main_arg4, A1b_keep_main_arg4, A1_keep_main_arg4]
theorem keep_arg5 (V : Valuation τ sig (Elt F)) : after ops V main_arg5 = V main_arg5 := by
  rw [ops_split, after_append, after_append, after_append, after_append, after_append, after_append, after_append,
    E_keep_main_arg5, D_keep_main_arg5, C_keep_main_arg5, B_keep_main_arg5, A3_keep_main_arg5, A2_keep_main_arg5, A1b_keep_main_arg5, A1_keep_main_arg5]
theorem keep_arg6 (V : Valuation τ sig (Elt F)) : after ops V main_arg6 = V main_arg6 := by
  rw [ops_split, after_append, after_append, after_append, after_append, after_append, after_append, after_append,
    E_keep_main_arg6, D_keep_main_arg6, C_keep_main_arg6, B_keep_main_arg6, A3_keep_main_arg6, A2_keep_main_arg6, A1b_keep_main_arg6, A1_keep_main_arg6]
theorem keep_arg7 (V : Valuation τ sig (Elt F)) : after ops V main_arg7 = V main_arg7 := by
  rw [ops_split, after_append, after_append, after_append, after_append, after_append, after_append, after_append,
    E_keep_main_arg7, D_keep_main_arg7, C_keep_main_arg7, B_keep_main_arg7, A3_keep_main_arg7, A2_keep_main_arg7, A1b_keep_main_arg7, A1_keep_main_arg7]
theorem keep_arg8 (V : Valuation τ sig (Elt F)) : after ops V main_arg8 = V main_arg8 := by
  rw [ops_split, after_append, after_append, after_append, after_append, after_append, after_append, after_append,
    E_keep_main_arg8, D_keep_main_arg8, C_keep_main_arg8, B_keep_main_arg8, A3_keep_main_arg8, A2_keep_main_arg8, A1b_keep_main_arg8, A1_keep_main_arg8]
theorem keep_arg9 (V : Valuation τ sig (Elt F)) : after ops V main_arg9 = V main_arg9 := by
  rw [ops_split, after_append, after_append, after_append, after_append, after_append, after_append, after_append,
    E_keep_main_arg9, D_keep_main_arg9, C_keep_main_arg9, B_keep_main_arg9, A3_keep_main_arg9, A2_keep_main_arg9, A1b_keep_main_arg9, A1_keep_main_arg9]

/-- THE RESULT: after all 134 operations the result array is the last stage function of the argument arrays. -/
theorem value (m : (ℓ : Loc nD τ sig) → Buf (Elt F) ℓ) (c : Dev nD) :
    after ops (launchContents m c) main_v99 = val_main_v99 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, after_append, after_append, after_append, after_append, after_append, after_append, after_append]
  have o13 := A1_v13 (launchContents m c)
  have o14 := A1_v14 (launchContents m c)
  have o16 := A1_v16 (launchContents m c)
  have o17 := A1_v17 (launchContents m c)
  have o3a := A1_keep_main_arg3 (launchContents m c)
  have o4a := A1_keep_main_arg4 (launchContents m c)
  have o5a := A1_keep_main_arg5 (launchContents m c)
  have o6a := A1_keep_main_arg6 (launchContents m c)
  have o7a := A1_keep_main_arg7 (launchContents m c)
  have o8a := A1_keep_main_arg8 (launchContents m c)
  have o9a := A1_keep_main_arg9 (launchContents m c)
  generalize after opsA1 (launchContents m c) = W0 at *
  have p18 := A1b_v18 W0 _ _ o13 o14
  have p21 := A1b_v21 W0 _ _ o13 o14 o17
  have p16 := (A1b_keep_main_v16 W0).trans o16
  have p17 := (A1b_keep_main_v17 W0).trans o17
  have p3a := (A1b_keep_main_arg3 W0).trans o3a
  have p4a := (A1b_keep_main_arg4 W0).trans o4a
  have p5a := (A1b_keep_main_arg5 W0).trans o5a
  have p6a := (A1b_keep_main_arg6 W0).trans o6a
  have p7a := (A1b_keep_main_arg7 W0).trans o7a
  have p8a := (A1b_keep_main_arg8 W0).trans o8a
  have p9a := (A1b_keep_main_arg9 W0).trans o9a
  generalize after opsA1b W0 = W1 at *
  have q28 := A2_v28 W1 _ _ p21
  have q16 := (A2_keep_main_v16 W1).trans p16
  have q17 := (A2_keep_main_v17 W1).trans p17
  have q18 := (A2_keep_main_v18 W1).trans p18
  have q3a := (A2_keep_main_arg3 W1).trans p3a
  have q4a := (A2_keep_main_arg4 W1).trans p4a
  have q5a := (A2_keep_main_arg5 W1).trans p5a
  have q6a := (A2_keep_main_arg6 W1).trans p6a
  have q7a := (A2_keep_main_arg7 W1).trans p7a
  have q8a := (A2_keep_main_arg8 W1).trans p8a
  have q9a := (A2_keep_main_arg9 W1).trans p9a
  generalize after opsA2 W1 = W2 at *
  have a44 := A3_v44 W2 _ _ q16 q17 q18 q28
  have a16 := (A3_keep_main_v16 W2).trans q16
  have a17 := (A3_keep_main_v17 W2).trans q17
  have a3 := (A3_keep_main_arg3 W2).trans q3a
  have a4 := (A3_keep_main_arg4 W2).trans q4a
  have a5 := (A3_keep_main_arg5 W2).trans q5a
  have a6 := (A3_keep_main_arg6 W2).trans q6a
  have a7 := (A3_keep_main_arg7 W2).trans q7a
  have a8 := (A3_keep_main_arg8 W2).trans q8a
  have a9 := (A3_keep_main_arg9 W2).trans q9a
  generalize after opsA3 W2 = WA at *
  have b62 := B_v62 WA _ _ _ _ _ a16 a17 a44 a3 a4 a7
  have b16 := (B_keep_main_v16 WA).trans a16
  have b17 := (B_keep_main_v17 WA).trans a17
  have b44 := (B_keep_main_v44 WA).trans a44
  have b3 := (B_keep_main_arg3 WA).trans a3
  have b5 := (B_keep_main_arg5 WA).trans a5
  have b6 := (B_keep_main_arg6 WA).trans a6
  have b8 := (B_keep_main_arg8 WA).trans a8
  have b9 := (B_keep_main_arg9 WA).trans a9
  generalize after opsB WA = WB at *
  have c80 := C_v80 WB _ _ _ _ _ _ _ b16 b17 b44 b62 b5 b8
  have c16 := (C_keep_main_v16 WB).trans b16
  have c17 := (C_keep_main_v17 WB).trans b17
  have c44 := (C_keep_main_v44 WB).trans b44
  have c62 := (C_keep_main_v62 WB).trans b62
  have c3 := (C_keep_main_arg3 WB).trans b3
  have c6 := (C_keep_main_arg6 WB).trans b6
  have c9 := (C_keep_main_arg9 WB).trans b9
  generalize after opsC WB = WC at *
  have d98 := D_v98 WC _ _ _ _ _ _ _ _ _ c16 c17 c44 c80 c6 c9
  have d3 := (D_keep_main_arg3 WC).trans c3
  have d62 := (D_keep_main_v62 WC).trans c62
  have d80 := (D_keep_main_v80 WC).trans c80
  generalize after opsD WC = WD at *
  exact E_v99 WD _ _ _ _ _ _ _ _ _ d3 d62 d80 d98

/-- THE RUN of the reference: every weakly fair execution terminates, the result at the last stage function of the
    arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = val_main_v99 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v99).trans (value m c),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c))⟩)
    (run_seq scopedRefs_eq scopedSems_eq defs main (fun _ => ops) main_eq (fun _ => ops_sub) m ρ)

end Cert.ReferenceIdeal.RefRun

end
-- ==== Proof.lean ====
/-
  A three-layer graph convolution: the kernel program launches, per layer, a pallas region for the dense product of
  the node features with the layer's weights and a second one for the bias and the clamp at zero, with the gather over
  edges, the scaling by the symmetric degree norm and the scatter-add left to host operations; the reference does the
  same with a host product, a broadcast bias and a maximum.  The three frames: each program runs to its end from any
  memory, nothing faulting, its argument arrays unchanged (the two kernel programs through their six regions, each a
  grid of ten row blocks; the reference through its 134 host operations).  The ideal pass rewrote nothing, so the
  kernel's idealization is its own text.  At the ideal instance a region's ten blocks are restrictions of one
  whole-array function — the matrix product, or the bias-and-clamp — and the kernel program's chain of buffer contents
  composes them with the host operations to the very function of the arguments the reference computes: a change of
  float format is the identity there, a product accumulated into zeros is the host's product, and no law beyond
  re-indexing the contraction sum is needed, so finiteness of the inputs is never used.
-/
import proofs.«104296_j21801253994527_1_alg».proof.Defs
import proofs.«104296_j21801253994527_1_alg».proof.Proof.Gen.Kernel
import proofs.«104296_j21801253994527_1_alg».proof.Proof.Gen.KernelIdeal
import proofs.«104296_j21801253994527_1_alg».proof.Proof.Gen.ReferenceIdeal
import proofs.«104296_j21801253994527_1_alg».proof.Proof.Gen.Pre_finite_inputs
import proofs.«104296_j21801253994527_1_alg».proof.Proof.KRun
import proofs.«104296_j21801253994527_1_alg».proof.Proof.KIRun
import proofs.«104296_j21801253994527_1_alg».proof.Proof.KIValue
import proofs.«104296_j21801253994527_1_alg».proof.Proof.RefRun
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Reg.frame m ρ
theorem frame_ki : Cert.frame_KernelIdeal := fun m ρ _ => Cert.KernelIdeal.Reg.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the result array at one function of the (agreeing) argument arrays. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Reg.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨-, e1, e2, e3, e4, e5, e6, e7, e8, e9⟩ := hagree c
  rw [e1, e2, e3, e4, e5, e6, e7, e8, e9]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
